-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v259) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S65536 : Shape := ⟨1, ![65536]⟩
abbrev S65536x128 : Shape := ⟨2, ![65536, 128]⟩
abbrev S5x784x400 : Shape := ⟨3, ![5, 784, 400]⟩
abbrev S5x400 : Shape := ⟨2, ![5, 400]⟩
abbrev S5x400x256 : Shape := ⟨3, ![5, 400, 256]⟩
abbrev S5x256 : Shape := ⟨2, ![5, 256]⟩
abbrev S128x128 : Shape := ⟨2, ![128, 128]⟩
abbrev S128 : Shape := ⟨1, ![128]⟩
abbrev S5x128x400 : Shape := ⟨3, ![5, 128, 400]⟩
abbrev S5x400x784 : Shape := ⟨3, ![5, 400, 784]⟩
abbrev S5x784 : Shape := ⟨2, ![5, 784]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S5x784x400 : S_.BroadcastsInDim S5x784x400 (![] : Fin 0 → Fin S5x784x400.rank)
  reducesTo_S5x784x400_S_d0_1_2 : S5x784x400.ReducesTo [0, 1, 2] S_
  bcast_S_S5x400 : S_.BroadcastsInDim S5x400 (![] : Fin 0 → Fin S5x400.rank)
  reducesTo_S5x400_S_d0_1 : S5x400.ReducesTo [0, 1] S_
  bcast_S_S5x400x256 : S_.BroadcastsInDim S5x400x256 (![] : Fin 0 → Fin S5x400x256.rank)
  reducesTo_S5x400x256_S_d0_1_2 : S5x400x256.ReducesTo [0, 1, 2] S_
  bcast_S_S5x256 : S_.BroadcastsInDim S5x256 (![] : Fin 0 → Fin S5x256.rank)
  reducesTo_S5x256_S_d0_1 : S5x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S5x128x400 : S_.BroadcastsInDim S5x128x400 (![] : Fin 0 → Fin S5x128x400.rank)
  reducesTo_S5x128x400_S_d0_1_2 : S5x128x400.ReducesTo [0, 1, 2] S_
  bcast_S_S5x400x784 : S_.BroadcastsInDim S5x400x784 (![] : Fin 0 → Fin S5x400x784.rank)
  reducesTo_S5x400x784_S_d0_1_2 : S5x400x784.ReducesTo [0, 1, 2] S_
  bcast_S_S5x784 : S_.BroadcastsInDim S5x784 (![] : Fin 0 → Fin S5x784.rank)
  reducesTo_S5x784_S_d0_1 : S5x784.ReducesTo [0, 1] S_

variable [Facts]

def fn_part3 {F : FTy → Type} [FloatOps F] (main_arg12 : FVec F S5x784 .f32) (main_v48 : IVec S_ 1) (main_v49 : FVec F S5x400x784 .f32) (main_v50 : FVec F S5x400x784 .f32) : IVec S_ 1 :=
  let main_v51 : IVec S5x400x784 1 := cmpf .olt main_v49 main_v50
  let main_c_19 : IVec S_ 1 := constantI S_ 1 1#1
  let main_v52 : IVec S_ 1 := (fun x v => Host.reduce IntOp.andi x v reducesTo_S5x400x784_S_d0_1_2 h_S_) main_v51 main_c_19
  let main_v53 : IVec S_ 1 := andi main_v48 main_v52
  let main_v54 : FVec F S5x784 .f32 := Host.absf main_arg12
  let main_cst_20 : FVec F S_ .f32 := constant S_ .f32 0x7F800000#32
  let main_v55 : FVec F S5x784 .f32 := broadcastInDim S5x784 ![] bcast_S_S5x784 main_cst_20
  let main_v56 : IVec S5x784 1 := cmpf .olt main_v54 main_v55
  let main_c_21 : IVec S_ 1 := constantI S_ 1 1#1
  let main_v57 : IVec S_ 1 := (fun x v => Host.reduce IntOp.andi x v reducesTo_S5x784_S_d0_1 h_S_) main_v56 main_c_21
  let main_v58 : IVec S_ 1 := andi main_v53 main_v57
  main_v58

def fn_part2 {F : FTy → Type} [FloatOps F] (main_arg8 : FVec F S128 .f32) (main_arg9 : FVec F S5x128x400 .f32) (main_arg10 : FVec F S5x400 .f32) (main_arg11 : FVec F S5x400x784 .f32) (main_arg12 : FVec F S5x784 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S5x128x400 .f32 := Host.absf main_arg9
  let main_cst_14 : FVec F S_ .f32 := constant S_ .f32 0x7F800000#32
  let main_v40 : FVec F S5x128x400 .f32 := broadcastInDim S5x128x400 ![] bcast_S_S5x128x400 main_cst_14
  let main_v41 : IVec S5x128x400 1 := cmpf .olt main_v39 main_v40
  let main_c_15 : IVec S_ 1 := constantI S_ 1 1#1
  let main_v42 : IVec S_ 1 := (fun x v => Host.reduce IntOp.andi x v reducesTo_S5x128x400_S_d0_1_2 h_S_) main_v41 main_c_15
  let main_v43 : IVec S_ 1 := andi main_v38 main_v42
  let main_v44 : FVec F S5x400 .f32 := Host.absf main_arg10
  let main_cst_16 : FVec F S_ .f32 := constant S_ .f32 0x7F800000#32
  let main_v45 : FVec F S5x400 .f32 := broadcastInDim S5x400 ![] bcast_S_S5x400 main_cst_16
  let main_v46 : IVec S5x400 1 := cmpf .olt main_v44 main_v45
  let main_c_17 : IVec S_ 1 := constantI S_ 1 1#1
  let main_v47 : IVec S_ 1 := (fun x v => Host.reduce IntOp.andi x v reducesTo_S5x400_S_d0_1 h_S_) main_v46 main_c_17
  let main_v48 : IVec S_ 1 := andi main_v43 main_v47
  let main_v49 : FVec F S5x400x784 .f32 := Host.absf main_arg11
  let main_cst_18 : FVec F S_ .f32 := constant S_ .f32 0x7F800000#32
  let main_v50 : FVec F S5x400x784 .f32 := broadcastInDim S5x400x784 ![] bcast_S_S5x400x784 main_cst_18
  fn_part3 (F := F) main_arg12 main_v48 main_v49 main_v50

def fn_part1 {F : FTy → Type} [FloatOps F] (main_arg5 : FVec F S5x400x256 .f32) (main_arg6 : FVec F S5x256 .f32) (main_arg7 : FVec F S128x128 .f32) (main_arg8 : FVec F S128 .f32) (main_arg9 : FVec F S5x128x400 .f32) (main_arg10 : FVec F S5x400 .f32) (main_arg11 : FVec F S5x400x784 .f32) (main_arg12 : FVec F S5x784 .f32) (main_v13 : IVec S_ 1) (main_v16 : IVec S5x400 1) : IVec S_ 1 :=
  let main_c_5 : IVec S_ 1 := constantI S_ 1 1#1
  let main_v17 : IVec S_ 1 := (fun x v => Host.reduce IntOp.andi x v reducesTo_S5x400_S_d0_1 h_S_) main_v16 main_c_5
  let main_v18 : IVec S_ 1 := andi main_v13 main_v17
  let main_v19 : FVec F S5x400x256 .f32 := Host.absf main_arg5
  let main_cst_6 : FVec F S_ .f32 := constant S_ .f32 0x7F800000#32
  let main_v20 : FVec F S5x400x256 .f32 := broadcastInDim S5x400x256 ![] bcast_S_S5x400x256 main_cst_6
  let main_v21 : IVec S5x400x256 1 := cmpf .olt main_v19 main_v20
  let main_c_7 : IVec S_ 1 := constantI S_ 1 1#1
  let main_v22 : IVec S_ 1 := (fun x v => Host.reduce IntOp.andi x v reducesTo_S5x400x256_S_d0_1_2 h_S_) main_v21 main_c_7
  let main_v23 : IVec S_ 1 := andi main_v18 main_v22
  let main_v24 : FVec F S5x256 .f32 := Host.absf main_arg6
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S65536x784 .f32) (main_arg1 : IVec S65536 32) (main_arg2 : FVec F S65536x128 .f32) (main_arg3 : FVec F S5x784x400 .f32) (main_arg4 : FVec F S5x400 .f32) (main_arg5 : FVec F S5x400x256 .f32) (main_arg6 : FVec F S5x256 .f32) (main_arg7 : FVec F S128x128 .f32) (main_arg8 : FVec F S128 .f32) (main_arg9 : FVec F S5x128x400 .f32) (main_arg10 : FVec F S5x400 .f32) (main_arg11 : FVec F S5x400x784 .f32) (main_arg12 : FVec F S5x784 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S5x784x400 .f32 := Host.absf main_arg3
  let main_cst_2 : FVec F S_ .f32 := constant S_ .f32 0x7F800000#32
  let main_v10 : FVec F S5x784x400 .f32 := broadcastInDim S5x784x400 ![] bcast_S_S5x784x400 main_cst_2
  let main_v11 : IVec S5x784x400 1 := cmpf .olt main_v9 main_v10
  let main_c_3 : IVec S_ 1 := constantI S_ 1 1#1
  let main_v12 : IVec S_ 1 := (fun x v => Host.reduce IntOp.andi x v reducesTo_S5x784x400_S_d0_1_2 h_S_) main_v11 main_c_3
  let main_v13 : IVec S_ 1 := andi main_v8 main_v12
  let main_v14 : FVec F S5x400 .f32 := Host.absf main_arg4
  let main_cst_4 : FVec F S_ .f32 := constant S_ .f32 0x7F800000#32
  let main_v15 : FVec F S5x400 .f32 := broadcastInDim S5x400 ![] bcast_S_S5x400 main_cst_4
  let main_v16 : IVec S5x400 1 := cmpf .olt main_v14 main_v15
  fn_part1 (F := F) main_arg5 main_arg6 main_arg7 main_arg8 main_arg9 main_arg10 main_arg11 main_arg12 main_v13 main_v16
-- ==== Kernel.lean ====
abbrev S65536x784 : Shape := ⟨2, ![65536, 784]⟩
abbrev S65536 : Shape := ⟨1, ![65536]⟩
abbrev S65536x128 : Shape := ⟨2, ![65536, 128]⟩
abbrev S5x784x400 : Shape := ⟨3, ![5, 784, 400]⟩
abbrev S5x400 : Shape := ⟨2, ![5, 400]⟩
abbrev S5x400x256 : Shape := ⟨3, ![5, 400, 256]⟩
abbrev S5x256 : Shape := ⟨2, ![5, 256]⟩
abbrev S128x128 : Shape := ⟨2, ![128, 128]⟩
abbrev S128 : Shape := ⟨1, ![128]⟩
abbrev S5x128x400 : Shape := ⟨3, ![5, 128, 400]⟩
abbrev S5x400x784 : Shape := ⟨3, ![5, 400, 784]⟩
abbrev S5x784 : Shape := ⟨2, ![5, 784]⟩
abbrev S65536x1 : Shape := ⟨2, ![65536, 1]⟩
abbrev S1024x784 : Shape := ⟨2, ![1024, 784]⟩
abbrev S1024x1 : Shape := ⟨2, ![1024, 1]⟩
abbrev S1024x128 : Shape := ⟨2, ![1024, 128]⟩
abbrev S1024x256 : Shape := ⟨2, ![1024, 256]⟩
abbrev S1x784x400 : Shape := ⟨3, ![1, 784, 400]⟩
abbrev S784x400 : Shape := ⟨2, ![784, 400]⟩
abbrev S1x400 : Shape := ⟨2, ![1, 400]⟩
abbrev S400 : Shape := ⟨1, ![400]⟩
abbrev S1x400x256 : Shape := ⟨3, ![1, 400, 256]⟩
abbrev S400x256 : Shape := ⟨2, ![400, 256]⟩
abbrev S1x256 : Shape := ⟨2, ![1, 256]⟩
abbrev S256 : Shape := ⟨1, ![256]⟩
abbrev S1024x400 : Shape := ⟨2, ![1024, 400]⟩
abbrev S1x128 : Shape := ⟨2, ![1, 128]⟩
abbrev S1x128x400 : Shape := ⟨3, ![1, 128, 400]⟩
abbrev S128x400 : Shape := ⟨2, ![128, 400]⟩
abbrev S1x400x784 : Shape := ⟨3, ![1, 400, 784]⟩
abbrev S400x784 : Shape := ⟨2, ![400, 784]⟩
abbrev S1x784 : Shape := ⟨2, ![1, 784]⟩
abbrev S784 : Shape := ⟨1, ![784]⟩

abbrev nBuf : Space → Nat
  | .hbm => 17
  | .vmem => 28
  | .smem => 0
  | _ => 0

abbrev bufTy : (tb : Table) → Fin (tcTables nBuf tb) → BufTy
  | .hbm, ⟨0, _⟩ => ⟨S65536x784, .f32⟩
  | .hbm, ⟨1, _⟩ => ⟨S65536, .i32⟩
  | .hbm, ⟨2, _⟩ => ⟨S65536x128, .f32⟩
  | .hbm, ⟨3, _⟩ => ⟨S5x784x400, .f32⟩
  | .hbm, ⟨4, _⟩ => ⟨S5x400, .f32⟩
  | .hbm, ⟨5, _⟩ => ⟨S5x400x256, .f32⟩
  | .hbm, ⟨6, _⟩ => ⟨S5x256, .f32⟩
  | .hbm, ⟨7, _⟩ => ⟨S128x128, .f32⟩
  | .hbm, ⟨8, _⟩ => ⟨S128, .f32⟩
  | .hbm, ⟨9, _⟩ => ⟨S5x128x400, .f32⟩
  | .hbm, ⟨10, _⟩ => ⟨S5x400, .f32⟩
  | .hbm, ⟨11, _⟩ => ⟨S5x400x784, .f32⟩
  | .hbm, ⟨12, _⟩ => ⟨S5x784, .f32⟩
  | .hbm, ⟨13, _⟩ => ⟨S65536x1, .i32⟩
  | .hbm, ⟨14, _⟩ => ⟨S65536x128, .f32⟩
  | .hbm, ⟨15, _⟩ => ⟨S65536x128, .f32⟩
  | .hbm, ⟨16, _⟩ => ⟨S65536x784, .f32⟩
  | .local _ .vmem, ⟨0, _⟩ => ⟨S1024x784, .f32⟩
  | .local _ .vmem, ⟨1, _⟩ => ⟨S1024x784, .f32⟩
  | .local _ .vmem, ⟨2, _⟩ => ⟨S1024x1, .i32⟩
  | .local _ .vmem, ⟨3, _⟩ => ⟨S1024x1, .i32⟩
  | .local _ .vmem, ⟨4, _⟩ => ⟨S5x784x400, .f32⟩
  | .local _ .vmem, ⟨5, _⟩ => ⟨S5x400, .f32⟩
  | .local _ .vmem, ⟨6, _⟩ => ⟨S5x400x256, .f32⟩
  | .local _ .vmem, ⟨7, _⟩ => ⟨S5x256, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1, .i32⟩
  | .local _ .vmem, ⟨19, _⟩ => ⟨S1024x1, .i32⟩
  | .local _ .vmem, ⟨20, _⟩ => ⟨S128x128, .f32⟩
  | .local _ .vmem, ⟨21, _⟩ => ⟨S128, .f32⟩
  | .local _ .vmem, ⟨22, _⟩ => ⟨S5x128x400, .f32⟩
  | .local _ .vmem, ⟨23, _⟩ => ⟨S5x400, .f32⟩
  | .local _ .vmem, ⟨24, _⟩ => ⟨S5x400x784, .f32⟩
  | .local _ .vmem, ⟨25, _⟩ => ⟨S5x784, .f32⟩
  | .local _ .vmem, ⟨26, _⟩ => ⟨S1024x784, .f32⟩
  | .local _ .vmem, ⟨27, _⟩ => ⟨S1024x784, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x784x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x400x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x128x400 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S5x400 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x400x784 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S5x784 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x784 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S65536_S65536x1 : S65536.ShapeCasts S65536x1
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S5x784x400_S1x784x400_0_0_0 : ∀ a, (![0, 0, 0] : Fin 3 → Nat) a + S1x784x400.size a ≤ S5x784x400.size a
  h_S1x784x400 : 0 < S1x784x400.numel
  shapeCasts_S1x784x400_S784x400 : S1x784x400.ShapeCasts S784x400
  inb_S5x400_S1x400_0_0 : ∀ a, (![0, 0] : Fin 2 → Nat) a + S1x400.size a ≤ S5x400.size a
  h_S1x400 : 0 < S1x400.numel
  shapeCasts_S1x400_S400 : S1x400.ShapeCasts S400
  inb_S5x400x256_S1x400x256_0_0_0 : ∀ a, (![0, 0, 0] : Fin 3 → Nat) a + S1x400x256.size a ≤ S5x400x256.size a
  h_S1x400x256 : 0 < S1x400x256.numel
  shapeCasts_S1x400x256_S400x256 : S1x400x256.ShapeCasts S400x256
  inb_S5x256_S1x256_0_0 : ∀ a, (![0, 0] : Fin 2 → Nat) a + S1x256.size a ≤ S5x256.size a
  h_S1x256 : 0 < S1x256.numel
  shapeCasts_S1x256_S256 : S1x256.ShapeCasts S256
  shapeCasts_S400_S1x400 : S400.ShapeCasts S1x400
  broadcasts_S1x400_S1024x400 : S1x400.Broadcasts S1024x400
  shapeCasts_S256_S1x256 : S256.ShapeCasts S1x256
  broadcasts_S1x256_S1024x256 : S1x256.Broadcasts S1024x256
  natLt_1_32 : 1 < 32
  broadcasts_S1024x1_S1024x256 : S1024x1.Broadcasts S1024x256
  inb_S5x784x400_S1x784x400_1_0_0 : ∀ a, (![1, 0, 0] : Fin 3 → Nat) a + S1x784x400.size a ≤ S5x784x400.size a
  inb_S5x400_S1x400_1_0 : ∀ a, (![1, 0] : Fin 2 → Nat) a + S1x400.size a ≤ S5x400.size a
  inb_S5x400x256_S1x400x256_1_0_0 : ∀ a, (![1, 0, 0] : Fin 3 → Nat) a + S1x400x256.size a ≤ S5x400x256.size a
  inb_S5x256_S1x256_1_0 : ∀ a, (![1, 0] : Fin 2 → Nat) a + S1x256.size a ≤ S5x256.size a
  inb_S5x784x400_S1x784x400_2_0_0 : ∀ a, (![2, 0, 0] : Fin 3 → Nat) a + S1x784x400.size a ≤ S5x784x400.size a
  inb_S5x400_S1x400_2_0 : ∀ a, (![2, 0] : Fin 2 → Nat) a + S1x400.size a ≤ S5x400.size a
  inb_S5x400x256_S1x400x256_2_0_0 : ∀ a, (![2, 0, 0] : Fin 3 → Nat) a + S1x400x256.size a ≤ S5x400x256.size a
  inb_S5x256_S1x256_2_0 : ∀ a, (![2, 0] : Fin 2 → Nat) a + S1x256.size a ≤ S5x256.size a
  inb_S5x784x400_S1x784x400_3_0_0 : ∀ a, (![3, 0, 0] : Fin 3 → Nat) a + S1x784x400.size a ≤ S5x784x400.size a
  inb_S5x400_S1x400_3_0 : ∀ a, (![3, 0] : Fin 2 → Nat) a + S1x400.size a ≤ S5x400.size a
  inb_S5x400x256_S1x400x256_3_0_0 : ∀ a, (![3, 0, 0] : Fin 3 → Nat) a + S1x400x256.size a ≤ S5x400x256.size a
  inb_S5x256_S1x256_3_0 : ∀ a, (![3, 0] : Fin 2 → Nat) a + S1x256.size a ≤ S5x256.size a
  inb_S5x784x400_S1x784x400_4_0_0 : ∀ a, (![4, 0, 0] : Fin 3 → Nat) a + S1x784x400.size a ≤ S5x784x400.size a
  inb_S5x400_S1x400_4_0 : ∀ a, (![4, 0] : Fin 2 → Nat) a + S1x400.size a ≤ S5x400.size a
  inb_S5x400x256_S1x400x256_4_0_0 : ∀ a, (![4, 0, 0] : Fin 3 → Nat) a + S1x400x256.size a ≤ S5x400x256.size a
  inb_S5x256_S1x256_4_0 : ∀ a, (![4, 0] : Fin 2 → Nat) a + S1x256.size a ≤ S5x256.size a
  slices_S1024x256_o0_0_S1024x128 : S1024x256.Slices ![0, 0] S1024x128
  inb_S1024x128_S1024x128_0_0 : ∀ a, (![0, 0] : Fin 2 → Nat) a + S1024x128.size a ≤ S1024x128.size a
  h_S1024x128 : 0 < S1024x128.numel
  slices_S1024x256_o0_128_S1024x128 : S1024x256.Slices ![0, 128] S1024x128
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S5x128x400_S1x128x400_0_0_0 : ∀ a, (![0, 0, 0] : Fin 3 → Nat) a + S1x128x400.size a ≤ S5x128x400.size a
  h_S1x128x400 : 0 < S1x128x400.numel
  shapeCasts_S1x128x400_S128x400 : S1x128x400.ShapeCasts S128x400
  inb_S5x400x784_S1x400x784_0_0_0 : ∀ a, (![0, 0, 0] : Fin 3 → Nat) a + S1x400x784.size a ≤ S5x400x784.size a
  h_S1x400x784 : 0 < S1x400x784.numel
  shapeCasts_S1x400x784_S400x784 : S1x400x784.ShapeCasts S400x784
  inb_S5x784_S1x784_0_0 : ∀ a, (![0, 0] : Fin 2 → Nat) a + S1x784.size a ≤ S5x784.size a
  h_S1x784 : 0 < S1x784.numel
  shapeCasts_S1x784_S784 : S1x784.ShapeCasts S784
  shapeCasts_S784_S1x784 : S784.ShapeCasts S1x784
  broadcasts_S1x784_S1024x784 : S1x784.Broadcasts S1024x784
  broadcasts_S1024x1_S1024x784 : S1024x1.Broadcasts S1024x784
  inb_S5x128x400_S1x128x400_1_0_0 : ∀ a, (![1, 0, 0] : Fin 3 → Nat) a + S1x128x400.size a ≤ S5x128x400.size a
  inb_S5x400x784_S1x400x784_1_0_0 : ∀ a, (![1, 0, 0] : Fin 3 → Nat) a + S1x400x784.size a ≤ S5x400x784.size a
  inb_S5x784_S1x784_1_0 : ∀ a, (![1, 0] : Fin 2 → Nat) a + S1x784.size a ≤ S5x784.size a
  inb_S5x128x400_S1x128x400_2_0_0 : ∀ a, (![2, 0, 0] : Fin 3 → Nat) a + S1x128x400.size a ≤ S5x128x400.size a
  inb_S5x400x784_S1x400x784_2_0_0 : ∀ a, (![2, 0, 0] : Fin 3 → Nat) a + S1x400x784.size a ≤ S5x400x784.size a
  inb_S5x784_S1x784_2_0 : ∀ a, (![2, 0] : Fin 2 → Nat) a + S1x784.size a ≤ S5x784.size a
  inb_S5x128x400_S1x128x400_3_0_0 : ∀ a, (![3, 0, 0] : Fin 3 → Nat) a + S1x128x400.size a ≤ S5x128x400.size a
  inb_S5x400x784_S1x400x784_3_0_0 : ∀ a, (![3, 0, 0] : Fin 3 → Nat) a + S1x400x784.size a ≤ S5x400x784.size a
  inb_S5x784_S1x784_3_0 : ∀ a, (![3, 0] : Fin 2 → Nat) a + S1x784.size a ≤ S5x784.size a
  inb_S5x128x400_S1x128x400_4_0_0 : ∀ a, (![4, 0, 0] : Fin 3 → Nat) a + S1x128x400.size a ≤ S5x128x400.size a
  inb_S5x400x784_S1x400x784_4_0_0 : ∀ a, (![4, 0, 0] : Fin 3 → Nat) a + S1x400x784.size a ≤ S5x400x784.size a
  inb_S5x784_S1x784_4_0 : ∀ a, (![4, 0] : Fin 2 → Nat) a + S1x784.size a ≤ S5x784.size a
  dot_S1024x784_S784x400_S1024x400_1_0_0_1_n_n_wf : DotDims.WF S1024x784 S784x400 S1024x400 [1] [0] [0] [1] [] []
  dot_S1024x400_S400x256_S1024x256_1_0_0_1_n_n_wf : DotDims.WF S1024x400 S400x256 S1024x256 [1] [0] [0] [1] [] []
  dot_S1024x128_S128x128_S1024x128_1_0_0_1_n_n_wf : DotDims.WF S1024x128 S128x128 S1024x128 [1] [0] [0] [1] [] []
  dot_S1024x128_S128x400_S1024x400_1_0_0_1_n_n_wf : DotDims.WF S1024x128 S128x400 S1024x400 [1] [0] [0] [1] [] []
  dot_S1024x400_S400x784_S1024x784_1_0_0_1_n_n_wf : DotDims.WF S1024x400 S400x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x784x400.size a ≤ S5x784x400.size a
  hwx0_2 : ∀ i : grid0.Coords, EltTy.bits .f32 = 32 ∨ (Rect.block (s := S5x784x400) S5x784x400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x400.size a ≤ S5x400.size a
  hwx0_3 : ∀ i : grid0.Coords, EltTy.bits .f32 = 32 ∨ (Rect.block (s := S5x400) S5x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x400x256.size a ≤ S5x400x256.size a
  hwx0_4 : ∀ i : grid0.Coords, EltTy.bits .f32 = 32 ∨ (Rect.block (s := S5x400x256) S5x400x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x256.size a ≤ S5x256.size a
  hwx0_5 : ∀ i : grid0.Coords, EltTy.bits .f32 = 32 ∨ (Rect.block (s := S5x256) S5x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S65536x128.size a
  hwx0_6 : ∀ i : grid0.Coords, EltTy.bits .f32 = 32 ∨ (Rect.block (s := S65536x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S65536x128.size a
  hwx0_7 : ∀ i : grid0.Coords, EltTy.bits .f32 = 32 ∨ (Rect.block (s := S65536x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S65536x128.size a
  hwx1_0 : ∀ i : grid1.Coords, EltTy.bits .f32 = 32 ∨ (Rect.block (s := S65536x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S65536x128.size a
  hwx1_1 : ∀ i : grid1.Coords, EltTy.bits .f32 = 32 ∨ (Rect.block (s := S65536x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S65536x128.size a
  hwx1_2 : ∀ i : grid1.Coords, EltTy.bits .f32 = 32 ∨ (Rect.block (s := S65536x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S65536x1.size a
  hwx1_3 : ∀ i : grid1.Coords, EltTy.bits .i32 = 32 ∨ (Rect.block (s := S65536x1) S1024x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5x128x400.size a ≤ S5x128x400.size a
  hwx1_6 : ∀ i : grid1.Coords, EltTy.bits .f32 = 32 ∨ (Rect.block (s := S5x128x400) S5x128x400.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S5x400.size a ≤ S5x400.size a
  hwx1_7 : ∀ i : grid1.Coords, EltTy.bits .f32 = 32 ∨ (Rect.block (s := S5x400) S5x400.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S5x400x784.size a ≤ S5x400x784.size a
  hwx1_8 : ∀ i : grid1.Coords, EltTy.bits .f32 = 32 ∨ (Rect.block (s := S5x400x784) S5x400x784.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S5x784.size a ≤ S5x784.size a
  hwx1_9 : ∀ i : grid1.Coords, EltTy.bits .f32 = 32 ∨ (Rect.block (s := S5x784) S5x784.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x784.size a ≤ S65536x784.size a
  hwx1_10 : ∀ i : grid1.Coords, EltTy.bits .f32 = 32 ∨ (Rect.block (s := S65536x784) S1024x784.size (cc1_transform_10 i) (hinb1_10 i)).WholeWords (EltTy.packing .f32)

variable [Facts₀]

def dot_S1024x784_S784x400_S1024x400_1_0_0_1_n_n : DotDims S1024x784 S784x400 S1024x400 where
  lhsContracting := [1]
  rhsContracting := [0]
  lhsNonContracting := [0]
  rhsNonContracting := [1]
  lhsBatch := []
  rhsBatch := []
  wf := dot_S1024x784_S784x400_S1024x400_1_0_0_1_n_n_wf
def dot_S1024x400_S400x256_S1024x256_1_0_0_1_n_n : DotDims S1024x400 S400x256 S1024x256 where
  lhsContracting := [1]
  rhsContracting := [0]
  lhsNonContracting := [0]
  rhsNonContracting := [1]
  lhsBatch := []
  rhsBatch := []
  wf := dot_S1024x400_S400x256_S1024x256_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x400_S1024x400_1_0_0_1_n_n : DotDims S1024x128 S128x400 S1024x400 where
  lhsContracting := [1]
  rhsContracting := [0]
  lhsNonContracting := [0]
  rhsNonContracting := [1]
  lhsBatch := []
  rhsBatch := []
  wf := dot_S1024x128_S128x400_S1024x400_1_0_0_1_n_n_wf
def dot_S1024x400_S400x784_S1024x784_1_0_0_1_n_n : DotDims S1024x400 S400x784 S1024x784 where
  lhsContracting := [1]
  rhsContracting := [0]
  lhsNonContracting := [0]
  rhsNonContracting := [1]
  lhsBatch := []
  rhsBatch := []
  wf := dot_S1024x400_S400x784_S1024x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x784x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S5x400x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S5x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S5x128x400.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S5x400.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S5x400x784.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S5x784.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v2) S1024x784.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S65536x784 : Shape := ⟨2, ![65536, 784]⟩
abbrev S65536 : Shape := ⟨1, ![65536]⟩
abbrev S65536x128 : Shape := ⟨2, ![65536, 128]⟩
abbrev S5x784x400 : Shape := ⟨3, ![5, 784, 400]⟩
abbrev S5x400 : Shape := ⟨2, ![5, 400]⟩
abbrev S5x400x256 : Shape := ⟨3, ![5, 400, 256]⟩
abbrev S5x256 : Shape := ⟨2, ![5, 256]⟩
abbrev S128x128 : Shape := ⟨2, ![128, 128]⟩
abbrev S128 : Shape := ⟨1, ![128]⟩
abbrev S5x128x400 : Shape := ⟨3, ![5, 128, 400]⟩
abbrev S5x400x784 : Shape := ⟨3, ![5, 400, 784]⟩
abbrev S5x784 : Shape := ⟨2, ![5, 784]⟩
abbrev S_ : Shape := ⟨0, ![]⟩
abbrev S65536x256 : Shape := ⟨2, ![65536, 256]⟩
abbrev S1x784x400 : Shape := ⟨3, ![1, 784, 400]⟩
abbrev S784x400 : Shape := ⟨2, ![784, 400]⟩
abbrev S65536x400 : Shape := ⟨2, ![65536, 400]⟩
abbrev S1x400 : Shape := ⟨2, ![1, 400]⟩
abbrev S400 : Shape := ⟨1, ![400]⟩
abbrev S1x400x256 : Shape := ⟨3, ![1, 400, 256]⟩
abbrev S400x256 : Shape := ⟨2, ![400, 256]⟩
abbrev S1x256 : Shape := ⟨2, ![1, 256]⟩
abbrev S256 : Shape := ⟨1, ![256]⟩
abbrev S65536x1 : Shape := ⟨2, ![65536, 1]⟩
abbrev S1x128 : Shape := ⟨2, ![1, 128]⟩
abbrev S1x128x400 : Shape := ⟨3, ![1, 128, 400]⟩
abbrev S128x400 : Shape := ⟨2, ![128, 400]⟩
abbrev S1x400x784 : Shape := ⟨3, ![1, 400, 784]⟩
abbrev S400x784 : Shape := ⟨2, ![400, 784]⟩
abbrev S1x784 : Shape := ⟨2, ![1, 784]⟩
abbrev S784 : Shape := ⟨1, ![784]⟩

abbrev nBuf : Space → Nat
  | .hbm => 315
  | .vmem => 0
  | .smem => 0
  | _ => 0

abbrev hbmTy0_0 (i : Nat) : BufTy := match i % 128 with
  | 0 => ⟨S65536x784, .f32⟩
  | 1 => ⟨S65536, .i32⟩
  | 2 => ⟨S65536x128, .f32⟩
  | 3 => ⟨S5x784x400, .f32⟩
  | 4 => ⟨S5x400, .f32⟩
  | 5 => ⟨S5x400x256, .f32⟩
  | 6 => ⟨S5x256, .f32⟩
  | 7 => ⟨S128x128, .f32⟩
  | 8 => ⟨S128, .f32⟩
  | 9 => ⟨S5x128x400, .f32⟩
  | 10 => ⟨S5x400, .f32⟩
  | 11 => ⟨S5x400x784, .f32⟩
  | 12 => ⟨S5x784, .f32⟩
  | 13 => ⟨S_, .f32⟩
  | 14 => ⟨S65536x256, .f32⟩
  | 15 => ⟨S1x784x400, .f32⟩
  | 16 => ⟨S784x400, .f32⟩
  | 17 => ⟨S65536x400, .f32⟩
  | 18 => ⟨S1x400, .f32⟩
  | 19 => ⟨S400, .f32⟩
  | 20 => ⟨S1x400, .f32⟩
  | 21 => ⟨S65536x400, .f32⟩
  | 22 => ⟨S65536x400, .f32⟩
  | 23 => ⟨S_, .f32⟩
  | 24 => ⟨S65536x400, .f32⟩
  | 25 => ⟨S65536x400, .f32⟩
  | 26 => ⟨S1x400x256, .f32⟩
  | 27 => ⟨S400x256, .f32⟩
  | 28 => ⟨S65536x256, .f32⟩
  | 29 => ⟨S1x256, .f32⟩
  | 30 => ⟨S256, .f32⟩
  | 31 => ⟨S1x256, .f32⟩
  | 32 => ⟨S65536x256, .f32⟩
  | 33 => ⟨S65536x256, .f32⟩
  | 34 => ⟨S_, .i32⟩
  | 35 => ⟨S65536, .i32⟩
  | 36 => ⟨S65536, .i1⟩
  | 37 => ⟨S65536, .f32⟩
  | 38 => ⟨S65536x1, .f32⟩
  | 39 => ⟨S65536x256, .f32⟩
  | 40 => ⟨S65536x256, .f32⟩
  | 41 => ⟨S65536x256, .f32⟩
  | 42 => ⟨S1x784x400, .f32⟩
  | 43 => ⟨S784x400, .f32⟩
  | 44 => ⟨S65536x400, .f32⟩
  | 45 => ⟨S1x400, .f32⟩
  | 46 => ⟨S400, .f32⟩
  | 47 => ⟨S1x400, .f32⟩
  | 48 => ⟨S65536x400, .f32⟩
  | 49 => ⟨S65536x400, .f32⟩
  | 50 => ⟨S_, .f32⟩
  | 51 => ⟨S65536x400, .f32⟩
  | 52 => ⟨S65536x400, .f32⟩
  | 53 => ⟨S1x400x256, .f32⟩
  | 54 => ⟨S400x256, .f32⟩
  | 55 => ⟨S65536x256, .f32⟩
  | 56 => ⟨S1x256, .f32⟩
  | 57 => ⟨S256, .f32⟩
  | 58 => ⟨S1x256, .f32⟩
  | 59 => ⟨S65536x256, .f32⟩
  | 60 => ⟨S65536x256, .f32⟩
  | 61 => ⟨S_, .i32⟩
  | 62 => ⟨S65536, .i32⟩
  | 63 => ⟨S65536, .i1⟩
  | 64 => ⟨S65536, .f32⟩
  | 65 => ⟨S65536x1, .f32⟩
  | 66 => ⟨S65536x256, .f32⟩
  | 67 => ⟨S65536x256, .f32⟩
  | 68 => ⟨S65536x256, .f32⟩
  | 69 => ⟨S1x784x400, .f32⟩
  | 70 => ⟨S784x400, .f32⟩
  | 71 => ⟨S65536x400, .f32⟩
  | 72 => ⟨S1x400, .f32⟩
  | 73 => ⟨S400, .f32⟩
  | 74 => ⟨S1x400, .f32⟩
  | 75 => ⟨S65536x400, .f32⟩
  | 76 => ⟨S65536x400, .f32⟩
  | 77 => ⟨S_, .f32⟩
  | 78 => ⟨S65536x400, .f32⟩
  | 79 => ⟨S65536x400, .f32⟩
  | 80 => ⟨S1x400x256, .f32⟩
  | 81 => ⟨S400x256, .f32⟩
  | 82 => ⟨S65536x256, .f32⟩
  | 83 => ⟨S1x256, .f32⟩
  | 84 => ⟨S256, .f32⟩
  | 85 => ⟨S1x256, .f32⟩
  | 86 => ⟨S65536x256, .f32⟩
  | 87 => ⟨S65536x256, .f32⟩
  | 88 => ⟨S_, .i32⟩
  | 89 => ⟨S65536, .i32⟩
  | 90 => ⟨S65536, .i1⟩
  | 91 => ⟨S65536, .f32⟩
  | 92 => ⟨S65536x1, .f32⟩
  | 93 => ⟨S65536x256, .f32⟩
  | 94 => ⟨S65536x256, .f32⟩
  | 95 => ⟨S65536x256, .f32⟩
  | 96 => ⟨S1x784x400, .f32⟩
  | 97 => ⟨S784x400, .f32⟩
  | 98 => ⟨S65536x400, .f32⟩
  | 99 => ⟨S1x400, .f32⟩
  | 100 => ⟨S400, .f32⟩
  | 101 => ⟨S1x400, .f32⟩
  | 102 => ⟨S65536x400, .f32⟩
  | 103 => ⟨S65536x400, .f32⟩
  | 104 => ⟨S_, .f32⟩
  | 105 => ⟨S65536x400, .f32⟩
  | 106 => ⟨S65536x400, .f32⟩
  | 107 => ⟨S1x400x256, .f32⟩
  | 108 => ⟨S400x256, .f32⟩
  | 109 => ⟨S65536x256, .f32⟩
  | 110 => ⟨S1x256, .f32⟩
  | 111 => ⟨S256, .f32⟩
  | 112 => ⟨S1x256, .f32⟩
  | 113 => ⟨S65536x256, .f32⟩
  | 114 => ⟨S65536x256, .f32⟩
  | 115 => ⟨S_, .i32⟩
  | 116 => ⟨S65536, .i32⟩
  | 117 => ⟨S65536, .i1⟩
  | 118 => ⟨S65536, .f32⟩
  | 119 => ⟨S65536x1, .f32⟩
  | 120 => ⟨S65536x256, .f32⟩
  | 121 => ⟨S65536x256, .f32⟩
  | 122 => ⟨S65536x256, .f32⟩
  | 123 => ⟨S1x784x400, .f32⟩
  | 124 => ⟨S784x400, .f32⟩
  | 125 => ⟨S65536x400, .f32⟩
  | 126 => ⟨S1x400, .f32⟩
  | 127 => ⟨S400, .f32⟩
  | _ => ⟨S65536x784, .f32⟩

abbrev hbmTy0_1 (i : Nat) : BufTy := match i % 128 with
  | 0 => ⟨S1x400, .f32⟩
  | 1 => ⟨S65536x400, .f32⟩
  | 2 => ⟨S65536x400, .f32⟩
  | 3 => ⟨S_, .f32⟩
  | 4 => ⟨S65536x400, .f32⟩
  | 5 => ⟨S65536x400, .f32⟩
  | 6 => ⟨S1x400x256, .f32⟩
  | 7 => ⟨S400x256, .f32⟩
  | 8 => ⟨S65536x256, .f32⟩
  | 9 => ⟨S1x256, .f32⟩
  | 10 => ⟨S256, .f32⟩
  | 11 => ⟨S1x256, .f32⟩
  | 12 => ⟨S65536x256, .f32⟩
  | 13 => ⟨S65536x256, .f32⟩
  | 14 => ⟨S_, .i32⟩
  | 15 => ⟨S65536, .i32⟩
  | 16 => ⟨S65536, .i1⟩
  | 17 => ⟨S65536, .f32⟩
  | 18 => ⟨S65536x1, .f32⟩
  | 19 => ⟨S65536x256, .f32⟩
  | 20 => ⟨S65536x256, .f32⟩
  | 21 => ⟨S65536x256, .f32⟩
  | 22 => ⟨S65536x128, .f32⟩
  | 23 => ⟨S65536x128, .f32⟩
  | 24 => ⟨S_, .f32⟩
  | 25 => ⟨S65536x128, .f32⟩
  | 26 => ⟨S65536x128, .f32⟩
  | 27 => ⟨S65536x128, .f32⟩
  | 28 => ⟨S65536x128, .f32⟩
  | 29 => ⟨S65536x128, .f32⟩
  | 30 => ⟨S65536x128, .f32⟩
  | 31 => ⟨S1x128, .f32⟩
  | 32 => ⟨S65536x128, .f32⟩
  | 33 => ⟨S65536x128, .f32⟩
  | 34 => ⟨S_, .f32⟩
  | 35 => ⟨S65536x784, .f32⟩
  | 36 => ⟨S1x128x400, .f32⟩
  | 37 => ⟨S128x400, .f32⟩
  | 38 => ⟨S65536x400, .f32⟩
  | 39 => ⟨S1x400, .f32⟩
  | 40 => ⟨S400, .f32⟩
  | 41 => ⟨S1x400, .f32⟩
  | 42 => ⟨S65536x400, .f32⟩
  | 43 => ⟨S65536x400, .f32⟩
  | 44 => ⟨S_, .f32⟩
  | 45 => ⟨S65536x400, .f32⟩
  | 46 => ⟨S65536x400, .f32⟩
  | 47 => ⟨S1x400x784, .f32⟩
  | 48 => ⟨S400x784, .f32⟩
  | 49 => ⟨S65536x784, .f32⟩
  | 50 => ⟨S1x784, .f32⟩
  | 51 => ⟨S784, .f32⟩
  | 52 => ⟨S1x784, .f32⟩
  | 53 => ⟨S65536x784, .f32⟩
  | 54 => ⟨S65536x784, .f32⟩
  | 55 => ⟨S_, .i32⟩
  | 56 => ⟨S65536, .i32⟩
  | 57 => ⟨S65536, .i1⟩
  | 58 => ⟨S65536, .f32⟩
  | 59 => ⟨S65536x1, .f32⟩
  | 60 => ⟨S65536x784, .f32⟩
  | 61 => ⟨S65536x784, .f32⟩
  | 62 => ⟨S65536x784, .f32⟩
  | 63 => ⟨S1x128x400, .f32⟩
  | 64 => ⟨S128x400, .f32⟩
  | 65 => ⟨S65536x400, .f32⟩
  | 66 => ⟨S1x400, .f32⟩
  | 67 => ⟨S400, .f32⟩
  | 68 => ⟨S1x400, .f32⟩
  | 69 => ⟨S65536x400, .f32⟩
  | 70 => ⟨S65536x400, .f32⟩
  | 71 => ⟨S_, .f32⟩
  | 72 => ⟨S65536x400, .f32⟩
  | 73 => ⟨S65536x400, .f32⟩
  | 74 => ⟨S1x400x784, .f32⟩
  | 75 => ⟨S400x784, .f32⟩
  | 76 => ⟨S65536x784, .f32⟩
  | 77 => ⟨S1x784, .f32⟩
  | 78 => ⟨S784, .f32⟩
  | 79 => ⟨S1x784, .f32⟩
  | 80 => ⟨S65536x784, .f32⟩
  | 81 => ⟨S65536x784, .f32⟩
  | 82 => ⟨S_, .i32⟩
  | 83 => ⟨S65536, .i32⟩
  | 84 => ⟨S65536, .i1⟩
  | 85 => ⟨S65536, .f32⟩
  | 86 => ⟨S65536x1, .f32⟩
  | 87 => ⟨S65536x784, .f32⟩
  | 88 => ⟨S65536x784, .f32⟩
  | 89 => ⟨S65536x784, .f32⟩
  | 90 => ⟨S1x128x400, .f32⟩
  | 91 => ⟨S128x400, .f32⟩
  | 92 => ⟨S65536x400, .f32⟩
  | 93 => ⟨S1x400, .f32⟩
  | 94 => ⟨S400, .f32⟩
  | 95 => ⟨S1x400, .f32⟩
  | 96 => ⟨S65536x400, .f32⟩
  | 97 => ⟨S65536x400, .f32⟩
  | 98 => ⟨S_, .f32⟩
  | 99 => ⟨S65536x400, .f32⟩
  | 100 => ⟨S65536x400, .f32⟩
  | 101 => ⟨S1x400x784, .f32⟩
  | 102 => ⟨S400x784, .f32⟩
  | 103 => ⟨S65536x784, .f32⟩
  | 104 => ⟨S1x784, .f32⟩
  | 105 => ⟨S784, .f32⟩
  | 106 => ⟨S1x784, .f32⟩
  | 107 => ⟨S65536x784, .f32⟩
  | 108 => ⟨S65536x784, .f32⟩
  | 109 => ⟨S_, .i32⟩
  | 110 => ⟨S65536, .i32⟩
  | 111 => ⟨S65536, .i1⟩
  | 112 => ⟨S65536, .f32⟩
  | 113 => ⟨S65536x1, .f32⟩
  | 114 => ⟨S65536x784, .f32⟩
  | 115 => ⟨S65536x784, .f32⟩
  | 116 => ⟨S65536x784, .f32⟩
  | 117 => ⟨S1x128x400, .f32⟩
  | 118 => ⟨S128x400, .f32⟩
  | 119 => ⟨S65536x400, .f32⟩
  | 120 => ⟨S1x400, .f32⟩
  | 121 => ⟨S400, .f32⟩
  | 122 => ⟨S1x400, .f32⟩
  | 123 => ⟨S65536x400, .f32⟩
  | 124 => ⟨S65536x400, .f32⟩
  | 125 => ⟨S_, .f32⟩
  | 126 => ⟨S65536x400, .f32⟩
  | 127 => ⟨S65536x400, .f32⟩
  | _ => ⟨S65536x784, .f32⟩

abbrev hbmTy0_2 (i : Nat) : BufTy := match i % 128 with
  | 0 => ⟨S1x400x784, .f32⟩
  | 1 => ⟨S400x784, .f32⟩
  | 2 => ⟨S65536x784, .f32⟩
  | 3 => ⟨S1x784, .f32⟩
  | 4 => ⟨S784, .f32⟩
  | 5 => ⟨S1x784, .f32⟩
  | 6 => ⟨S65536x784, .f32⟩
  | 7 => ⟨S65536x784, .f32⟩
  | 8 => ⟨S_, .i32⟩
  | 9 => ⟨S65536, .i32⟩
  | 10 => ⟨S65536, .i1⟩
  | 11 => ⟨S65536, .f32⟩
  | 12 => ⟨S65536x1, .f32⟩
  | 13 => ⟨S65536x784, .f32⟩
  | 14 => ⟨S65536x784, .f32⟩
  | 15 => ⟨S65536x784, .f32⟩
  | 16 => ⟨S1x128x400, .f32⟩
  | 17 => ⟨S128x400, .f32⟩
  | 18 => ⟨S65536x400, .f32⟩
  | 19 => ⟨S1x400, .f32⟩
  | 20 => ⟨S400, .f32⟩
  | 21 => ⟨S1x400, .f32⟩
  | 22 => ⟨S65536x400, .f32⟩
  | 23 => ⟨S65536x400, .f32⟩
  | 24 => ⟨S_, .f32⟩
  | 25 => ⟨S65536x400, .f32⟩
  | 26 => ⟨S65536x400, .f32⟩
  | 27 => ⟨S1x400x784, .f32⟩
  | 28 => ⟨S400x784, .f32⟩
  | 29 => ⟨S65536x784, .f32⟩
  | 30 => ⟨S1x784, .f32⟩
  | 31 => ⟨S784, .f32⟩
  | 32 => ⟨S1x784, .f32⟩
  | 33 => ⟨S65536x784, .f32⟩
  | 34 => ⟨S65536x784, .f32⟩
  | 35 => ⟨S_, .i32⟩
  | 36 => ⟨S65536, .i32⟩
  | 37 => ⟨S65536, .i1⟩
  | 38 => ⟨S65536, .f32⟩
  | 39 => ⟨S65536x1, .f32⟩
  | 40 => ⟨S65536x784, .f32⟩
  | 41 => ⟨S65536x784, .f32⟩
  | 42 => ⟨S65536x784, .f32⟩
  | 43 => ⟨S65536x784, .f32⟩
  | 44 => ⟨S65536x784, .f32⟩
  | 45 => ⟨S_, .f32⟩
  | 46 => ⟨S65536x784, .f32⟩
  | 47 => ⟨S65536x784, .f32⟩
  | 48 => ⟨S_, .f32⟩
  | 49 => ⟨S65536x784, .f32⟩
  | 50 => ⟨S65536x784, .f32⟩
  | 51 => ⟨S_, .f32⟩
  | 52 => ⟨S_, .f32⟩
  | 53 => ⟨S_, .f32⟩
  | 54 => ⟨S65536x784, .f32⟩
  | 55 => ⟨S65536x784, .f32⟩
  | 56 => ⟨S_, .f32⟩
  | 57 => ⟨S65536x784, .f32⟩
  | 58 => ⟨S65536x784, .f32⟩
  | _ => ⟨S65536x784, .f32⟩

abbrev hbmTy (i : Nat) : BufTy := match i / 128 with
  | 0 => hbmTy0_0 i
  | 1 => hbmTy0_1 i
  | 2 => hbmTy0_2 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_cst : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call2_cst : Ref sig .tc := ⟨.hbm, 77, rfl⟩
abbrev main_call2_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_1 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call3_cst : Ref sig .tc := ⟨.hbm, 104, rfl⟩
abbrev main_call3_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_2 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_call4_cst : Ref sig .tc := ⟨.hbm, 131, rfl⟩
abbrev main_call4_v0 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_3 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_4 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_5 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_call5_cst : Ref sig .tc := ⟨.hbm, 172, rfl⟩
abbrev main_call5_v0 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_6 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_call6_cst : Ref sig .tc := ⟨.hbm, 199, rfl⟩
abbrev main_call6_v0 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_c_7 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_call7_cst : Ref sig .tc := ⟨.hbm, 226, rfl⟩
abbrev main_call7_v0 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_c_8 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_call8_cst : Ref sig .tc := ⟨.hbm, 253, rfl⟩
abbrev main_call8_v0 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_c_9 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_call9_cst : Ref sig .tc := ⟨.hbm, 280, rfl⟩
abbrev main_call9_v0 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_c_10 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_cst_11 : Ref sig .tc := ⟨.hbm, 301, rfl⟩
abbrev main_v255 : Ref sig .tc := ⟨.hbm, 302, rfl⟩
abbrev main_v256 : Ref sig .tc := ⟨.hbm, 303, rfl⟩
abbrev main_cst_12 : Ref sig .tc := ⟨.hbm, 304, rfl⟩
abbrev main_v257 : Ref sig .tc := ⟨.hbm, 305, rfl⟩
abbrev main_v258 : Ref sig .tc := ⟨.hbm, 306, rfl⟩
abbrev main_cst_13 : Ref sig .tc := ⟨.hbm, 307, rfl⟩
abbrev main_cst_14 : Ref sig .tc := ⟨.hbm, 308, rfl⟩
abbrev main_call10_v0 : Ref sig .tc := ⟨.hbm, 309, rfl⟩
abbrev main_call10_v1 : Ref sig .tc := ⟨.hbm, 310, rfl⟩
abbrev main_call10_v2 : Ref sig .tc := ⟨.hbm, 311, rfl⟩
abbrev main_call10_v3 : Ref sig .tc := ⟨.hbm, 312, rfl⟩
abbrev main_call10_v4 : Ref sig .tc := ⟨.hbm, 313, rfl⟩
abbrev main_v259 : Ref sig .tc := ⟨.hbm, 314, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  slices_S5x784x400_S1x784x400_0_0_0 : S5x784x400.Slices ![0, 0, 0] S1x784x400
  shapeCasts_S1x784x400_S784x400 : S1x784x400.ShapeCasts S784x400
  slices_S5x400_S1x400_0_0 : S5x400.Slices ![0, 0] S1x400
  shapeCasts_S1x400_S400 : S1x400.ShapeCasts S400
  bcast_S400_S1x400_1 : S400.BroadcastsInDim S1x400 (![1] : Fin 1 → Fin S1x400.rank)
  bcast_S1x400_S65536x400_0_1 : S1x400.BroadcastsInDim S65536x400 (![0, 1] : Fin 2 → Fin S65536x400.rank)
  bcast_S_S65536x400 : S_.BroadcastsInDim S65536x400 (![] : Fin 0 → Fin S65536x400.rank)
  slices_S5x400x256_S1x400x256_0_0_0 : S5x400x256.Slices ![0, 0, 0] S1x400x256
  shapeCasts_S1x400x256_S400x256 : S1x400x256.ShapeCasts S400x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  slices_S5x784x400_S1x784x400_1_0_0 : S5x784x400.Slices ![1, 0, 0] S1x784x400
  slices_S5x400_S1x400_1_0 : S5x400.Slices ![1, 0] S1x400
  slices_S5x400x256_S1x400x256_1_0_0 : S5x400x256.Slices ![1, 0, 0] S1x400x256
  slices_S5x256_S1x256_1_0 : S5x256.Slices ![1, 0] S1x256
  slices_S5x784x400_S1x784x400_2_0_0 : S5x784x400.Slices ![2, 0, 0] S1x784x400
  slices_S5x400_S1x400_2_0 : S5x400.Slices ![2, 0] S1x400
  slices_S5x400x256_S1x400x256_2_0_0 : S5x400x256.Slices ![2, 0, 0] S1x400x256
  slices_S5x256_S1x256_2_0 : S5x256.Slices ![2, 0] S1x256
  slices_S5x784x400_S1x784x400_3_0_0 : S5x784x400.Slices ![3, 0, 0] S1x784x400
  slices_S5x400_S1x400_3_0 : S5x400.Slices ![3, 0] S1x400
  slices_S5x400x256_S1x400x256_3_0_0 : S5x400x256.Slices ![3, 0, 0] S1x400x256
  slices_S5x256_S1x256_3_0 : S5x256.Slices ![3, 0] S1x256
  slices_S5x784x400_S1x784x400_4_0_0 : S5x784x400.Slices ![4, 0, 0] S1x784x400
  slices_S5x400_S1x400_4_0 : S5x400.Slices ![4, 0] S1x400
  slices_S5x400x256_S1x400x256_4_0_0 : S5x400x256.Slices ![4, 0, 0] S1x400x256
  slices_S5x256_S1x256_4_0 : S5x256.Slices ![4, 0] S1x256
  slices_S65536x256_S65536x128_0_0 : S65536x256.Slices ![0, 0] S65536x128
  slices_S65536x256_S65536x128_0_128 : S65536x256.Slices ![0, 128] S65536x128
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x784 : S_.BroadcastsInDim S65536x784 (![] : Fin 0 → Fin S65536x784.rank)
  slices_S5x128x400_S1x128x400_0_0_0 : S5x128x400.Slices ![0, 0, 0] S1x128x400
  shapeCasts_S1x128x400_S128x400 : S1x128x400.ShapeCasts S128x400
  slices_S5x400x784_S1x400x784_0_0_0 : S5x400x784.Slices ![0, 0, 0] S1x400x784
  shapeCasts_S1x400x784_S400x784 : S1x400x784.ShapeCasts S400x784
  slices_S5x784_S1x784_0_0 : S5x784.Slices ![0, 0] S1x784
  shapeCasts_S1x784_S784 : S1x784.ShapeCasts S784
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)
  bcast_S65536x1_S65536x784_0_1 : S65536x1.BroadcastsInDim S65536x784 (![0, 1] : Fin 2 → Fin S65536x784.rank)
  slices_S5x128x400_S1x128x400_1_0_0 : S5x128x400.Slices ![1, 0, 0] S1x128x400
  slices_S5x400x784_S1x400x784_1_0_0 : S5x400x784.Slices ![1, 0, 0] S1x400x784
  slices_S5x784_S1x784_1_0 : S5x784.Slices ![1, 0] S1x784
  slices_S5x128x400_S1x128x400_2_0_0 : S5x128x400.Slices ![2, 0, 0] S1x128x400
  slices_S5x400x784_S1x400x784_2_0_0 : S5x400x784.Slices ![2, 0, 0] S1x400x784
  slices_S5x784_S1x784_2_0 : S5x784.Slices ![2, 0] S1x784
  slices_S5x128x400_S1x128x400_3_0_0 : S5x128x400.Slices ![3, 0, 0] S1x128x400
  slices_S5x400x784_S1x400x784_3_0_0 : S5x400x784.Slices ![3, 0, 0] S1x400x784
  slices_S5x784_S1x784_3_0 : S5x784.Slices ![3, 0] S1x784
  slices_S5x128x400_S1x128x400_4_0_0 : S5x128x400.Slices ![4, 0, 0] S1x128x400
  slices_S5x400x784_S1x400x784_4_0_0 : S5x400x784.Slices ![4, 0, 0] S1x400x784
  slices_S5x784_S1x784_4_0 : S5x784.Slices ![4, 0] S1x784
  dot_S65536x784_S784x400_S65536x400_1_0_0_1_n_n_wf : DotDims.WF S65536x784 S784x400 S65536x400 [1] [0] [0] [1] [] []
  dot_S65536x400_S400x256_S65536x256_1_0_0_1_n_n_wf : DotDims.WF S65536x400 S400x256 S65536x256 [1] [0] [0] [1] [] []
  dot_S65536x128_S128x128_S65536x128_1_0_0_1_n_n_wf : DotDims.WF S65536x128 S128x128 S65536x128 [1] [0] [0] [1] [] []
  dot_S65536x128_S128x400_S65536x400_1_0_0_1_n_n_wf : DotDims.WF S65536x128 S128x400 S65536x400 [1] [0] [0] [1] [] []
  dot_S65536x400_S400x784_S65536x784_1_0_0_1_n_n_wf : DotDims.WF S65536x400 S400x784 S65536x784 [1] [0] [0] [1] [] []

variable [Facts₀]

def dot_S65536x784_S784x400_S65536x400_1_0_0_1_n_n : DotDims S65536x784 S784x400 S65536x400 where
  lhsContracting := [1]
  rhsContracting := [0]
  lhsNonContracting := [0]
  rhsNonContracting := [1]
  lhsBatch := []
  rhsBatch := []
  wf := dot_S65536x784_S784x400_S65536x400_1_0_0_1_n_n_wf
def dot_S65536x400_S400x256_S65536x256_1_0_0_1_n_n : DotDims S65536x400 S400x256 S65536x256 where
  lhsContracting := [1]
  rhsContracting := [0]
  lhsNonContracting := [0]
  rhsNonContracting := [1]
  lhsBatch := []
  rhsBatch := []
  wf := dot_S65536x400_S400x256_S65536x256_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x400_S65536x400_1_0_0_1_n_n : DotDims S65536x128 S128x400 S65536x400 where
  lhsContracting := [1]
  rhsContracting := [0]
  lhsNonContracting := [0]
  rhsNonContracting := [1]
  lhsBatch := []
  rhsBatch := []
  wf := dot_S65536x128_S128x400_S65536x400_1_0_0_1_n_n_wf
def dot_S65536x400_S400x784_S65536x784_1_0_0_1_n_n : DotDims S65536x400 S400x784 S65536x784 where
  lhsContracting := [1]
  rhsContracting := [0]
  lhsNonContracting := [0]
  rhsNonContracting := [1]
  lhsBatch := []
  rhsBatch := []
  wf := dot_S65536x400_S400x784_S65536x784_1_0_0_1_n_n_wf

class Facts : Prop extends Facts₀ where

variable [Facts]
-- ==== Proof.KernelRun.lean ====
/-
  The idealized kernel's run with its result arrays named.

  The program is a reshape of the routing vector to a column, then two grid launches of 64 points each. The launch
  machinery leaves, at the program's end, every unscoped buffer at the contents of the last segment boundary: the
  contents at launch, changed by the host reshape, then by the first launch's write-backs of its two output arrays, then
  by the second launch's write-backs of its output array. This module states the run with the three result buffers at
  that last boundary's contents; what those contents ARE, as functions of the arguments, is read off block by block
  in the modules that follow.
-/
import proofs.«133417_j71502615544597_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions with the three result arrays NAMED: every weakly fair execution terminates, nothing
    faulting, each result array ends at the last boundary's contents of its buffer, and the arguments end as launched. -/
theorem run_named : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v1_0 (by decide)),
       h c _ (mem_uc main_v1_1 (by decide)),
       h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c)⟩)

end Cert.KernelIdeal.Named

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«133417_j71502615544597_1_alg».proof.Proof.LibPlainMatmul
import proofs.«133417_j71502615544597_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«133417_j71502615544597_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«133417_j71502615544597_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibTwoLayer.lean ====
/-
  Two dense layers with a positive part between them, over the extended reals:

      hidden X W1 B1 (r, k) = max (Σ_j X(r, j) · W1(j, k) + B1(0, k), 0)
      logits X W1 B1 W2 B2 (r, q) = Σ_k hidden(r, k) · W2(k, q) + B2(0, q)

  with the two bias vectors laid out as one-row arrays. Three facts. (1) What the matrix unit computes on a block of
  rows — operands narrowed to a shorter float format (the identity on the extended reals), products accumulated from
  zero, a one-row array broadcast down the rows added, the larger of the sum and zero taken — is `logits` of the blocks.
  (2) What the host computes — two `dot_general`s, each followed by the bias vector broadcast first to a row and then
  down the rows, with a maximum against a broadcast zero between — is `logits` of the whole arrays. (3) Row `p` of
  `logits` of a block of rows is row `r` of `logits` of the whole array when row `p` of the block is row `r` of the
  array: an entry depends on one row of X only, so the row-tiled computation assembles the whole one.
-/
import proofs.«133417_j71502615544597_1_alg».proof.Proof.LibBiasedBlock

noncomputable section

namespace Cert.Mlp

open Idealize.ShloMosaic Idealize.ShloMosaic.ValueIdx Cert.MatrixProduct Cert.Gcn

/-- The first layer: a biased product, then the larger of it and the zero word. -/
def hidden {M K N : ℕ} (X : (⟨2, ![M, K]⟩ : Shape).Idx → EReal) (W1 : (⟨2, ![K, N]⟩ : Shape).Idx → EReal)
    (B1 : (⟨2, ![1, N]⟩ : Shape).Idx → EReal) : (⟨2, ![M, N]⟩ : Shape).Idx → EReal :=
  fun i => max (biasedProduct X W1 B1 i) (Ideal.ofBits .f32 0x00000000#32)

/-- Both layers. -/
def logits {M K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal) :
    (⟨2, ![M, Q]⟩ : Shape).Idx → EReal :=
  biasedProduct (hidden X W1 B1) W2 B2

/-- The matrix unit's biased product of a block: operands narrowed, multiplied into zeros, plus the broadcast row. -/
theorem block_biased {R K N : ℕ}
    (w : DotDims.WF ⟨2, ![R, K]⟩ ⟨2, ![K, N]⟩ ⟨2, ![R, N]⟩ [1] [0] [0] [1] [] [])
    (hb : FTy.bits .bf16 < FTy.bits .f32) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, broadcastTo_1b_ab_apply]
  rfl

/-- (1) The matrix unit's two layers on a block of rows are `logits` of the blocks. -/
theorem block_logits {R K N Q : ℕ}
    (w1 : DotDims.WF ⟨2, ![R, K]⟩ ⟨2, ![K, N]⟩ ⟨2, ![R, N]⟩ [1] [0] [0] [1] [] [])
    (w2 : DotDims.WF ⟨2, ![R, N]⟩ ⟨2, ![N, Q]⟩ ⟨2, ![R, Q]⟩ [1] [0] [0] [1] [] [])
    (hb : FTy.bits .bf16 < FTy.bits .f32)
    (h1 : (⟨2, ![1, N]⟩ : Shape).ShapeCasts ⟨2, ![1, N]⟩) (hbc1 : (⟨2, ![1, N]⟩ : Shape).Broadcasts ⟨2, ![R, N]⟩)
    (h2 : (⟨2, ![1, Q]⟩ : Shape).ShapeCasts ⟨2, ![1, Q]⟩) (hbc2 : (⟨2, ![1, Q]⟩ : Shape).Broadcasts ⟨2, ![R, Q]⟩)
    (x0 : FVec Ideal ⟨2, ![R, K]⟩ .f32) (x1 : FVec Ideal ⟨2, ![K, N]⟩ .f32) (x2 : FVec Ideal ⟨2, ![1, N]⟩ .f32)
    (x3 : FVec Ideal ⟨2, ![N, Q]⟩ .f32) (x4 : FVec Ideal ⟨2, ![1, Q]⟩ .f32) :
    addf (matmul (⟨[1], [0], [0], [1], [], [], w2⟩ : DotDims ⟨2, ![R, N]⟩ ⟨2, ![N, Q]⟩ ⟨2, ![R, Q]⟩) none
          (truncf .bf16
            (maximumf
              (addf (matmul (⟨[1], [0], [0], [1], [], [], w1⟩ : DotDims ⟨2, ![R, K]⟩ ⟨2, ![K, N]⟩ ⟨2, ![R, N]⟩) none
                    (truncf .bf16 x0 hb) (truncf .bf16 x1 hb) (constant (F := Ideal) ⟨2, ![R, N]⟩ .f32 0x00000000#32))
                (broadcastTo ⟨2, ![R, N]⟩ (shapeCast ⟨2, ![1, N]⟩ x2 h1) hbc1))
              (broadcast ⟨2, ![R, N]⟩ (Scalar.ofBits (F := Ideal) .f32 0x00000000#32))) hb)
          (truncf .bf16 x3 hb)
          (constant (F := Ideal) ⟨2, ![R, Q]⟩ .f32 0x00000000#32))
        (broadcastTo ⟨2, ![R, Q]⟩ (shapeCast ⟨2, ![1, Q]⟩ x4 h2) hbc2)
      = logits x0 x1 x2 x3 x4 := by
  rw [block_biased w1 hb h1 hbc1 x0 x1 x2]
  exact block_biased w2 hb h2 hbc2 _ x3 x4

/-- The host's biased product with the bias a VECTOR: broadcast to a row, then down the rows. -/
theorem host_biased {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (b : FVec Ideal ⟨1, ![N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 (broadcastInDim ⟨2, ![1, N]⟩ (![1] : Fin 1 → Fin 2) h1 b))
      = biasedProduct A W (rowOf b) := by
  rw [bcast_row_eq_rowOf b h1]
  exact host_linear w h2 A W (rowOf b)

/-- (2) The host's two layers are `logits` of the whole arrays, the bias vectors as rows. -/
theorem host_logits {M K N Q : ℕ}
    (w1 : DotDims.WF ⟨2, ![M, K]⟩ ⟨2, ![K, N]⟩ ⟨2, ![M, N]⟩ [1] [0] [0] [1] [] [])
    (w2 : DotDims.WF ⟨2, ![M, N]⟩ ⟨2, ![N, Q]⟩ ⟨2, ![M, Q]⟩ [1] [0] [0] [1] [] [])
    (h1 : (⟨1, ![N]⟩ : Shape).BroadcastsInDim ⟨2, ![1, N]⟩ (![1] : Fin 1 → Fin 2))
    (h1' : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (h2 : (⟨1, ![Q]⟩ : Shape).BroadcastsInDim ⟨2, ![1, Q]⟩ (![1] : Fin 1 → Fin 2))
    (h2' : (⟨2, ![1, Q]⟩ : Shape).BroadcastsInDim ⟨2, ![M, Q]⟩ (![0, 1] : Fin 2 → Fin 2))
    (X : FVec Ideal ⟨2, ![M, K]⟩ .f32) (W1 : FVec Ideal ⟨2, ![K, N]⟩ .f32) (b1 : FVec Ideal ⟨1, ![N]⟩ .f32)
    (W2 : FVec Ideal ⟨2, ![N, Q]⟩ .f32) (b2 : FVec Ideal ⟨1, ![Q]⟩ .f32) :
    addf (Host.dotGeneral (⟨[1], [0], [0], [1], [], [], w2⟩ : DotDims ⟨2, ![M, N]⟩ ⟨2, ![N, Q]⟩ ⟨2, ![M, Q]⟩) none
          (maximumf
            (addf (Host.dotGeneral (⟨[1], [0], [0], [1], [], [], w1⟩ : DotDims ⟨2, ![M, K]⟩ ⟨2, ![K, N]⟩ ⟨2, ![M, N]⟩) none X W1)
              (broadcastInDim ⟨2, ![M, N]⟩ (![0, 1] : Fin 2 → Fin 2) h1' (broadcastInDim ⟨2, ![1, N]⟩ (![1] : Fin 1 → Fin 2) h1 b1)))
            (broadcastInDim ⟨2, ![M, N]⟩ (![] : Fin 0 → Fin 2) h0 (constant (F := Ideal) ⟨0, ![]⟩ .f32 0x00000000#32)))
          W2)
        (broadcastInDim ⟨2, ![M, Q]⟩ (![0, 1] : Fin 2 → Fin 2) h2' (broadcastInDim ⟨2, ![1, Q]⟩ (![1] : Fin 1 → Fin 2) h2 b2))
      = logits X W1 (rowOf b1) W2 (rowOf b2) := by
  rw [host_biased w1 h1 h1' X W1 b1]
  exact host_biased w2 h2 h2' _ W2 b2

/-- (3) Row `p` of `logits` of a block of rows is row `r` of `logits` of the whole array, when row `p` of the block is row
    `r` of the array and the other operands are the same. -/
theorem logits_row {M R K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal)
    (x0 : (⟨2, ![R, K]⟩ : Shape).Idx → EReal) (p : Fin R) (r : Fin M) (q : Fin Q)
    (h0 : ∀ j : Fin K, x0 (ix2 p j) = X (ix2 r j)) :
    logits x0 W1 B1 W2 B2 (ix2 p q) = logits X W1 B1 W2 B2 (ix2 r q) := by
  refine biasedProduct_row (hidden X W1 B1) W2 B2 (hidden x0 W1 B1) W2 B2 p q r (fun k => ?_) (fun _ => rfl) rfl
  show max (biasedProduct x0 W1 B1 (ix2 p k)) _ = max (biasedProduct X W1 B1 (ix2 r k)) _
  exact congrArg (max · _) (biasedProduct_row X W1 B1 x0 W1 B1 p k r h0 (fun _ => rfl) rfl)

end Cert.Mlp

end
-- ==== Proof.LibLeadingLoad.lean ====
/-
  One entry of the leading axis of a rank-3 array, picked out by a load.

  An array of shape [n, a, b] is a stack of n matrices. Loading the unit-stride rectangle of sizes [1, a, b] at offsets
  (g, 0, 0) reads the g-th matrix of the stack: the loaded value at (0, i, j) is the array at (g, i, j), because a
  unit-stride rectangle places its coordinate x on an axis at offset + 1 · x.
-/
import Idealize.ShloMosaic.Lib.Pipeline.Value
import Idealize.ShloMosaic.Lib.ValueIdx

namespace Idealize.ShloMosaic.ValueIdx

open Idealize.ShloMosaic

/-- The [1, a, b] rectangle at offsets (g, 0, 0) of an [n, a, b] array, loaded and read at (0, i, j), is the array at
    (g, i, j). -/
theorem ld_lead3_apply {Val : EltTy → Type} {e : EltTy} {n a b : ℕ} (X : (⟨3, ![n, a, b]⟩ : Shape).Idx → Val e)
    (g : ℕ) (hg : g < n)
    (inb : ∀ ax, (![g, 0, 0] : Fin 3 → ℕ) ax + (⟨3, ![1, a, b]⟩ : Shape).size ax ≤ (⟨3, ![n, a, b]⟩ : Shape).size ax)
    (i : Fin a) (j : Fin b) :
    View.ld X (Rect.unit (s := ⟨3, ![n, a, b]⟩) ![g, 0, 0] (⟨3, ![1, a, b]⟩ : Shape).size inb) (ix3 (0 : Fin 1) i j)
      = X (ix3 ⟨g, hg⟩ i j) := by
  show X _ = X _
  congr 1
  funext ax
  apply Fin.ext
  match ax with
  | ⟨0, _⟩ => show g + 1 * 0 = g; omega
  | ⟨1, _⟩ => show 0 + 1 * i.val = i.val; omega
  | ⟨2, _⟩ => show 0 + 1 * j.val = j.val; omega

end Idealize.ShloMosaic.ValueIdx
-- ==== Proof.LibStackedLayers.lean ====
/-
  A stack of n matrices [n, a, b] and a stack of n bias vectors [n, b]: the g-th matrix and the g-th bias row, and the
  machine forms that pick them out.

  A kernel picks the g-th matrix by loading the unit-stride rectangle of sizes [1, a, b] at offsets (g, 0, 0) and
  dropping the leading unit axis by a shape cast; a host program picks it by a slice [g:g+1, 0:a, 0:b] followed by a
  reshape. Both read the stack at (g, i, j). The same for the g-th row of an [n, b] array, which the kernel loads as a
  [1, b] row and the host slices, reshapes to a vector, and lays out as a row again.
-/
import Idealize.ShloMosaic.Lib.Pipeline.Value
import Idealize.ShloMosaic.Lib.ValueIdx
import Idealize.ShloMosaic.Lib.ValueLayout
import proofs.«133417_j71502615544597_1_alg».proof.Proof.LibLeadingLoad
import proofs.«133417_j71502615544597_1_alg».proof.Proof.LibBiasedBlock

noncomputable section

namespace Cert.Stack

open Idealize.ShloMosaic Idealize.ShloMosaic.ValueIdx Cert.Gcn

variable {α : Type}

/-- The g-th matrix of a stack. -/
def layer {n a b : ℕ} (g : Fin n) (W : (⟨3, ![n, a, b]⟩ : Shape).Idx → α) : (⟨2, ![a, b]⟩ : Shape).Idx → α :=
  fun i => W (ix3 g (i 0) (i 1))

/-- The g-th row of an [n, b] array, as a one-row array. -/
def biasRow {n b : ℕ} (g : Fin n) (B : (⟨2, ![n, b]⟩ : Shape).Idx → α) : (⟨2, ![1, b]⟩ : Shape).Idx → α :=
  fun i => B (ix2 g (i 1))

/-- The [1, b] rectangle at offsets (g, 0) of an [n, b] array, loaded and read at (0, j), is the array at (g, j). -/
theorem ld_lead2_apply {Val : EltTy → Type} {e : EltTy} {n b : ℕ} (X : (⟨2, ![n, b]⟩ : Shape).Idx → Val e)
    (g : ℕ) (hg : g < n)
    (inb : ∀ ax, (![g, 0] : Fin 2 → ℕ) ax + (⟨2, ![1, b]⟩ : Shape).size ax ≤ (⟨2, ![n, b]⟩ : Shape).size ax)
    (u : Fin 1) (j : Fin b) :
    View.ld X (Rect.unit (s := ⟨2, ![n, b]⟩) ![g, 0] (⟨2, ![1, b]⟩ : Shape).size inb) (ix2 u j) = X (ix2 ⟨g, hg⟩ j) := by
  have hu : u.val = 0 := by omega
  show X _ = X _
  congr 1
  funext ax
  apply Fin.ext
  match ax with
  | ⟨0, _⟩ => show g + 1 * u.val = g; omega
  | ⟨1, _⟩ => show 0 + 1 * j.val = j.val; omega

/-- The kernel's form of the g-th matrix: load the [1, a, b] rectangle at (g, 0, 0), drop the unit axis. -/
theorem ld_layer {Val : EltTy → Type} {e : EltTy} {n a b : ℕ} (W : (⟨3, ![n, a, b]⟩ : Shape).Idx → Val e) (g : ℕ) (hg : g < n)
    (inb : ∀ ax, (![g, 0, 0] : Fin 3 → ℕ) ax + (⟨3, ![1, a, b]⟩ : Shape).size ax ≤ (⟨3, ![n, a, b]⟩ : Shape).size ax)
    (h : (⟨3, ![1, a, b]⟩ : Shape).ShapeCasts ⟨2, ![a, b]⟩) :
    shapeCast ⟨2, ![a, b]⟩ (View.ld W (Rect.unit (s := ⟨3, ![n, a, b]⟩) ![g, 0, 0] (⟨3, ![1, a, b]⟩ : Shape).size inb)) h
      = layer ⟨g, hg⟩ W := by
  funext i
  obtain ⟨p, q, rfl⟩ : ∃ (p : Fin a) (q : Fin b), i = ix2 p q := ⟨i 0, i 1, eq_ix2 i⟩
  rw [shapeCast_1ab_ab_apply, ld_lead3_apply W g hg inb p q]
  rfl

/-- The kernel's form of the g-th bias row: load the [1, b] rectangle at (g, 0). -/
theorem ld_biasRow {Val : EltTy → Type} {e : EltTy} {n b : ℕ} (B : (⟨2, ![n, b]⟩ : Shape).Idx → Val e) (g : ℕ) (hg : g < n)
    (inb : ∀ ax, (![g, 0] : Fin 2 → ℕ) ax + (⟨2, ![1, b]⟩ : Shape).size ax ≤ (⟨2, ![n, b]⟩ : Shape).size ax) :
    View.ld B (Rect.unit (s := ⟨2, ![n, b]⟩) ![g, 0] (⟨2, ![1, b]⟩ : Shape).size inb) = biasRow ⟨g, hg⟩ B := by
  funext i
  obtain ⟨u, q, rfl⟩ : ∃ (u : Fin 1) (q : Fin b), i = ix2 u q := ⟨i 0, i 1, eq_ix2 i⟩
  rw [ld_lead2_apply B g hg inb u q]
  rfl

/-- The host's form of the g-th matrix: slice [g:g+1, 0:a, 0:b], reshape to [a, b]. -/
theorem slice_layer {n a b : ℕ} (W : (⟨3, ![n, a, b]⟩ : Shape).Idx → α) (g : ℕ) (hg : g < n)
    (hs : (⟨3, ![n, a, b]⟩ : Shape).Slices ![g, 0, 0] ⟨3, ![1, a, b]⟩)
    (h : (⟨3, ![1, a, b]⟩ : Shape).ShapeCasts ⟨2, ![a, b]⟩) :
    shapeCast ⟨2, ![a, b]⟩ (extractStridedSlice ⟨3, ![1, a, b]⟩ ![g, 0, 0] W hs) h = layer ⟨g, hg⟩ W := by
  funext i
  obtain ⟨p, q, rfl⟩ : ∃ (p : Fin a) (q : Fin b), i = ix2 p q := ⟨i 0, i 1, eq_ix2 i⟩
  rw [shapeCast_1ab_ab_apply]
  refine extractStridedSlice_apply _ W hs _ (ix3 ⟨g, hg⟩ p q) (fun ax => ?_)
  match ax with
  | ⟨0, _⟩ => show g = g + 0; omega
  | ⟨1, _⟩ => show p.val = 0 + p.val; omega
  | ⟨2, _⟩ => show q.val = 0 + q.val; omega

/-- The host's form of the g-th bias row: slice [g:g+1, 0:b], reshape to a vector, laid out as a row. -/
theorem slice_biasRow {n b : ℕ} (B : (⟨2, ![n, b]⟩ : Shape).Idx → EReal) (g : ℕ) (hg : g < n)
    (hs : (⟨2, ![n, b]⟩ : Shape).Slices ![g, 0] ⟨2, ![1, b]⟩)
    (h : (⟨2, ![1, b]⟩ : Shape).ShapeCasts ⟨1, ![b]⟩) :
    rowOf (shapeCast ⟨1, ![b]⟩ (extractStridedSlice ⟨2, ![1, b]⟩ ![g, 0] B hs) h) = biasRow ⟨g, hg⟩ B := by
  funext i
  obtain ⟨u, q, rfl⟩ : ∃ (u : Fin 1) (q : Fin b), i = ix2 u q := ⟨i 0, i 1, eq_ix2 i⟩
  show shapeCast ⟨1, ![b]⟩ (extractStridedSlice ⟨2, ![1, b]⟩ ![g, 0] B hs) h (ix1 q) = B (ix2 ⟨g, hg⟩ q)
  rw [shapeCast_1a_a_apply]
  refine extractStridedSlice_apply _ B hs _ (ix2 ⟨g, hg⟩ q) (fun ax => ?_)
  match ax with
  | ⟨0, _⟩ => show g = g + 0; omega
  | ⟨1, _⟩ => show q.val = 0 + q.val; omega

end Cert.Stack

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibGate.lean ====
/-
  A routing gate: the number 1 where a row's expert number equals e, the number 0 elsewhere, in its two machine forms.

  A kernel compares a [R, 1] column of numbers with e, widens the resulting bit to 32 bits, converts it signed, and
  repeats the column along the rows' entries; a host program compares an [M] vector with e, converts the bit unsigned,
  and repeats it along a new trailing axis. A single bit widened with zeros is the same integer read signed or unsigned,
  so both are the same 0-or-1 factor per row.
-/
import Idealize.ShloMosaic.Lib.Pipeline.Value
import Idealize.ShloMosaic.Lib.ValueIdx
import Idealize.ShloMosaic.Lib.ValueLayout
import Idealize.ShloMosaic.PureOps.Ideal
import proofs.«133417_j71502615544597_1_alg».proof.Proof.LibColumnBroadcast

noncomputable section

namespace Cert.Route

open Idealize.ShloMosaic Idealize.ShloMosaic.ValueIdx

/-- The factor of a row whose expert number is `v`, for expert `e`: 1 if they are equal, 0 if not. -/
def gate (v e : BitVec 32) : EReal := FloatOps.uitofp (F := Ideal) .f32 (IntOp.cmpi .eq v e)

/-- One bit, widened with zeros to 32 bits and read signed, is the bit read unsigned. -/
theorem sitofp_extui_bit (c : BitVec 1) :
    FloatOps.sitofp (F := Ideal) .f32 (c.setWidth 32) = FloatOps.uitofp (F := Ideal) .f32 c := by
  show (((c.setWidth 32).toInt : ℝ) : EReal) = ((c.toNat : ℝ) : EReal)
  have h : ∀ c : BitVec 1, (c.setWidth 32).toInt = (c.toNat : ℤ) := by decide
  rw [h c]
  norm_cast

/-- The kernel's gate: a column of expert numbers compared with `e`, the bit widened, converted signed, repeated along
    the columns. -/
theorem gate_block {R Q : ℕ} (sel : IVec ⟨2, ![R, 1]⟩ 32) (e : BitVec 32) (h : 1 < 32)
    (hb : (⟨2, ![R, 1]⟩ : Shape).Broadcasts ⟨2, ![R, Q]⟩) :
    broadcastTo ⟨2, ![R, Q]⟩ (sitofp (F := Ideal) .f32 (extui 32 (cmpi .eq sel (broadcast ⟨2, ![R, 1]⟩ e)) h)) hb
      = fun j => gate (sel (ix2 (j 0) (0 : Fin 1))) e := by
  funext j
  obtain ⟨p, q, rfl⟩ : ∃ (p : Fin R) (q : Fin Q), j = ix2 p q := ⟨j 0, j 1, eq_ix2 j⟩
  rw [broadcastTo_a1_ab_apply]
  exact sitofp_extui_bit _

/-- The host's gate: a vector of expert numbers compared with `e`, the bit converted unsigned, laid out as a column,
    repeated along the columns. -/
theorem gate_host {M Q : ℕ} (idx : IVec ⟨1, ![M]⟩ 32) (e : BitVec 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, Q]⟩ (![0, 1] : Fin 2 → Fin 2)) :
    broadcastInDim ⟨2, ![M, Q]⟩ (![0, 1] : Fin 2 → Fin 2) h2
        (broadcastInDim ⟨2, ![M, 1]⟩ (![0] : Fin 1 → Fin 2) h1
          (uitofp (F := Ideal) .f32 (cmpi .eq idx (broadcastInDim ⟨1, ![M]⟩ (![] : Fin 0 → Fin 1) h0 (constantI ⟨0, ![]⟩ 32 e)))))
      = fun j => gate (idx (ix1 (j 0))) e := by
  funext j
  obtain ⟨r, q, rfl⟩ : ∃ (r : Fin M) (q : Fin Q), j = ix2 r q := ⟨j 0, j 1, eq_ix2 j⟩
  rw [broadcastInDim_apply _ h2 _ (ix2 r q) (ix2 r (0 : Fin 1)) (fun ax => by
    match ax with
    | ⟨0, _⟩ =>
      show r.val = if M = 1 then 0 else r.val
      split
      · have := r.isLt; omega
      · rfl
    | ⟨1, _⟩ => show 0 = if (1 : ℕ) = 1 then 0 else q.val; rw [if_pos rfl])]
  rw [broadcastInDim_apply _ h1 _ (ix2 r (0 : Fin 1)) (ix1 r) (fun ax => by
    match ax with
    | ⟨0, _⟩ =>
      show r.val = if M = 1 then 0 else r.val
      split
      · have := r.isLt; omega
      · rfl)]
  rfl

end Cert.Route

end
-- ==== Proof.LibRoutedExperts.lean ====
/-
  Five expert networks and a routing vector: each row of a batch is sent through the two-layer network
  max(x · W1[g] + b1[g], 0) · W2[g] + b2[g] of ONE expert g, the one the row's number names. Computed densely, every
  expert's output is formed for every row and multiplied by a 0-or-1 gate, and the five gated outputs are added, in
  order, to zero:

      routed sel X W1 B1 W2 B2 (r, q) = 0 + [sel r = 0] · L_0(r, q) + [sel r = 1] · L_1(r, q) + … + [sel r = 4] · L_4(r, q)

  with L_g the two-layer network of expert g applied to the whole batch. Three facts.
  (1) One step of the matrix unit on a block of rows — the g-th weight matrices and bias rows loaded out of their
      stacks, both products accumulated from zero with operands narrowed to a shorter float format (the identity on the
      extended reals), the gate formed from a column of numbers — adds [sel p = e] · L_g to the accumulator.
  (2) One step of the host's program on the whole batch — slices and reshapes of the stacks, `dot_general`s, bias vectors
      broadcast to rows and down the rows — adds the same term.
  (3) Row p of `routed` of a block of rows is row r of `routed` of the whole batch when the block's row p is the batch's
      row r and carries the same number: an entry depends on one row only.
-/
import proofs.«133417_j71502615544597_1_alg».proof.Proof.LibTwoLayer
import proofs.«133417_j71502615544597_1_alg».proof.Proof.LibStackedLayers
import proofs.«133417_j71502615544597_1_alg».proof.Proof.LibGate

noncomputable section

namespace Cert.Route

open Idealize.ShloMosaic Idealize.ShloMosaic.ValueIdx Cert.MatrixProduct Cert.Gcn Cert.Mlp Cert.Stack

/-- The routed network over five experts, every row's entry a sum of five gated terms added to zero in order. -/
def routed {M K N Q : ℕ} (sel : Fin M → BitVec 32) (X : (⟨2, ![M, K]⟩ : Shape).Idx → EReal)
    (W1 : (⟨3, ![5, K, N]⟩ : Shape).Idx → EReal) (B1 : (⟨2, ![5, N]⟩ : Shape).Idx → EReal)
    (W2 : (⟨3, ![5, N, Q]⟩ : Shape).Idx → EReal) (B2 : (⟨2, ![5, Q]⟩ : Shape).Idx → EReal) :
    (⟨2, ![M, Q]⟩ : Shape).Idx → EReal := fun j =>
  Ideal.ofBits .f32 0x00000000#32
    + gate (sel (j 0)) 0#32 * logits X (layer (0 : Fin 5) W1) (biasRow (0 : Fin 5) B1) (layer (0 : Fin 5) W2) (biasRow (0 : Fin 5) B2) j
    + gate (sel (j 0)) 1#32 * logits X (layer (1 : Fin 5) W1) (biasRow (1 : Fin 5) B1) (layer (1 : Fin 5) W2) (biasRow (1 : Fin 5) B2) j
    + gate (sel (j 0)) 2#32 * logits X (layer (2 : Fin 5) W1) (biasRow (2 : Fin 5) B1) (layer (2 : Fin 5) W2) (biasRow (2 : Fin 5) B2) j
    + gate (sel (j 0)) 3#32 * logits X (layer (3 : Fin 5) W1) (biasRow (3 : Fin 5) B1) (layer (3 : Fin 5) W2) (biasRow (3 : Fin 5) B2) j
    + gate (sel (j 0)) 4#32 * logits X (layer (4 : Fin 5) W1) (biasRow (4 : Fin 5) B1) (layer (4 : Fin 5) W2) (biasRow (4 : Fin 5) B2) j

/-- (3) An entry of the routed network depends on one row of the batch and that row's number only. -/
theorem routed_row {M R K N Q : ℕ} (sel : Fin M → BitVec 32) (X : (⟨2, ![M, K]⟩ : Shape).Idx → EReal)
    (W1 : (⟨3, ![5, K, N]⟩ : Shape).Idx → EReal) (B1 : (⟨2, ![5, N]⟩ : Shape).Idx → EReal)
    (W2 : (⟨3, ![5, N, Q]⟩ : Shape).Idx → EReal) (B2 : (⟨2, ![5, Q]⟩ : Shape).Idx → EReal)
    (selb : Fin R → BitVec 32) (x0 : (⟨2, ![R, K]⟩ : Shape).Idx → EReal) (p : Fin R) (r : Fin M) (q : Fin Q)
    (hsel : selb p = sel r) (h0 : ∀ j : Fin K, x0 (ix2 p j) = X (ix2 r j)) :
    routed selb x0 W1 B1 W2 B2 (ix2 p q) = routed sel X W1 B1 W2 B2 (ix2 r q) := by
  have hs : selb ((ix2 p q : (⟨2, ![R, Q]⟩ : Shape).Idx) 0) = sel ((ix2 r q : (⟨2, ![M, Q]⟩ : Shape).Idx) 0) := hsel
  unfold routed
  simp only [hs, fun A1 b1 A2 b2 => logits_row X A1 b1 A2 b2 x0 p r q h0]

/-- The matrix unit's biased product of a block, the bias given as a one-row array. -/
theorem block_biased_row {R K N : ℕ}
    (w : DotDims.WF ⟨2, ![R, K]⟩ ⟨2, ![K, N]⟩ ⟨2, ![R, N]⟩ [1] [0] [0] [1] [] [])
    (hb : FTy.bits .bf16 < FTy.bits .f32) (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 x1 hb) (constant (F := Ideal) ⟨2, ![R, N]⟩ .f32 0x00000000#32))
        (broadcastTo ⟨2, ![R, N]⟩ x2 hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, broadcastTo_1b_ab_apply]
  rfl

/-- One expert's step as the matrix unit spells it on a block of rows: the expert's two weight matrices and two bias
    rows loaded out of their stacks at leading offset `g`, the gate formed from the column of numbers. -/
def machineStep {R K N Q n : ℕ} (g : ℕ)
    {w1 : DotDims.WF ⟨2, ![R, K]⟩ ⟨2, ![K, N]⟩ ⟨2, ![R, N]⟩ [1] [0] [0] [1] [] []}
    {w2 : DotDims.WF ⟨2, ![R, N]⟩ ⟨2, ![N, Q]⟩ ⟨2, ![R, Q]⟩ [1] [0] [0] [1] [] []}
    {hb : FTy.bits .bf16 < FTy.bits .f32} {h1 : 1 < 32}
    {i1 : ∀ ax, (![g, 0, 0] : Fin 3 → ℕ) ax + (⟨3, ![1, K, N]⟩ : Shape).size ax ≤ (⟨3, ![n, K, N]⟩ : Shape).size ax}
    {i2 : ∀ ax, (![g, 0] : Fin 2 → ℕ) ax + (⟨2, ![1, N]⟩ : Shape).size ax ≤ (⟨2, ![n, N]⟩ : Shape).size ax}
    {i3 : ∀ ax, (![g, 0, 0] : Fin 3 → ℕ) ax + (⟨3, ![1, N, Q]⟩ : Shape).size ax ≤ (⟨3, ![n, N, Q]⟩ : Shape).size ax}
    {i4 : ∀ ax, (![g, 0] : Fin 2 → ℕ) ax + (⟨2, ![1, Q]⟩ : Shape).size ax ≤ (⟨2, ![n, Q]⟩ : Shape).size ax}
    {c1 : (⟨3, ![1, K, N]⟩ : Shape).ShapeCasts ⟨2, ![K, N]⟩}
    {c2 : (⟨2, ![1, N]⟩ : Shape).ShapeCasts ⟨1, ![N]⟩} {c2' : (⟨1, ![N]⟩ : Shape).ShapeCasts ⟨2, ![1, N]⟩}
    {c3 : (⟨3, ![1, N, Q]⟩ : Shape).ShapeCasts ⟨2, ![N, Q]⟩}
    {c4 : (⟨2, ![1, Q]⟩ : Shape).ShapeCasts ⟨1, ![Q]⟩} {c4' : (⟨1, ![Q]⟩ : Shape).ShapeCasts ⟨2, ![1, Q]⟩}
    {bc1 : (⟨2, ![1, N]⟩ : Shape).Broadcasts ⟨2, ![R, N]⟩} {bc2 : (⟨2, ![1, Q]⟩ : Shape).Broadcasts ⟨2, ![R, Q]⟩}
    {bg : (⟨2, ![R, 1]⟩ : Shape).Broadcasts ⟨2, ![R, Q]⟩}
    (acc : FVec Ideal ⟨2, ![R, Q]⟩ .f32) (xb : FVec Ideal ⟨2, ![R, K]⟩ .bf16) (sel : IVec ⟨2, ![R, 1]⟩ 32) (e : BitVec 32)
    (W1 : Vec Ideal ⟨3, ![n, K, N]⟩ .f32) (B1 : Vec Ideal ⟨2, ![n, N]⟩ .f32)
    (W2 : Vec Ideal ⟨3, ![n, N, Q]⟩ .f32) (B2 : Vec Ideal ⟨2, ![n, Q]⟩ .f32) : FVec Ideal ⟨2, ![R, Q]⟩ .f32 :=
  addf acc (mulf (broadcastTo ⟨2, ![R, Q]⟩ (sitofp (F := Ideal) .f32 (extui 32 (cmpi .eq sel (broadcast ⟨2, ![R, 1]⟩ e)) h1)) bg)
    (addf (matmul (⟨[1], [0], [0], [1], [], [], w2⟩ : DotDims ⟨2, ![R, N]⟩ ⟨2, ![N, Q]⟩ ⟨2, ![R, Q]⟩) none
        (truncf .bf16
          (maximumf
            (addf (matmul (⟨[1], [0], [0], [1], [], [], w1⟩ : DotDims ⟨2, ![R, K]⟩ ⟨2, ![K, N]⟩ ⟨2, ![R, N]⟩) none xb
                (truncf .bf16 (shapeCast ⟨2, ![K, N]⟩
                  (View.ld W1 (Rect.unit (s := ⟨3, ![n, K, N]⟩) ![g, 0, 0] (⟨3, ![1, K, N]⟩ : Shape).size i1)) c1) hb)
                (constant (F := Ideal) ⟨2, ![R, N]⟩ .f32 0x00000000#32))
              (broadcastTo ⟨2, ![R, N]⟩ (shapeCast ⟨2, ![1, N]⟩ (shapeCast ⟨1, ![N]⟩
                (View.ld B1 (Rect.unit (s := ⟨2, ![n, N]⟩) ![g, 0] (⟨2, ![1, N]⟩ : Shape).size i2)) c2) c2') bc1))
            (broadcast ⟨2, ![R, N]⟩ (Scalar.ofBits (F := Ideal) .f32 0x00000000#32))) hb)
        (truncf .bf16 (shapeCast ⟨2, ![N, Q]⟩
          (View.ld W2 (Rect.unit (s := ⟨3, ![n, N, Q]⟩) ![g, 0, 0] (⟨3, ![1, N, Q]⟩ : Shape).size i3)) c3) hb)
        (constant (F := Ideal) ⟨2, ![R, Q]⟩ .f32 0x00000000#32))
      (broadcastTo ⟨2, ![R, Q]⟩ (shapeCast ⟨2, ![1, Q]⟩ (shapeCast ⟨1, ![Q]⟩
        (View.ld B2 (Rect.unit (s := ⟨2, ![n, Q]⟩) ![g, 0] (⟨2, ![1, Q]⟩ : Shape).size i4)) c4) c4') bc2)))

/-- (1) The matrix unit's step adds the gated two-layer network of expert `g`. -/
theorem machineStep_eq {R K N Q n : ℕ} {g : ℕ}
    {w1 : DotDims.WF ⟨2, ![R, K]⟩ ⟨2, ![K, N]⟩ ⟨2, ![R, N]⟩ [1] [0] [0] [1] [] []}
    {w2 : DotDims.WF ⟨2, ![R, N]⟩ ⟨2, ![N, Q]⟩ ⟨2, ![R, Q]⟩ [1] [0] [0] [1] [] []}
    {hb : FTy.bits .bf16 < FTy.bits .f32} {h1 : 1 < 32}
    {i1 : ∀ ax, (![g, 0, 0] : Fin 3 → ℕ) ax + (⟨3, ![1, K, N]⟩ : Shape).size ax ≤ (⟨3, ![n, K, N]⟩ : Shape).size ax}
    {i2 : ∀ ax, (![g, 0] : Fin 2 → ℕ) ax + (⟨2, ![1, N]⟩ : Shape).size ax ≤ (⟨2, ![n, N]⟩ : Shape).size ax}
    {i3 : ∀ ax, (![g, 0, 0] : Fin 3 → ℕ) ax + (⟨3, ![1, N, Q]⟩ : Shape).size ax ≤ (⟨3, ![n, N, Q]⟩ : Shape).size ax}
    {i4 : ∀ ax, (![g, 0] : Fin 2 → ℕ) ax + (⟨2, ![1, Q]⟩ : Shape).size ax ≤ (⟨2, ![n, Q]⟩ : Shape).size ax}
    {c1 : (⟨3, ![1, K, N]⟩ : Shape).ShapeCasts ⟨2, ![K, N]⟩}
    {c2 : (⟨2, ![1, N]⟩ : Shape).ShapeCasts ⟨1, ![N]⟩} {c2' : (⟨1, ![N]⟩ : Shape).ShapeCasts ⟨2, ![1, N]⟩}
    {c3 : (⟨3, ![1, N, Q]⟩ : Shape).ShapeCasts ⟨2, ![N, Q]⟩}
    {c4 : (⟨2, ![1, Q]⟩ : Shape).ShapeCasts ⟨1, ![Q]⟩} {c4' : (⟨1, ![Q]⟩ : Shape).ShapeCasts ⟨2, ![1, Q]⟩}
    {bc1 : (⟨2, ![1, N]⟩ : Shape).Broadcasts ⟨2, ![R, N]⟩} {bc2 : (⟨2, ![1, Q]⟩ : Shape).Broadcasts ⟨2, ![R, Q]⟩}
    {bg : (⟨2, ![R, 1]⟩ : Shape).Broadcasts ⟨2, ![R, Q]⟩}
    (hg : g < n)
    (acc : FVec Ideal ⟨2, ![R, Q]⟩ .f32) (x0 : FVec Ideal ⟨2, ![R, K]⟩ .f32) (sel : IVec ⟨2, ![R, 1]⟩ 32) (e : BitVec 32)
    (W1 : Vec Ideal ⟨3, ![n, K, N]⟩ .f32) (B1 : Vec Ideal ⟨2, ![n, N]⟩ .f32)
    (W2 : Vec Ideal ⟨3, ![n, N, Q]⟩ .f32) (B2 : Vec Ideal ⟨2, ![n, Q]⟩ .f32) :
    machineStep g (w1 := w1) (w2 := w2) (hb := hb) (h1 := h1) (i1 := i1) (i2 := i2) (i3 := i3) (i4 := i4) (c1 := c1) (c2 := c2) (c2' := c2') (c3 := c3)
        (c4 := c4) (c4' := c4') (bc1 := bc1) (bc2 := bc2) (bg := bg) acc (truncf .bf16 x0 hb) sel e W1 B1 W2 B2
      = fun j => acc j + gate (sel (ix2 (j 0) (0 : Fin 1))) e
          * logits x0 (layer ⟨g, hg⟩ W1) (biasRow ⟨g, hg⟩ B1) (layer ⟨g, hg⟩ W2) (biasRow ⟨g, hg⟩ B2) j := by
  unfold machineStep
  rw [shapeCast_shapeCast, shapeCast_shapeCast, gate_block, ld_layer W1 g hg i1 c1, ld_layer W2 g hg i3 c3,
    ld_biasRow B1 g hg i2, ld_biasRow B2 g hg i4, block_biased_row w1 hb bc1, block_biased_row w2 hb bc2]
  rfl

/-- One expert's step as the host spells it on the whole batch: slices and reshapes of the stacks at leading offset
    `g`, two `dot_general`s with the bias vectors broadcast to rows and down the rows, a maximum against a broadcast zero
    between, the gate formed from the vector of numbers. -/
def hostStep {M K N Q n : ℕ} (g : ℕ)
    {w1 : DotDims.WF ⟨2, ![M, K]⟩ ⟨2, ![K, N]⟩ ⟨2, ![M, N]⟩ [1] [0] [0] [1] [] []}
    {w2 : DotDims.WF ⟨2, ![M, N]⟩ ⟨2, ![N, Q]⟩ ⟨2, ![M, Q]⟩ [1] [0] [0] [1] [] []}
    {s1 : (⟨3, ![n, K, N]⟩ : Shape).Slices ![g, 0, 0] ⟨3, ![1, K, N]⟩} {c1 : (⟨3, ![1, K, N]⟩ : Shape).ShapeCasts ⟨2, ![K, N]⟩}
    {s2 : (⟨2, ![n, N]⟩ : Shape).Slices ![g, 0] ⟨2, ![1, N]⟩} {c2 : (⟨2, ![1, N]⟩ : Shape).ShapeCasts ⟨1, ![N]⟩}
    {s3 : (⟨3, ![n, N, Q]⟩ : Shape).Slices ![g, 0, 0] ⟨3, ![1, N, Q]⟩} {c3 : (⟨3, ![1, N, Q]⟩ : Shape).ShapeCasts ⟨2, ![N, Q]⟩}
    {s4 : (⟨2, ![n, Q]⟩ : Shape).Slices ![g, 0] ⟨2, ![1, Q]⟩} {c4 : (⟨2, ![1, Q]⟩ : Shape).ShapeCasts ⟨1, ![Q]⟩}
    {hN : (⟨1, ![N]⟩ : Shape).BroadcastsInDim ⟨2, ![1, N]⟩ (![1] : Fin 1 → Fin 2)}
    {hN' : (⟨2, ![1, N]⟩ : Shape).BroadcastsInDim ⟨2, ![M, N]⟩ (![0, 1] : Fin 2 → Fin 2)}
    {hZ : (⟨0, ![]⟩ : Shape).BroadcastsInDim ⟨2, ![M, N]⟩ (![] : Fin 0 → Fin 2)}
    {hQ : (⟨1, ![Q]⟩ : Shape).BroadcastsInDim ⟨2, ![1, Q]⟩ (![1] : Fin 1 → Fin 2)}
    {hQ' : (⟨2, ![1, Q]⟩ : Shape).BroadcastsInDim ⟨2, ![M, Q]⟩ (![0, 1] : Fin 2 → Fin 2)}
    {g0 : (⟨0, ![]⟩ : Shape).BroadcastsInDim ⟨1, ![M]⟩ (![] : Fin 0 → Fin 1)}
    {g1 : (⟨1, ![M]⟩ : Shape).BroadcastsInDim ⟨2, ![M, 1]⟩ (![0] : Fin 1 → Fin 2)}
    {g2 : (⟨2, ![M, 1]⟩ : Shape).BroadcastsInDim ⟨2, ![M, Q]⟩ (![0, 1] : Fin 2 → Fin 2)}
    (acc : FVec Ideal ⟨2, ![M, Q]⟩ .f32) (X : FVec Ideal ⟨2, ![M, K]⟩ .f32) (idx : IVec ⟨1, ![M]⟩ 32) (e : BitVec 32)
    (W1 : FVec Ideal ⟨3, ![n, K, N]⟩ .f32) (B1 : FVec Ideal ⟨2, ![n, N]⟩ .f32)
    (W2 : FVec Ideal ⟨3, ![n, N, Q]⟩ .f32) (B2 : FVec Ideal ⟨2, ![n, Q]⟩ .f32) : FVec Ideal ⟨2, ![M, Q]⟩ .f32 :=
  addf acc (mulf
    (broadcastInDim ⟨2, ![M, Q]⟩ (![0, 1] : Fin 2 → Fin 2) g2
      (broadcastInDim ⟨2, ![M, 1]⟩ (![0] : Fin 1 → Fin 2) g1
        (uitofp (F := Ideal) .f32 (cmpi .eq idx (broadcastInDim ⟨1, ![M]⟩ (![] : Fin 0 → Fin 1) g0 (constantI ⟨0, ![]⟩ 32 e))))))
    (addf (Host.dotGeneral (⟨[1], [0], [0], [1], [], [], w2⟩ : DotDims ⟨2, ![M, N]⟩ ⟨2, ![N, Q]⟩ ⟨2, ![M, Q]⟩) none
        (maximumf
          (addf (Host.dotGeneral (⟨[1], [0], [0], [1], [], [], w1⟩ : DotDims ⟨2, ![M, K]⟩ ⟨2, ![K, N]⟩ ⟨2, ![M, N]⟩) none X
              (shapeCast ⟨2, ![K, N]⟩ (extractStridedSlice ⟨3, ![1, K, N]⟩ ![g, 0, 0] W1 s1) c1))
            (broadcastInDim ⟨2, ![M, N]⟩ (![0, 1] : Fin 2 → Fin 2) hN' (broadcastInDim ⟨2, ![1, N]⟩ (![1] : Fin 1 → Fin 2) hN
              (shapeCast ⟨1, ![N]⟩ (extractStridedSlice ⟨2, ![1, N]⟩ ![g, 0] B1 s2) c2))))
          (broadcastInDim ⟨2, ![M, N]⟩ (![] : Fin 0 → Fin 2) hZ (constant (F := Ideal) ⟨0, ![]⟩ .f32 0x00000000#32)))
        (shapeCast ⟨2, ![N, Q]⟩ (extractStridedSlice ⟨3, ![1, N, Q]⟩ ![g, 0, 0] W2 s3) c3))
      (broadcastInDim ⟨2, ![M, Q]⟩ (![0, 1] : Fin 2 → Fin 2) hQ' (broadcastInDim ⟨2, ![1, Q]⟩ (![1] : Fin 1 → Fin 2) hQ
        (shapeCast ⟨1, ![Q]⟩ (extractStridedSlice ⟨2, ![1, Q]⟩ ![g, 0] B2 s4) c4)))))

/-- (2) The host's step adds the same gated two-layer network of expert `g`. -/
theorem hostStep_eq {M K N Q n : ℕ} {g : ℕ}
    {w1 : DotDims.WF ⟨2, ![M, K]⟩ ⟨2, ![K, N]⟩ ⟨2, ![M, N]⟩ [1] [0] [0] [1] [] []}
    {w2 : DotDims.WF ⟨2, ![M, N]⟩ ⟨2, ![N, Q]⟩ ⟨2, ![M, Q]⟩ [1] [0] [0] [1] [] []}
    {s1 : (⟨3, ![n, K, N]⟩ : Shape).Slices ![g, 0, 0] ⟨3, ![1, K, N]⟩} {c1 : (⟨3, ![1, K, N]⟩ : Shape).ShapeCasts ⟨2, ![K, N]⟩}
    {s2 : (⟨2, ![n, N]⟩ : Shape).Slices ![g, 0] ⟨2, ![1, N]⟩} {c2 : (⟨2, ![1, N]⟩ : Shape).ShapeCasts ⟨1, ![N]⟩}
    {s3 : (⟨3, ![n, N, Q]⟩ : Shape).Slices ![g, 0, 0] ⟨3, ![1, N, Q]⟩} {c3 : (⟨3, ![1, N, Q]⟩ : Shape).ShapeCasts ⟨2, ![N, Q]⟩}
    {s4 : (⟨2, ![n, Q]⟩ : Shape).Slices ![g, 0] ⟨2, ![1, Q]⟩} {c4 : (⟨2, ![1, Q]⟩ : Shape).ShapeCasts ⟨1, ![Q]⟩}
    {hN : (⟨1, ![N]⟩ : Shape).BroadcastsInDim ⟨2, ![1, N]⟩ (![1] : Fin 1 → Fin 2)}
    {hN' : (⟨2, ![1, N]⟩ : Shape).BroadcastsInDim ⟨2, ![M, N]⟩ (![0, 1] : Fin 2 → Fin 2)}
    {hZ : (⟨0, ![]⟩ : Shape).BroadcastsInDim ⟨2, ![M, N]⟩ (![] : Fin 0 → Fin 2)}
    {hQ : (⟨1, ![Q]⟩ : Shape).BroadcastsInDim ⟨2, ![1, Q]⟩ (![1] : Fin 1 → Fin 2)}
    {hQ' : (⟨2, ![1, Q]⟩ : Shape).BroadcastsInDim ⟨2, ![M, Q]⟩ (![0, 1] : Fin 2 → Fin 2)}
    {g0 : (⟨0, ![]⟩ : Shape).BroadcastsInDim ⟨1, ![M]⟩ (![] : Fin 0 → Fin 1)}
    {g1 : (⟨1, ![M]⟩ : Shape).BroadcastsInDim ⟨2, ![M, 1]⟩ (![0] : Fin 1 → Fin 2)}
    {g2 : (⟨2, ![M, 1]⟩ : Shape).BroadcastsInDim ⟨2, ![M, Q]⟩ (![0, 1] : Fin 2 → Fin 2)}
    (hg : g < n)
    (acc : FVec Ideal ⟨2, ![M, Q]⟩ .f32) (X : FVec Ideal ⟨2, ![M, K]⟩ .f32) (idx : IVec ⟨1, ![M]⟩ 32) (e : BitVec 32)
    (W1 : FVec Ideal ⟨3, ![n, K, N]⟩ .f32) (B1 : FVec Ideal ⟨2, ![n, N]⟩ .f32)
    (W2 : FVec Ideal ⟨3, ![n, N, Q]⟩ .f32) (B2 : FVec Ideal ⟨2, ![n, Q]⟩ .f32) :
    hostStep g (w1 := w1) (w2 := w2) (s1 := s1) (c1 := c1) (s2 := s2) (c2 := c2) (s3 := s3) (c3 := c3) (s4 := s4) (c4 := c4) (hN := hN) (hN' := hN')
        (hZ := hZ) (hQ := hQ) (hQ' := hQ') (g0 := g0) (g1 := g1) (g2 := g2) acc X idx e W1 B1 W2 B2
      = fun j => acc j + gate (idx (ix1 (j 0))) e
          * logits X (layer ⟨g, hg⟩ W1) (biasRow ⟨g, hg⟩ B1) (layer ⟨g, hg⟩ W2) (biasRow ⟨g, hg⟩ B2) j := by
  unfold hostStep
  rw [gate_host, host_logits w1 w2 hN hN' hZ hQ hQ', slice_layer W1 g hg s1 c1, slice_layer W2 g hg s3 c3,
    slice_biasRow B1 g hg s2 c2, slice_biasRow B2 g hg s4 c4]
  rfl

end Cert.Route

end
-- ==== Proof.VaeForms.lean ====
/-
  The head and the tail of the decoder around its routed network, over the extended reals.

  Head: from a mean mu, a log-variance lv and a noise array eps, all M × L, the sample z = mu + eps · exp(½ · lv), then
  one dense layer z · A + a. Tail: the logistic function of each entry of the routed network's output, clamped to
  [0, 1] by a maximum against 0 followed by a minimum against 1. Both in the kernel's spelling on a block of rows and in
  the host's spelling on the whole batch. The host writes the logistic function out as 1 / (1 + exp(−x)); on the
  extended reals that expression IS the logistic function, the float word of 1.0 being the number 1.
-/
import proofs.«133417_j71502615544597_1_alg».proof.Proof.LibRoutedExperts

noncomputable section

namespace Cert.Vae

open Idealize.ShloMosaic Idealize.ShloMosaic.ValueIdx Cert.MatrixProduct Cert.Gcn Cert.Mlp Cert.Stack Cert.Route

/-- The float word of 1.0 is the number 1. -/
theorem ofBits_one_f32 : Ideal.ofBits .f32 0x3F800000#32 = 1 := by
  simp [Ideal.ofBits, Ideal.ieee, -EReal.coe_mul]; norm_num

/-- The sample: mu + eps · exp(½ · lv), entry by entry; ½ kept as its float word. -/
def latent {M L : ℕ} (mu lv eps : (⟨2, ![M, L]⟩ : Shape).Idx → EReal) : (⟨2, ![M, L]⟩ : Shape).Idx → EReal :=
  fun i => mu i + eps i * Ideal.exp (Ideal.ofBits .f32 0x3F000000#32 * lv i)

/-- The sample through one dense layer. -/
def aligned {M L P : ℕ} (mu lv eps : (⟨2, ![M, L]⟩ : Shape).Idx → EReal) (A : (⟨2, ![L, P]⟩ : Shape).Idx → EReal)
    (a : (⟨1, ![P]⟩ : Shape).Idx → EReal) : (⟨2, ![M, P]⟩ : Shape).Idx → EReal :=
  biasedProduct (latent mu lv eps) A (rowOf a)

/-- The logistic function of an array's entries, clamped to [0, 1]. -/
def clamped {s : Shape} (Y : s.Idx → EReal) : s.Idx → EReal :=
  fun j => min (Ideal.ofBits .f32 0x3F800000#32) (max (Ideal.ofBits .f32 0x00000000#32) (Ideal.logistic (Y j)))

/-- The whole decoder: sample, dense layer, routed network, clamped logistic. -/
def recon {M L P N Q : ℕ} (sel : Fin M → BitVec 32) (mu lv eps : (⟨2, ![M, L]⟩ : Shape).Idx → EReal)
    (A : (⟨2, ![L, P]⟩ : Shape).Idx → EReal) (a : (⟨1, ![P]⟩ : Shape).Idx → EReal)
    (W1 : (⟨3, ![5, P, N]⟩ : Shape).Idx → EReal) (B1 : (⟨2, ![5, N]⟩ : Shape).Idx → EReal)
    (W2 : (⟨3, ![5, N, Q]⟩ : Shape).Idx → EReal) (B2 : (⟨2, ![5, Q]⟩ : Shape).Idx → EReal) :
    (⟨2, ![M, Q]⟩ : Shape).Idx → EReal :=
  clamped (routed sel (aligned mu lv eps A a) W1 B1 W2 B2)

/-- An entry of the decoder's output depends on one row of mu, lv, eps and that row's number only. -/
theorem recon_row {M R L P N Q : ℕ} (sel : Fin M → BitVec 32) (mu lv eps : (⟨2, ![M, L]⟩ : Shape).Idx → EReal)
    (A : (⟨2, ![L, P]⟩ : Shape).Idx → EReal) (a : (⟨1, ![P]⟩ : Shape).Idx → EReal)
    (W1 : (⟨3, ![5, P, N]⟩ : Shape).Idx → EReal) (B1 : (⟨2, ![5, N]⟩ : Shape).Idx → EReal)
    (W2 : (⟨3, ![5, N, Q]⟩ : Shape).Idx → EReal) (B2 : (⟨2, ![5, Q]⟩ : Shape).Idx → EReal)
    (selb : Fin R → BitVec 32) (x0 x1 x2 : (⟨2, ![R, L]⟩ : Shape).Idx → EReal) (p : Fin R) (r : Fin M) (q : Fin Q)
    (hsel : selb p = sel r) (h0 : ∀ j : Fin L, x0 (ix2 p j) = mu (ix2 r j)) (h1 : ∀ j : Fin L, x1 (ix2 p j) = lv (ix2 r j))
    (h2 : ∀ j : Fin L, x2 (ix2 p j) = eps (ix2 r j)) :
    recon selb x0 x1 x2 A a W1 B1 W2 B2 (ix2 p q) = recon sel mu lv eps A a W1 B1 W2 B2 (ix2 r q) := by
  show min _ (max _ (Ideal.logistic (routed selb (aligned x0 x1 x2 A a) W1 B1 W2 B2 (ix2 p q))))
    = min _ (max _ (Ideal.logistic (routed sel (aligned mu lv eps A a) W1 B1 W2 B2 (ix2 r q))))
  rw [routed_row sel (aligned mu lv eps A a) W1 B1 W2 B2 selb (aligned x0 x1 x2 A a) p r q hsel (fun j => ?_)]
  refine biasedProduct_row (latent mu lv eps) A (rowOf a) (latent x0 x1 x2) A (rowOf a) p j r (fun k => ?_) (fun _ => rfl) rfl
  show x0 (ix2 p k) + x2 (ix2 p k) * Ideal.exp (_ * x1 (ix2 p k)) = mu (ix2 r k) + eps (ix2 r k) * Ideal.exp (_ * lv (ix2 r k))
  rw [h0 k, h1 k, h2 k]

/-- The head as the matrix unit spells it on a block of rows. -/
def machineAligned {R L P : ℕ}
    {w : DotDims.WF ⟨2, ![R, L]⟩ ⟨2, ![L, P]⟩ ⟨2, ![R, P]⟩ [1] [0] [0] [1] [] []}
    {hb : FTy.bits .bf16 < FTy.bits .f32} {hs : (⟨2, ![R, L]⟩ : Shape).ShapeCasts ⟨2, ![R, L]⟩}
    {cr : (⟨1, ![P]⟩ : Shape).ShapeCasts ⟨2, ![1, P]⟩} {bc : (⟨2, ![1, P]⟩ : Shape).Broadcasts ⟨2, ![R, P]⟩}
    (x0 x1 x2 : Vec Ideal ⟨2, ![R, L]⟩ .f32) (x4 : Vec Ideal ⟨2, ![L, P]⟩ .f32) (x5 : Vec Ideal ⟨1, ![P]⟩ .f32) :
    FVec Ideal ⟨2, ![R, P]⟩ .f32 :=
  addf (matmul (⟨[1], [0], [0], [1], [], [], w⟩ : DotDims ⟨2, ![R, L]⟩ ⟨2, ![L, P]⟩ ⟨2, ![R, P]⟩) none
      (truncf .bf16 (addf (shapeCast ⟨2, ![R, L]⟩ x0 hs)
        (mulf x2 (exp (mulf (broadcast ⟨2, ![R, L]⟩ (Scalar.ofBits (F := Ideal) .f32 0x3F000000#32)) (shapeCast ⟨2, ![R, L]⟩ x1 hs))))) hb)
      (truncf .bf16 x4 hb) (constant (F := Ideal) ⟨2, ![R, P]⟩ .f32 0x00000000#32))
    (broadcastTo ⟨2, ![R, P]⟩ (shapeCast ⟨2, ![1, P]⟩ x5 cr) bc)

theorem machineAligned_eq {R L P : ℕ}
    {w : DotDims.WF ⟨2, ![R, L]⟩ ⟨2, ![L, P]⟩ ⟨2, ![R, P]⟩ [1] [0] [0] [1] [] []}
    {hb : FTy.bits .bf16 < FTy.bits .f32} {hs : (⟨2, ![R, L]⟩ : Shape).ShapeCasts ⟨2, ![R, L]⟩}
    {cr : (⟨1, ![P]⟩ : Shape).ShapeCasts ⟨2, ![1, P]⟩} {bc : (⟨2, ![1, P]⟩ : Shape).Broadcasts ⟨2, ![R, P]⟩}
    (x0 x1 x2 : Vec Ideal ⟨2, ![R, L]⟩ .f32) (x4 : Vec Ideal ⟨2, ![L, P]⟩ .f32) (x5 : Vec Ideal ⟨1, ![P]⟩ .f32) :
    machineAligned (w := w) (hb := hb) (hs := hs) (cr := cr) (bc := bc) x0 x1 x2 x4 x5 = aligned x0 x1 x2 x4 x5 := by
  unfold machineAligned
  rw [shapeCast_self, shapeCast_self, cast_row_eq_rowOf, block_biased_row w hb bc]
  rfl

/-- The head as the host spells it on the whole batch. -/
def hostAligned {M L P : ℕ}
    {w : DotDims.WF ⟨2, ![M, L]⟩ ⟨2, ![L, P]⟩ ⟨2, ![M, P]⟩ [1] [0] [0] [1] [] []}
    {hh : (⟨0, ![]⟩ : Shape).BroadcastsInDim ⟨2, ![M, L]⟩ (![] : Fin 0 → Fin 2)}
    {h1 : (⟨1, ![P]⟩ : Shape).BroadcastsInDim ⟨2, ![1, P]⟩ (![1] : Fin 1 → Fin 2)}
    {h2 : (⟨2, ![1, P]⟩ : Shape).BroadcastsInDim ⟨2, ![M, P]⟩ (![0, 1] : Fin 2 → Fin 2)}
    (mu lv eps : FVec Ideal ⟨2, ![M, L]⟩ .f32) (A : FVec Ideal ⟨2, ![L, P]⟩ .f32) (a : FVec Ideal ⟨1, ![P]⟩ .f32) :
    FVec Ideal ⟨2, ![M, P]⟩ .f32 :=
  addf (Host.dotGeneral (⟨[1], [0], [0], [1], [], [], w⟩ : DotDims ⟨2, ![M, L]⟩ ⟨2, ![L, P]⟩ ⟨2, ![M, P]⟩) none
      (addf mu (mulf eps (Host.exp (mulf (broadcastInDim ⟨2, ![M, L]⟩ (![] : Fin 0 → Fin 2) hh (constant (F := Ideal) ⟨0, ![]⟩ .f32 0x3F000000#32)) lv))))
      A)
    (broadcastInDim ⟨2, ![M, P]⟩ (![0, 1] : Fin 2 → Fin 2) h2 (broadcastInDim ⟨2, ![1, P]⟩ (![1] : Fin 1 → Fin 2) h1 a))

theorem hostAligned_eq {M L P : ℕ}
    {w : DotDims.WF ⟨2, ![M, L]⟩ ⟨2, ![L, P]⟩ ⟨2, ![M, P]⟩ [1] [0] [0] [1] [] []}
    {hh : (⟨0, ![]⟩ : Shape).BroadcastsInDim ⟨2, ![M, L]⟩ (![] : Fin 0 → Fin 2)}
    {h1 : (⟨1, ![P]⟩ : Shape).BroadcastsInDim ⟨2, ![1, P]⟩ (![1] : Fin 1 → Fin 2)}
    {h2 : (⟨2, ![1, P]⟩ : Shape).BroadcastsInDim ⟨2, ![M, P]⟩ (![0, 1] : Fin 2 → Fin 2)}
    (mu lv eps : FVec Ideal ⟨2, ![M, L]⟩ .f32) (A : FVec Ideal ⟨2, ![L, P]⟩ .f32) (a : FVec Ideal ⟨1, ![P]⟩ .f32) :
    hostAligned (w := w) (hh := hh) (h1 := h1) (h2 := h2) mu lv eps A a = aligned mu lv eps A a := by
  unfold hostAligned
  rw [host_biased w h1 h2]
  rfl

/-- The tail as the kernel spells it: the logistic operation, a maximum against a repeated 0, a minimum against a
    repeated 1. -/
theorem machineClamped {s : Shape} (Y : FVec Ideal s .f32) :
    minimumf (broadcast s (Scalar.ofBits (F := Ideal) .f32 0x3F800000#32))
        (maximumf (broadcast s (Scalar.ofBits (F := Ideal) .f32 0x00000000#32)) (logistic Y))
      = clamped Y := rfl

/-- The tail as the host spells it: 1 / (1 + exp(−x)) written out, then the clamp. -/
theorem hostClamped {M Q : ℕ} (h : (⟨0, ![]⟩ : Shape).BroadcastsInDim ⟨2, ![M, Q]⟩ (![] : Fin 0 → Fin 2)) (Y : FVec Ideal ⟨2, ![M, Q]⟩ .f32) :
    minimumf (broadcastInDim ⟨2, ![M, Q]⟩ (![] : Fin 0 → Fin 2) h (id (constant (F := Ideal) ⟨0, ![]⟩ .f32 0x3F800000#32)))
        (maximumf (broadcastInDim ⟨2, ![M, Q]⟩ (![] : Fin 0 → Fin 2) h (id (constant (F := Ideal) ⟨0, ![]⟩ .f32 0x00000000#32)))
          (Host.divf (broadcastInDim ⟨2, ![M, Q]⟩ (![] : Fin 0 → Fin 2) h (constant (F := Ideal) ⟨0, ![]⟩ .f32 0x3F800000#32))
            (addf (broadcastInDim ⟨2, ![M, Q]⟩ (![] : Fin 0 → Fin 2) h (constant (F := Ideal) ⟨0, ![]⟩ .f32 0x3F800000#32))
              (Host.exp (Host.negf Y)))))
      = clamped Y := by
  funext j
  show min (Ideal.ofBits .f32 0x3F800000#32) (max (Ideal.ofBits .f32 0x00000000#32)
      (Ideal.div (Ideal.ofBits .f32 0x3F800000#32) (Ideal.ofBits .f32 0x3F800000#32 + Ideal.exp (-(Y j)))))
    = min (Ideal.ofBits .f32 0x3F800000#32) (max (Ideal.ofBits .f32 0x00000000#32) (Ideal.logistic (Y j)))
  rw [show Ideal.div (Ideal.ofBits .f32 0x3F800000#32) (Ideal.ofBits .f32 0x3F800000#32 + Ideal.exp (-(Y j))) = Ideal.logistic (Y j) from by
    rw [ofBits_one_f32]; rfl]

end Cert.Vae

end
-- ==== Proof.LibColumnSlices.lean ====
/-
  A block of consecutive columns of a matrix.

  `cols o h A` is the M × n matrix of the columns o, o + 1, …, o + n − 1 of the M × m matrix A. A unit-stride slice
  [0:M, o:o+n] — the kernel's `vector.extract_strided_slice` and the host's `slice` are one operation — is that matrix.
-/
import Idealize.ShloMosaic.Lib.ValueLayout

namespace Cert.Columns

open Idealize.ShloMosaic Idealize.ShloMosaic.ValueIdx

variable {α : Type}

/-- Columns `o … o + n − 1` of an M × m matrix. -/
def cols {M m n : ℕ} (o : ℕ) (h : o + n ≤ m) (A : (⟨2, ![M, m]⟩ : Shape).Idx → α) : (⟨2, ![M, n]⟩ : Shape).Idx → α :=
  fun i => A (ix2 (i 0) (⟨o + (i 1 : Fin n).val, Nat.lt_of_lt_of_le (Nat.add_lt_add_left (i 1 : Fin n).isLt o) h⟩ : Fin m))

/-- The columns read at an entry given by its coordinates. -/
theorem cols_apply {M m n : ℕ} (o : ℕ) (h : o + n ≤ m) (A : (⟨2, ![M, m]⟩ : Shape).Idx → α) (a : Fin M) (j : Fin n) :
    cols o h A (ix2 a j) = A (ix2 a ⟨o + j.val, Nat.lt_of_lt_of_le (Nat.add_lt_add_left j.isLt o) h⟩) := rfl

/-- A unit-stride slice of columns is `cols`. -/
theorem slice_cols {M m n : ℕ} (o : ℕ) (h : o + n ≤ m) (A : (⟨2, ![M, m]⟩ : Shape).Idx → α)
    (hs : (⟨2, ![M, m]⟩ : Shape).Slices ![0, o] ⟨2, ![M, n]⟩) :
    extractStridedSlice ⟨2, ![M, n]⟩ ![0, o] A hs = cols o h A := by
  funext i
  obtain ⟨a, j, rfl⟩ : ∃ (a : Fin M) (j : Fin n), i = ix2 a j := ⟨i 0, i 1, eq_ix2 i⟩
  exact slice2_axis1_apply o A hs a j _ rfl

end Cert.Columns
-- ==== Proof.KernelBlocks.lean ====
/-
  What one grid point of each launch leaves in its output blocks, as functions of the blocks it was given.

  First launch: the point's block of x (1024 rows), its column of expert numbers and the four weight stacks go through
  five expert steps into a 1024 × 256 accumulator, whose left and right halves are stored as the mean and the
  log-variance blocks. That accumulator is the routed network of the block. Second launch: the blocks of the mean, the
  log-variance and the noise, the column of numbers, the alignment layer and the four decoder stacks go through the
  sample, the dense layer, five expert steps and the clamped logistic: the decoder of the block.
-/
import proofs.«133417_j71502615544597_1_alg».proof.Proof.Gen.KernelIdeal.Frame
import proofs.«133417_j71502615544597_1_alg».proof.Proof.VaeForms
import proofs.«133417_j71502615544597_1_alg».proof.Proof.LibColumnSlices

set_option maxRecDepth 16384

noncomputable section

namespace Cert.KernelIdeal.Blocks

open Cert.KernelIdeal Cert.KernelIdeal.Gen Idealize.ShloMosaic Idealize.ShloMosaic.ValueIdx
open Cert.Mlp Cert.Stack Cert.Route Cert.Vae Cert.Columns

theorem hz2 : (![0, 0] : Fin 2 → Nat) = fun _ => 0 := funext fun a => by fin_cases a <;> rfl
theorem hz1 : (![0] : Fin 1 → Nat) = fun _ => 0 := funext fun a => by fin_cases a; rfl

/-- The first launch's accumulator after its five expert steps is the routed network of the block. -/
theorem enc_acc (x0 : Vec Ideal S1024x784 .f32) (x1 : Vec Ideal S1024x1 .i32) (x2 : Vec Ideal S5x784x400 .f32)
    (x3 : Vec Ideal S5x400 .f32) (x4 : Vec Ideal S5x400x256 .f32) (x5 : Vec Ideal S5x256 .f32) :
    k0_pay1 (k0_pay4 x0) (k0_pay5 x1) (k0_pay12 (k0_pay4 x0) (k0_pay5 x1) (k0_pay8 (k0_pay4 x0) (k0_pay5 x1) (k0_pay6 x0 x1 (View.ld x2 r0_2) (View.ld x3 r0_3) (View.ld x4 r0_4) (View.ld x5 r0_5)) (k0_pay7 (View.ld x2 r0_6)) (View.ld x3 r0_7) (View.ld x4 r0_8) (View.ld x5 r0_9)) (k0_pay9 (View.ld x4 r0_12)) (k0_pay10 (View.ld x5 r0_13)) (k0_pay11 (k0_pay4 x0) (View.ld x2 r0_10) (View.ld x3 r0_11)) (View.ld x2 r0_14) (View.ld x3 r0_15) (View.ld x4 r0_16) (View.ld x5 r0_17)) (View.ld x2 r0_18) (View.ld x3 r0_19) (View.ld x4 r0_20) (View.ld x5 r0_21)
      = routed (fun p => x1 (ix2 p (0 : Fin 1))) x0 x2 x3 x4 x5 := by
  change (machineStep 4 (machineStep 3 (machineStep 2 (machineStep 1 (machineStep 0 (broadcast S1024x256 (Scalar.ofBits (F := Ideal) .f32 0x00000000#32))
      (truncf .bf16 x0 _) (shapeCast S1024x1 x1 _) 0#32 x2 x3 x4 x5)
      (truncf .bf16 x0 _) (shapeCast S1024x1 x1 _) 1#32 x2 x3 x4 x5)
      (truncf .bf16 x0 _) (shapeCast S1024x1 x1 _) 2#32 x2 x3 x4 x5)
      (truncf .bf16 x0 _) (shapeCast S1024x1 x1 _) 3#32 x2 x3 x4 x5)
      (truncf .bf16 x0 _) (shapeCast S1024x1 x1 _) 4#32 x2 x3 x4 x5) = _
  rw [shapeCast_self]
  simp only [machineStep_eq (g := 0) (n := 5) (by decide), machineStep_eq (g := 1) (n := 5) (by decide), machineStep_eq (g := 2) (n := 5) (by decide), machineStep_eq (g := 3) (n := 5) (by decide), machineStep_eq (g := 4) (n := 5) (by decide)]
  funext j
  rfl

/-- The mean block a point of the first launch stores: the left 128 columns of the routed network of the block. -/
theorem enc_mu_block (x0 : Vec Ideal S1024x784 .f32) (x1 : Vec Ideal S1024x1 .i32) (x2 : Vec Ideal S5x784x400 .f32)
    (x3 : Vec Ideal S5x400 .f32) (x4 : Vec Ideal S5x400x256 .f32) (x5 : Vec Ideal S5x256 .f32) :
    out0_6 (F := Ideal) x0 x1 x2 x3 x4 x5 = cols 0 (by decide) (routed (fun p => x1 (ix2 p (0 : Fin 1))) x0 x2 x3 x4 x5) := by
  unfold out0_6
  rw [View.canon_unit_zero hz2]
  simp only [View.ld_unit_zero (S := S1024x784) hz2, View.ld_unit_zero (S := S1024x1) hz2]
  unfold k0_pay2
  rw [enc_acc]
  exact slice_cols 0 _ _ _

/-- The log-variance block: the right 128 columns. -/
theorem enc_lv_block (x0 : Vec Ideal S1024x784 .f32) (x1 : Vec Ideal S1024x1 .i32) (x2 : Vec Ideal S5x784x400 .f32)
    (x3 : Vec Ideal S5x400 .f32) (x4 : Vec Ideal S5x400x256 .f32) (x5 : Vec Ideal S5x256 .f32) :
    out0_7 (F := Ideal) x0 x1 x2 x3 x4 x5 = cols 128 (by decide) (routed (fun p => x1 (ix2 p (0 : Fin 1))) x0 x2 x3 x4 x5) := by
  unfold out0_7
  rw [View.canon_unit_zero hz2]
  simp only [View.ld_unit_zero (S := S1024x784) hz2, View.ld_unit_zero (S := S1024x1) hz2]
  unfold k0_pay3
  rw [enc_acc]
  exact slice_cols 128 _ _ _

/-- The block a point of the second launch stores: the decoder of the point's blocks. -/
theorem dec_block (x0 x1 x2 : Vec Ideal S1024x128 .f32) (x3 : Vec Ideal S1024x1 .i32) (x4 : Vec Ideal S128x128 .f32)
    (x5 : Vec Ideal S128 .f32) (x6 : Vec Ideal S5x128x400 .f32) (x7 : Vec Ideal S5x400 .f32)
    (x8 : Vec Ideal S5x400x784 .f32) (x9 : Vec Ideal S5x784 .f32) :
    out1_10 (F := Ideal) x0 x1 x2 x3 x4 x5 x6 x7 x8 x9
      = recon (fun p => x3 (ix2 p (0 : Fin 1))) x0 x1 x2 x4 x5 x6 x7 x8 x9 := by
  unfold out1_10
  rw [View.canon_unit_zero hz2]
  simp only [View.ld_unit_zero (S := S1024x128) hz2, View.ld_unit_zero (S := S1024x1) hz2,
    View.ld_unit_zero (S := S128x128) hz2, View.ld_unit_zero (S := S128) hz1]
  change minimumf (broadcast S1024x784 (Scalar.ofBits (F := Ideal) .f32 0x3F800000#32))
    (maximumf (broadcast S1024x784 (Scalar.ofBits (F := Ideal) .f32 0x00000000#32)) (logistic
      (machineStep 4 (machineStep 3 (machineStep 2 (machineStep 1 (machineStep 0 (broadcast S1024x784 (Scalar.ofBits (F := Ideal) .f32 0x00000000#32))
      (truncf .bf16 (machineAligned x0 x1 x2 x4 x5) _) (shapeCast S1024x1 x3 _) 0#32 x6 x7 x8 x9)
      (truncf .bf16 (machineAligned x0 x1 x2 x4 x5) _) (shapeCast S1024x1 x3 _) 1#32 x6 x7 x8 x9)
      (truncf .bf16 (machineAligned x0 x1 x2 x4 x5) _) (shapeCast S1024x1 x3 _) 2#32 x6 x7 x8 x9)
      (truncf .bf16 (machineAligned x0 x1 x2 x4 x5) _) (shapeCast S1024x1 x3 _) 3#32 x6 x7 x8 x9)
      (truncf .bf16 (machineAligned x0 x1 x2 x4 x5) _) (shapeCast S1024x1 x3 _) 4#32 x6 x7 x8 x9))) = _
  rw [machineClamped, shapeCast_self]
  simp only [machineStep_eq (g := 0) (n := 5) (by decide), machineStep_eq (g := 1) (n := 5) (by decide), machineStep_eq (g := 2) (n := 5) (by decide), machineStep_eq (g := 3) (n := 5) (by decide), machineStep_eq (g := 4) (n := 5) (by decide), machineAligned_eq]
  funext j
  rfl

end Cert.KernelIdeal.Blocks

end
-- ==== Proof.KernelWindows.lean ====
/-
  Where each window's block sits in its array, for the two launches' 64 grid points each.

  The index maps send point t to block (t, 0) for the operands tiled by rows (1024 rows per block) and to block 0 on every
  axis for the operands held whole. So row p of a row-tiled window's block at point t is row 1024·t + p of its array, and
  a whole window's block is the array itself. The index maps are decided over the 64 points; an element of a block sits
  in the array, on each axis, at the block index times the block size plus its own coordinate.
-/
import proofs.«133417_j71502615544597_1_alg».proof.Proof.Gen.KernelIdeal.Frame
import Idealize.ShloMosaic.Lib.ValueIdx

set_option maxRecDepth 16384

noncomputable section

namespace Cert.KernelIdeal.Windows

open Cert.KernelIdeal Cert.KernelIdeal.Gen Idealize.ShloMosaic Idealize.ShloMosaic.TcCoe Idealize.ShloMosaic.ValueIdx Idealize.SL.Sem

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 3) = 0 ∧ win0_2.index t (1 : Fin 3) = 0 ∧ win0_2.index t (2 : Fin 3) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 3) = 0 ∧ win0_4.index t (1 : Fin 3) = 0 ∧ win0_4.index t (2 : Fin 3) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = t.val ∧ win0_6.index t (1 : Fin 2) = 0 :=
  (by decide +kernel : ∀ t : Fin grid0.N, _)

theorem idx0_7 : ∀ t : Fin cfg0.N, win0_7.index t (0 : Fin 2) = t.val ∧ win0_7.index t (1 : Fin 2) = 0 :=
  (by decide +kernel : ∀ t : Fin grid0.N, _)

/-- Row p of window 0's block at point t of launch 0 is row 1024·t + p of its array. -/
theorem blk0_r0 (V : (c : Dev nD) → (b : Ref sig .tc) → Buf (Elt Ideal) ((c : Thread nD τ).loc b)) (c : Dev nD) (t : Fin cfg0.N)
    (p : Fin 1024) (j : Fin 784) (r : Fin 65536) (hr : r.val = t.val * 1024 + p.val) :
    iblk0 V c 0 t (ix2 p j) = V c main_arg0 (ix2 r j) := by
  show V c main_arg0 (((cfg0.win 0).blk t).view.emb (ix2 p j)) = V c main_arg0 (ix2 r j)
  congr 1
  funext a
  apply Fin.ext
  obtain ⟨e0, e1⟩ := idx0_0 t
  match a with
  | ⟨0, _⟩ => show win0_0.index t (0 : Fin 2) * 1024 + 1 * p.val = r.val; rw [e0]; omega
  | ⟨1, _⟩ => show win0_0.index t (1 : Fin 2) * 784 + 1 * j.val = j.val; rw [e1]; omega

/-- Row p of window 1's block at point t of launch 0 is row 1024·t + p of its array. -/
theorem blk0_r1 (V : (c : Dev nD) → (b : Ref sig .tc) → Buf (Elt Ideal) ((c : Thread nD τ).loc b)) (c : Dev nD) (t : Fin cfg0.N)
    (p : Fin 1024) (j : Fin 1) (r : Fin 65536) (hr : r.val = t.val * 1024 + p.val) :
    iblk0 V c 1 t (ix2 p j) = V c main_v0 (ix2 r j) := by
  show V c main_v0 (((cfg0.win 1).blk t).view.emb (ix2 p j)) = V c main_v0 (ix2 r j)
  congr 1
  funext a
  apply Fin.ext
  obtain ⟨e0, e1⟩ := idx0_1 t
  match a with
  | ⟨0, _⟩ => show win0_1.index t (0 : Fin 2) * 1024 + 1 * p.val = r.val; rw [e0]; omega
  | ⟨1, _⟩ => show win0_1.index t (1 : Fin 2) * 1 + 1 * j.val = j.val; rw [e1]; omega

/-- Window 2 of launch 0 holds its whole array at every point. -/
theorem blk0_w2 (V : (c : Dev nD) → (b : Ref sig .tc) → Buf (Elt Ideal) ((c : Thread nD τ).loc b)) (c : Dev nD) (t : Fin cfg0.N) :
    iblk0 V c 2 t = V c main_arg3 := by
  funext y
  show V c main_arg3 (((cfg0.win 2).blk t).view.emb y) = V c main_arg3 y
  congr 1
  funext a
  apply Fin.ext
  obtain ⟨e0, e1, e2⟩ := idx0_2 t
  match a with
  | ⟨0, _⟩ => show win0_2.index t (0 : Fin 3) * 5 + 1 * (y 0).val = (y 0).val; rw [e0]; omega
  | ⟨1, _⟩ => show win0_2.index t (1 : Fin 3) * 784 + 1 * (y 1).val = (y 1).val; rw [e1]; omega
  | ⟨2, _⟩ => show win0_2.index t (2 : Fin 3) * 400 + 1 * (y 2).val = (y 2).val; rw [e2]; omega

/-- Window 3 of launch 0 holds its whole array at every point. -/
theorem blk0_w3 (V : (c : Dev nD) → (b : Ref sig .tc) → Buf (Elt Ideal) ((c : Thread nD τ).loc b)) (c : Dev nD) (t : Fin cfg0.N) :
    iblk0 V c 3 t = V c main_arg4 := by
  funext y
  show V c main_arg4 (((cfg0.win 3).blk t).view.emb y) = V c main_arg4 y
  congr 1
  funext a
  apply Fin.ext
  obtain ⟨e0, e1⟩ := idx0_3 t
  match a with
  | ⟨0, _⟩ => show win0_3.index t (0 : Fin 2) * 5 + 1 * (y 0).val = (y 0).val; rw [e0]; omega
  | ⟨1, _⟩ => show win0_3.index t (1 : Fin 2) * 400 + 1 * (y 1).val = (y 1).val; rw [e1]; omega

/-- Window 4 of launch 0 holds its whole array at every point. -/
theorem blk0_w4 (V : (c : Dev nD) → (b : Ref sig .tc) → Buf (Elt Ideal) ((c : Thread nD τ).loc b)) (c : Dev nD) (t : Fin cfg0.N) :
    iblk0 V c 4 t = V c main_arg5 := by
  funext y
  show V c main_arg5 (((cfg0.win 4).blk t).view.emb y) = V c main_arg5 y
  congr 1
  funext a
  apply Fin.ext
  obtain ⟨e0, e1, e2⟩ := idx0_4 t
  match a with
  | ⟨0, _⟩ => show win0_4.index t (0 : Fin 3) * 5 + 1 * (y 0).val = (y 0).val; rw [e0]; omega
  | ⟨1, _⟩ => show win0_4.index t (1 : Fin 3) * 400 + 1 * (y 1).val = (y 1).val; rw [e1]; omega
  | ⟨2, _⟩ => show win0_4.index t (2 : Fin 3) * 256 + 1 * (y 2).val = (y 2).val; rw [e2]; omega

/-- Window 5 of launch 0 holds its whole array at every point. -/
theorem blk0_w5 (V : (c : Dev nD) → (b : Ref sig .tc) → Buf (Elt Ideal) ((c : Thread nD τ).loc b)) (c : Dev nD) (t : Fin cfg0.N) :
    iblk0 V c 5 t = V c main_arg6 := by
  funext y
  show V c main_arg6 (((cfg0.win 5).blk t).view.emb y) = V c main_arg6 y
  congr 1
  funext a
  apply Fin.ext
  obtain ⟨e0, e1⟩ := idx0_5 t
  match a with
  | ⟨0, _⟩ => show win0_5.index t (0 : Fin 2) * 5 + 1 * (y 0).val = (y 0).val; rw [e0]; omega
  | ⟨1, _⟩ => show win0_5.index t (1 : Fin 2) * 256 + 1 * (y 1).val = (y 1).val; rw [e1]; omega

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 1) = 0 :=
  (by decide +kernel : ∀ t : Fin grid1.N, _)

theorem idx1_6 : ∀ t : Fin cfg1.N, win1_6.index t (0 : Fin 3) = 0 ∧ win1_6.index t (1 : Fin 3) = 0 ∧ win1_6.index t (2 : Fin 3) = 0 :=
  (by decide +kernel : ∀ t : Fin grid1.N, _)

theorem idx1_7 : ∀ t : Fin cfg1.N, win1_7.index t (0 : Fin 2) = 0 ∧ win1_7.index t (1 : Fin 2) = 0 :=
  (by decide +kernel : ∀ t : Fin grid1.N, _)

theorem idx1_8 : ∀ t : Fin cfg1.N, win1_8.index t (0 : Fin 3) = 0 ∧ win1_8.index t (1 : Fin 3) = 0 ∧ win1_8.index t (2 : Fin 3) = 0 :=
  (by decide +kernel : ∀ t : Fin grid1.N, _)

theorem idx1_9 : ∀ t : Fin cfg1.N, win1_9.index t (0 : Fin 2) = 0 ∧ win1_9.index t (1 : Fin 2) = 0 :=
  (by decide +kernel : ∀ t : Fin grid1.N, _)

theorem idx1_10 : ∀ t : Fin cfg1.N, win1_10.index t (0 : Fin 2) = t.val ∧ win1_10.index t (1 : Fin 2) = 0 :=
  (by decide +kernel : ∀ t : Fin grid1.N, _)

/-- Row p of window 0's block at point t of launch 1 is row 1024·t + p of its array. -/
theorem blk1_r0 (V : (c : Dev nD) → (b : Ref sig .tc) → Buf (Elt Ideal) ((c : Thread nD τ).loc b)) (c : Dev nD) (t : Fin cfg1.N)
    (p : Fin 1024) (j : Fin 128) (r : Fin 65536) (hr : r.val = t.val * 1024 + p.val) :
    iblk1 V c 0 t (ix2 p j) = V c main_v1_0 (ix2 r j) := by
  show V c main_v1_0 (((cfg1.win 0).blk t).view.emb (ix2 p j)) = V c main_v1_0 (ix2 r j)
  congr 1
  funext a
  apply Fin.ext
  obtain ⟨e0, e1⟩ := idx1_0 t
  match a with
  | ⟨0, _⟩ => show win1_0.index t (0 : Fin 2) * 1024 + 1 * p.val = r.val; rw [e0]; omega
  | ⟨1, _⟩ => show win1_0.index t (1 : Fin 2) * 128 + 1 * j.val = j.val; rw [e1]; omega

/-- Row p of window 1's block at point t of launch 1 is row 1024·t + p of its array. -/
theorem blk1_r1 (V : (c : Dev nD) → (b : Ref sig .tc) → Buf (Elt Ideal) ((c : Thread nD τ).loc b)) (c : Dev nD) (t : Fin cfg1.N)
    (p : Fin 1024) (j : Fin 128) (r : Fin 65536) (hr : r.val = t.val * 1024 + p.val) :
    iblk1 V c 1 t (ix2 p j) = V c main_v1_1 (ix2 r j) := by
  show V c main_v1_1 (((cfg1.win 1).blk t).view.emb (ix2 p j)) = V c main_v1_1 (ix2 r j)
  congr 1
  funext a
  apply Fin.ext
  obtain ⟨e0, e1⟩ := idx1_1 t
  match a with
  | ⟨0, _⟩ => show win1_1.index t (0 : Fin 2) * 1024 + 1 * p.val = r.val; rw [e0]; omega
  | ⟨1, _⟩ => show win1_1.index t (1 : Fin 2) * 128 + 1 * j.val = j.val; rw [e1]; omega

/-- Row p of window 2's block at point t of launch 1 is row 1024·t + p of its array. -/
theorem blk1_r2 (V : (c : Dev nD) → (b : Ref sig .tc) → Buf (Elt Ideal) ((c : Thread nD τ).loc b)) (c : Dev nD) (t : Fin cfg1.N)
    (p : Fin 1024) (j : Fin 128) (r : Fin 65536) (hr : r.val = t.val * 1024 + p.val) :
    iblk1 V c 2 t (ix2 p j) = V c main_arg2 (ix2 r j) := by
  show V c main_arg2 (((cfg1.win 2).blk t).view.emb (ix2 p j)) = V c main_arg2 (ix2 r j)
  congr 1
  funext a
  apply Fin.ext
  obtain ⟨e0, e1⟩ := idx1_2 t
  match a with
  | ⟨0, _⟩ => show win1_2.index t (0 : Fin 2) * 1024 + 1 * p.val = r.val; rw [e0]; omega
  | ⟨1, _⟩ => show win1_2.index t (1 : Fin 2) * 128 + 1 * j.val = j.val; rw [e1]; omega

/-- Row p of window 3's block at point t of launch 1 is row 1024·t + p of its array. -/
theorem blk1_r3 (V : (c : Dev nD) → (b : Ref sig .tc) → Buf (Elt Ideal) ((c : Thread nD τ).loc b)) (c : Dev nD) (t : Fin cfg1.N)
    (p : Fin 1024) (j : Fin 1) (r : Fin 65536) (hr : r.val = t.val * 1024 + p.val) :
    iblk1 V c 3 t (ix2 p j) = V c main_v0 (ix2 r j) := by
  show V c main_v0 (((cfg1.win 3).blk t).view.emb (ix2 p j)) = V c main_v0 (ix2 r j)
  congr 1
  funext a
  apply Fin.ext
  obtain ⟨e0, e1⟩ := idx1_3 t
  match a with
  | ⟨0, _⟩ => show win1_3.index t (0 : Fin 2) * 1024 + 1 * p.val = r.val; rw [e0]; omega
  | ⟨1, _⟩ => show win1_3.index t (1 : Fin 2) * 1 + 1 * j.val = j.val; rw [e1]; omega

/-- Window 4 of launch 1 holds its whole array at every point. -/
theorem blk1_w4 (V : (c : Dev nD) → (b : Ref sig .tc) → Buf (Elt Ideal) ((c : Thread nD τ).loc b)) (c : Dev nD) (t : Fin cfg1.N) :
    iblk1 V c 4 t = V c main_arg7 := by
  funext y
  show V c main_arg7 (((cfg1.win 4).blk t).view.emb y) = V c main_arg7 y
  congr 1
  funext a
  apply Fin.ext
  obtain ⟨e0, e1⟩ := idx1_4 t
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5 of launch 1 holds its whole array at every point. -/
theorem blk1_w5 (V : (c : Dev nD) → (b : Ref sig .tc) → Buf (Elt Ideal) ((c : Thread nD τ).loc b)) (c : Dev nD) (t : Fin cfg1.N) :
    iblk1 V c 5 t = V c main_arg8 := by
  funext y
  show V c main_arg8 (((cfg1.win 5).blk t).view.emb y) = V c main_arg8 y
  congr 1
  funext a
  apply Fin.ext
  have e0 := idx1_5 t
  match a with
  | ⟨0, _⟩ => show win1_5.index t (0 : Fin 1) * 128 + 1 * (y 0).val = (y 0).val; rw [e0]; omega

/-- Window 6 of launch 1 holds its whole array at every point. -/
theorem blk1_w6 (V : (c : Dev nD) → (b : Ref sig .tc) → Buf (Elt Ideal) ((c : Thread nD τ).loc b)) (c : Dev nD) (t : Fin cfg1.N) :
    iblk1 V c 6 t = V c main_arg9 := by
  funext y
  show V c main_arg9 (((cfg1.win 6).blk t).view.emb y) = V c main_arg9 y
  congr 1
  funext a
  apply Fin.ext
  obtain ⟨e0, e1, e2⟩ := idx1_6 t
  match a with
  | ⟨0, _⟩ => show win1_6.index t (0 : Fin 3) * 5 + 1 * (y 0).val = (y 0).val; rw [e0]; omega
  | ⟨1, _⟩ => show win1_6.index t (1 : Fin 3) * 128 + 1 * (y 1).val = (y 1).val; rw [e1]; omega
  | ⟨2, _⟩ => show win1_6.index t (2 : Fin 3) * 400 + 1 * (y 2).val = (y 2).val; rw [e2]; omega

/-- Window 7 of launch 1 holds its whole array at every point. -/
theorem blk1_w7 (V : (c : Dev nD) → (b : Ref sig .tc) → Buf (Elt Ideal) ((c : Thread nD τ).loc b)) (c : Dev nD) (t : Fin cfg1.N) :
    iblk1 V c 7 t = V c main_arg10 := by
  funext y
  show V c main_arg10 (((cfg1.win 7).blk t).view.emb y) = V c main_arg10 y
  congr 1
  funext a
  apply Fin.ext
  obtain ⟨e0, e1⟩ := idx1_7 t
  match a with
  | ⟨0, _⟩ => show win1_7.index t (0 : Fin 2) * 5 + 1 * (y 0).val = (y 0).val; rw [e0]; omega
  | ⟨1, _⟩ => show win1_7.index t (1 : Fin 2) * 400 + 1 * (y 1).val = (y 1).val; rw [e1]; omega

/-- Window 8 of launch 1 holds its whole array at every point. -/
theorem blk1_w8 (V : (c : Dev nD) → (b : Ref sig .tc) → Buf (Elt Ideal) ((c : Thread nD τ).loc b)) (c : Dev nD) (t : Fin cfg1.N) :
    iblk1 V c 8 t = V c main_arg11 := by
  funext y
  show V c main_arg11 (((cfg1.win 8).blk t).view.emb y) = V c main_arg11 y
  congr 1
  funext a
  apply Fin.ext
  obtain ⟨e0, e1, e2⟩ := idx1_8 t
  match a with
  | ⟨0, _⟩ => show win1_8.index t (0 : Fin 3) * 5 + 1 * (y 0).val = (y 0).val; rw [e0]; omega
  | ⟨1, _⟩ => show win1_8.index t (1 : Fin 3) * 400 + 1 * (y 1).val = (y 1).val; rw [e1]; omega
  | ⟨2, _⟩ => show win1_8.index t (2 : Fin 3) * 784 + 1 * (y 2).val = (y 2).val; rw [e2]; omega

/-- Window 9 of launch 1 holds its whole array at every point. -/
theorem blk1_w9 (V : (c : Dev nD) → (b : Ref sig .tc) → Buf (Elt Ideal) ((c : Thread nD τ).loc b)) (c : Dev nD) (t : Fin cfg1.N) :
    iblk1 V c 9 t = V c main_arg12 := by
  funext y
  show V c main_arg12 (((cfg1.win 9).blk t).view.emb y) = V c main_arg12 y
  congr 1
  funext a
  apply Fin.ext
  obtain ⟨e0, e1⟩ := idx1_9 t
  match a with
  | ⟨0, _⟩ => show win1_9.index t (0 : Fin 2) * 5 + 1 * (y 0).val = (y 0).val; rw [e0]; omega
  | ⟨1, _⟩ => show win1_9.index t (1 : Fin 2) * 784 + 1 * (y 1).val = (y 1).val; rw [e1]; omega

end Cert.KernelIdeal.Windows

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KernelValues.lean ====
/-
  The three result arrays of the idealized kernel as functions of the arguments.

  At the first launch's entry the buffers hold the launch memory, but for the column of expert numbers, which the host
  reshape wrote from the routing vector. Each of the 64 points writes back, into rows 1024·t … 1024·t + 1023 of the mean
  and log-variance arrays, the left and right halves of the routed encoder of its block; an entry of the routed encoder
  depends on one row only, so the blocks are the blocks of ONE whole-batch function, and they cover the arrays. The second
  launch finds those two arrays, the noise and the decoder's weights, and the same argument gives the reconstruction.
-/
import proofs.«133417_j71502615544597_1_alg».proof.Proof.KernelRun
import proofs.«133417_j71502615544597_1_alg».proof.Proof.KernelBlocks
import proofs.«133417_j71502615544597_1_alg».proof.Proof.KernelWindows
import proofs.«133417_j71502615544597_1_alg».proof.Proof.LibColumnCast

set_option maxRecDepth 16384

noncomputable section

namespace Cert.KernelIdeal.Named

open Cert.KernelIdeal Cert.KernelIdeal.Gen Cert.KernelIdeal.Blocks Cert.KernelIdeal.Windows
open Idealize.ShloMosaic Idealize.ShloMosaic.ValueIdx Idealize.ShloMosaic.TcCoe Idealize.SL.Sem
open Cert.Mlp Cert.Stack Cert.Route Cert.Vae Cert.Columns

variable (m : (ℓ : Loc nD τ sig) → Buf (Elt Ideal) ℓ) (ρ : Dev nD → PrngReg)

/-! ## The three functions -/

/-- The row's expert number: the routing vector's entry. -/
abbrev selOf (c : Dev nD) : Fin 65536 → BitVec 32 := fun r => m ((c : Thread nD τ).loc main_arg1) (ix1 r)

/-- The routed encoder of the whole batch. -/
def ENC (c : Dev nD) : (⟨2, ![65536, 256]⟩ : Shape).Idx → EReal :=
  routed (selOf m c) (m ((c : Thread nD τ).loc main_arg0)) (m ((c : Thread nD τ).loc main_arg3)) (m ((c : Thread nD τ).loc main_arg4)) (m ((c : Thread nD τ).loc main_arg5)) (m ((c : Thread nD τ).loc main_arg6))

/-- The mean: its left 128 columns. -/
def MU (c : Dev nD) : S65536x128.Idx → EReal := cols 0 (by decide) (ENC m c)
/-- The log-variance: its right 128 columns. -/
def LV (c : Dev nD) : S65536x128.Idx → EReal := cols 128 (by decide) (ENC m c)

/-- The reconstruction: the decoder of the mean, the log-variance and the noise. -/
def RECON (c : Dev nD) : S65536x784.Idx → EReal :=
  recon (selOf m c) (MU m c) (LV m c) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The buffers at the first launch's entry -/

/-- The host reshape writes the column only: every other buffer holds the launch memory. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact StableHlo.devRef_ne_of_ne hb))).trans rfl

/-- The column of expert numbers: the routing vector reshaped. -/
theorem W1_col (c : Dev nD) :
    (W1 m ρ c (Proc.devRef .tc main_v0) : S65536x1.Idx → Elt Ideal .i32)
      = shapeCast S65536x1 (m ((c : Thread nD τ).loc main_arg1)) shapeCasts_S65536_S65536x1 := by
  show StableHlo.after hostOps0 (W0 m ρ c) (Proc.devRef .tc main_v0) = _
  after_results
  rfl

/-- Row r of the column is the routing vector's entry r. -/
theorem W1_col_apply (c : Dev nD) (r : Fin 65536) :
    (W1 m ρ c (Proc.devRef .tc main_v0) : S65536x1.Idx → Elt Ideal .i32) (ix2 r (0 : Fin 1)) = selOf m c r := by
  rw [W1_col]
  exact shapeCast_a_a1_apply _ _ r 0

/-! ## The first launch -/

theorem t_lt0 (t : Fin cfg0.N) : t.val < 64 := lt_of_lt_of_eq t.isLt N_0

/-- What point t of the first launch writes back to the mean array is block t of `MU`. -/
theorem flushed_mu (c : Dev nD) (t : Fin cfg0.N) :
    (dat0 (V1 m ρ) c).flushed 6 t = ((cfg0.win 6).blk t).view.read (Elt Ideal) (MU m c) := by
  show (cfg0.win 6).cut (grid0.coords t) ((dat0 (V1 m ρ) c).after 6 t) = _
  rw [after0_6, enc_mu_block]
  have ht := t_lt0 t
  funext y
  obtain ⟨p, q, rfl⟩ : ∃ (p : Fin 1024) (q : Fin 128), y = ix2 p q := ⟨y 0, y 1, eq_ix2 y⟩
  have hemb : ((cfg0.win 6).blk t).view.emb (ix2 p q) = ix2 (⟨t.val * 1024 + p.val, by omega⟩ : Fin 65536) q := by
    funext a
    apply Fin.ext
    obtain ⟨e0, e1⟩ := idx0_6 t
    match a with
    | ⟨0, _⟩ => show win0_6.index t (0 : Fin 2) * 1024 + 1 * p.val = t.val * 1024 + p.val; rw [e0]; omega
    | ⟨1, _⟩ => show win0_6.index t (1 : Fin 2) * 128 + 1 * q.val = q.val; rw [e1]; omega
  show cols 0 _ (routed _ (iblk0 (V1 m ρ) c 0 t) (iblk0 (V1 m ρ) c 2 t) (iblk0 (V1 m ρ) c 3 t) (iblk0 (V1 m ρ) c 4 t)
      (iblk0 (V1 m ρ) c 5 t)) (ix2 p q) = MU m c (((cfg0.win 6).blk t).view.emb (ix2 p q))
  rw [hemb, blk0_w2, blk0_w3, blk0_w4, blk0_w5]
  show routed _ _ (W1 m ρ c (Proc.devRef .tc main_arg3)) (W1 m ρ c (Proc.devRef .tc main_arg4))
      (W1 m ρ c (Proc.devRef .tc main_arg5)) (W1 m ρ c (Proc.devRef .tc main_arg6)) (ix2 p _) = ENC m c (ix2 _ _)
  rw [W1_of_ne m ρ c main_arg3 (by decide), W1_of_ne m ρ c main_arg4 (by decide), W1_of_ne m ρ c main_arg5 (by decide),
    W1_of_ne m ρ c main_arg6 (by decide)]
  refine routed_row (selOf m c) _ _ _ _ _ _ _ p ⟨t.val * 1024 + p.val, by omega⟩ _ ?_ (fun j => ?_)
  · rw [blk0_r1 (V1 m ρ) c t p 0 ⟨t.val * 1024 + p.val, by omega⟩ rfl]
    exact W1_col_apply m ρ c _
  · rw [blk0_r0 (V1 m ρ) c t p j ⟨t.val * 1024 + p.val, by omega⟩ rfl]
    exact congrFun (W1_of_ne m ρ c main_arg0 (by decide)) _

/-- The same for the log-variance array and `LV`. -/
theorem flushed_lv (c : Dev nD) (t : Fin cfg0.N) :
    (dat0 (V1 m ρ) c).flushed 7 t = ((cfg0.win 7).blk t).view.read (Elt Ideal) (LV m c) := by
  show (cfg0.win 7).cut (grid0.coords t) ((dat0 (V1 m ρ) c).after 7 t) = _
  rw [after0_7, enc_lv_block]
  have ht := t_lt0 t
  funext y
  obtain ⟨p, q, rfl⟩ : ∃ (p : Fin 1024) (q : Fin 128), y = ix2 p q := ⟨y 0, y 1, eq_ix2 y⟩
  have hemb : ((cfg0.win 7).blk t).view.emb (ix2 p q) = ix2 (⟨t.val * 1024 + p.val, by omega⟩ : Fin 65536) q := by
    funext a
    apply Fin.ext
    obtain ⟨e0, e1⟩ := idx0_7 t
    match a with
    | ⟨0, _⟩ => show win0_7.index t (0 : Fin 2) * 1024 + 1 * p.val = t.val * 1024 + p.val; rw [e0]; omega
    | ⟨1, _⟩ => show win0_7.index t (1 : Fin 2) * 128 + 1 * q.val = q.val; rw [e1]; omega
  show cols 128 _ (routed _ (iblk0 (V1 m ρ) c 0 t) (iblk0 (V1 m ρ) c 2 t) (iblk0 (V1 m ρ) c 3 t) (iblk0 (V1 m ρ) c 4 t)
      (iblk0 (V1 m ρ) c 5 t)) (ix2 p q) = LV m c (((cfg0.win 7).blk t).view.emb (ix2 p q))
  rw [hemb, blk0_w2, blk0_w3, blk0_w4, blk0_w5]
  show routed _ _ (W1 m ρ c (Proc.devRef .tc main_arg3)) (W1 m ρ c (Proc.devRef .tc main_arg4))
      (W1 m ρ c (Proc.devRef .tc main_arg5)) (W1 m ρ c (Proc.devRef .tc main_arg6)) (ix2 p _) = ENC m c (ix2 _ _)
  rw [W1_of_ne m ρ c main_arg3 (by decide), W1_of_ne m ρ c main_arg4 (by decide), W1_of_ne m ρ c main_arg5 (by decide),
    W1_of_ne m ρ c main_arg6 (by decide)]
  refine routed_row (selOf m c) _ _ _ _ _ _ _ p ⟨t.val * 1024 + p.val, by omega⟩ _ ?_ (fun j => ?_)
  · rw [blk0_r1 (V1 m ρ) c t p 0 ⟨t.val * 1024 + p.val, by omega⟩ rfl]
    exact W1_col_apply m ρ c _
  · rw [blk0_r0 (V1 m ρ) c t p j ⟨t.val * 1024 + p.val, by omega⟩ rfl]
    exact congrFun (W1_of_ne m ρ c main_arg0 (by decide)) _

/-- An index of a 65536 × 128 array is in point t's block of the mean window iff its row is in the block's 1024 rows. -/
theorem mem_blk_mu (t : Fin cfg0.N) (i : S65536x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v1_0).slice (win0_6.rect t)).set ↔ _
  rw [View.set_slice_whole, Rect.mem_set_unit]
  exact Iff.rfl

theorem mem_blk_lv (t : Fin cfg0.N) (i : S65536x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v1_1).slice (win0_7.rect t)).set ↔ _
  rw [View.set_slice_whole, Rect.mem_set_unit]
  exact Iff.rfl

/-- The 64 blocks of 1024 rows cover the mean array: row r is in block r / 1024. -/
theorem cover_mu (i : S65536x128.Idx) : ∃ t : Fin cfg0.N, (cfg0.win 6).flush t = true ∧ i ∈ ((cfg0.win 6).blk t).view.set := by
  have hi0 : (i 0).val < 65536 := (i 0).isLt
  have hi1 : (i 1).val < 128 := (i 1).isLt
  have hN : (i 0).val / 1024 < cfg0.N := by rw [show cfg0.N = 64 from N_0]; omega
  obtain ⟨e0, e1⟩ := idx0_6 ⟨(i 0).val / 1024, hN⟩
  have e0' : win0_6.index ⟨(i 0).val / 1024, hN⟩ (0 : Fin 2) = (i 0).val / 1024 := e0
  refine ⟨⟨(i 0).val / 1024, hN⟩, flush0_6 _, ?_⟩
  rw [mem_blk_mu]
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; rw [e0']; omega
  | ⟨1, _⟩ => show win0_6.index ⟨(i 0).val / 1024, hN⟩ (1 : Fin 2) * 128 ≤ (i 1).val ∧ (i 1).val < win0_6.index ⟨(i 0).val / 1024, hN⟩ (1 : Fin 2) * 128 + 128; rw [e1]; omega

theorem cover_lv (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : (i 0).val / 1024 < cfg0.N := by rw [show cfg0.N = 64 from N_0]; omega
  obtain ⟨e0, e1⟩ := idx0_7 ⟨(i 0).val / 1024, hN⟩
  have e0' : win0_7.index ⟨(i 0).val / 1024, hN⟩ (0 : Fin 2) = (i 0).val / 1024 := e0
  refine ⟨⟨(i 0).val / 1024, hN⟩, flush0_7 _, ?_⟩
  rw [mem_blk_lv]
  intro a
  match a with
  | ⟨0, _⟩ => show win0_7.index ⟨(i 0).val / 1024, hN⟩ (0 : Fin 2) * 1024 ≤ (i 0).val ∧ (i 0).val < win0_7.index ⟨(i 0).val / 1024, hN⟩ (0 : Fin 2) * 1024 + 1024; rw [e0']; omega
  | ⟨1, _⟩ => show win0_7.index ⟨(i 0).val / 1024, hN⟩ (1 : Fin 2) * 128 ≤ (i 1).val ∧ (i 1).val < win0_7.index ⟨(i 0).val / 1024, hN⟩ (1 : Fin 2) * 128 + 128; rw [e1]; omega

/-- After the first launch the mean array holds `MU` and the log-variance array `LV`. -/
theorem final_mu (c : Dev nD) : (dat0 (V1 m ρ) c).arrAt 6 cfg0.N = MU m c :=
  (dat0 (V1 m ρ) c).arrAt_eq_of_cover 6 (MU m c) (fun t _ => flushed_mu m ρ c t) cover_mu

theorem final_lv (c : Dev nD) : (dat0 (V1 m ρ) c).arrAt 7 cfg0.N = LV m c :=
  (dat0 (V1 m ρ) c).arrAt_eq_of_cover 7 (LV m c) (fun t _ => flushed_lv m ρ c t) cover_lv

/-! ## The buffers at the second launch's entry -/

theorem W2_mu (c : Dev nD) : W2 m ρ c (Proc.devRef .tc main_v1_0) = MU m c := (W2_arr m ρ c 6).trans (final_mu m ρ c)
theorem W2_lv (c : Dev nD) : W2 m ρ c (Proc.devRef .tc main_v1_1) = LV m c := (W2_arr m ρ c 7).trans (final_lv m ρ c)

/-- A buffer the first launch has no window on is as the host reshape left it. -/
theorem W2_rest (c : Dev nD) (b : Ref sig .tc) (hb : ∀ w, Pipeline.arrRef spec0 w ≠ b) (hb' : b ≠ main_v0) :
    W2 m ρ c (Proc.devRef .tc b) = m ((c : Thread nD τ).loc b) :=
  (W2_of_ne m ρ c b hb).trans (W1_of_ne m ρ c b hb')

/-- The column of expert numbers is an input of the first launch: it leaves it as it found it. -/
theorem W2_col (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

/-! ## The second launch -/

theorem t_lt1 (t : Fin cfg1.N) : t.val < 64 := lt_of_lt_of_eq t.isLt N_1

/-- What point t of the second launch writes back is block t of `RECON`. -/
theorem flushed_recon (c : Dev nD) (t : Fin cfg1.N) :
    (dat1 (V2 m ρ) c).flushed 10 t = ((cfg1.win 10).blk t).view.read (Elt Ideal) (RECON m c) := by
  show (cfg1.win 10).cut (grid1.coords t) ((dat1 (V2 m ρ) c).after 10 t) = _
  rw [after1_10, dec_block]
  have ht := t_lt1 t
  funext y
  obtain ⟨p, q, rfl⟩ : ∃ (p : Fin 1024) (q : Fin 784), y = ix2 p q := ⟨y 0, y 1, eq_ix2 y⟩
  have hemb : ((cfg1.win 10).blk t).view.emb (ix2 p q) = ix2 (⟨t.val * 1024 + p.val, by omega⟩ : Fin 65536) q := by
    funext a
    apply Fin.ext
    obtain ⟨e0, e1⟩ := idx1_10 t
    match a with
    | ⟨0, _⟩ => show win1_10.index t (0 : Fin 2) * 1024 + 1 * p.val = t.val * 1024 + p.val; rw [e0]; omega
    | ⟨1, _⟩ => show win1_10.index t (1 : Fin 2) * 784 + 1 * q.val = q.val; rw [e1]; omega
  show recon _ (iblk1 (V2 m ρ) c 0 t) (iblk1 (V2 m ρ) c 1 t) (iblk1 (V2 m ρ) c 2 t) (iblk1 (V2 m ρ) c 4 t) (iblk1 (V2 m ρ) c 5 t)
      (iblk1 (V2 m ρ) c 6 t) (iblk1 (V2 m ρ) c 7 t) (iblk1 (V2 m ρ) c 8 t) (iblk1 (V2 m ρ) c 9 t) (ix2 p q)
    = RECON m c (((cfg1.win 10).blk t).view.emb (ix2 p q))
  rw [hemb, blk1_w4, blk1_w5, blk1_w6, blk1_w7, blk1_w8, blk1_w9]
  show recon _ _ _ _ (W2 m ρ c (Proc.devRef .tc main_arg7)) (W2 m ρ c (Proc.devRef .tc main_arg8))
      (W2 m ρ c (Proc.devRef .tc main_arg9)) (W2 m ρ c (Proc.devRef .tc main_arg10)) (W2 m ρ c (Proc.devRef .tc main_arg11))
      (W2 m ρ c (Proc.devRef .tc main_arg12)) (ix2 p _) = RECON m c (ix2 _ _)
  rw [W2_rest m ρ c main_arg7 (by decide) (by decide), W2_rest m ρ c main_arg8 (by decide) (by decide),
    W2_rest m ρ c main_arg9 (by decide) (by decide), W2_rest m ρ c main_arg10 (by decide) (by decide),
    W2_rest m ρ c main_arg11 (by decide) (by decide), W2_rest m ρ c main_arg12 (by decide) (by decide)]
  refine recon_row (selOf m c) (MU m c) (LV m c) _ _ _ _ _ _ _ _ _ _ _ p ⟨t.val * 1024 + p.val, by omega⟩ _ ?_
    (fun j => ?_) (fun j => ?_) (fun j => ?_)
  · rw [blk1_r3 (V2 m ρ) c t p 0 ⟨t.val * 1024 + p.val, by omega⟩ rfl]
    show W2 m ρ c (Proc.devRef .tc main_v0) _ = _
    rw [W2_col]
    exact W1_col_apply m ρ c _
  · rw [blk1_r0 (V2 m ρ) c t p j ⟨t.val * 1024 + p.val, by omega⟩ rfl]
    exact congrFun (W2_mu m ρ c) _
  · rw [blk1_r1 (V2 m ρ) c t p j ⟨t.val * 1024 + p.val, by omega⟩ rfl]
    exact congrFun (W2_lv m ρ c) _
  · rw [blk1_r2 (V2 m ρ) c t p j ⟨t.val * 1024 + p.val, by omega⟩ rfl]
    exact congrFun (W2_rest m ρ c main_arg2 (by decide) (by decide)) _

theorem mem_blk_recon (t : Fin cfg1.N) (i : S65536x784.Idx) :
    i ∈ ((cfg1.win 10).blk t).view.set ↔ ∀ a : Fin 2, win1_10.index t a * S1024x784.size a ≤ (i a).val ∧ (i a).val < win1_10.index t a * S1024x784.size a + S1024x784.size a := by
  show i ∈ ((View.whole main_v2).slice (win1_10.rect t)).set ↔ _
  rw [View.set_slice_whole, Rect.mem_set_unit]
  exact Iff.rfl

theorem cover_recon (i : S65536x784.Idx) : ∃ t : Fin cfg1.N, (cfg1.win 10).flush t = true ∧ i ∈ ((cfg1.win 10).blk t).view.set := by
  have hi0 : (i 0).val < 65536 := (i 0).isLt
  have hi1 : (i 1).val < 784 := (i 1).isLt
  have hN : (i 0).val / 1024 < cfg1.N := by rw [show cfg1.N = 64 from N_1]; omega
  obtain ⟨e0, e1⟩ := idx1_10 ⟨(i 0).val / 1024, hN⟩
  have e0' : win1_10.index ⟨(i 0).val / 1024, hN⟩ (0 : Fin 2) = (i 0).val / 1024 := e0
  refine ⟨⟨(i 0).val / 1024, hN⟩, flush1_10 _, ?_⟩
  rw [mem_blk_recon]
  intro a
  match a with
  | ⟨0, _⟩ => show win1_10.index ⟨(i 0).val / 1024, hN⟩ (0 : Fin 2) * 1024 ≤ (i 0).val ∧ (i 0).val < win1_10.index ⟨(i 0).val / 1024, hN⟩ (0 : Fin 2) * 1024 + 1024; rw [e0']; omega
  | ⟨1, _⟩ => show win1_10.index ⟨(i 0).val / 1024, hN⟩ (1 : Fin 2) * 784 ≤ (i 1).val ∧ (i 1).val < win1_10.index ⟨(i 0).val / 1024, hN⟩ (1 : Fin 2) * 784 + 784; rw [e1]; omega

theorem final_recon (c : Dev nD) : (dat1 (V2 m ρ) c).arrAt 10 cfg1.N = RECON m c :=
  (dat1 (V2 m ρ) c).arrAt_eq_of_cover 10 (RECON m c) (fun t _ => flushed_recon m ρ c t) cover_recon

/-! ## The last boundary's contents of the three result buffers -/

theorem W3_recon (c : Dev nD) : W3 m ρ c (Proc.devRef .tc main_v2) = RECON m c := (W3_arr m ρ c 10).trans (final_recon m ρ c)

/-- The mean and the log-variance are inputs of the second launch: it leaves them as it found them. -/
theorem W3_mu (c : Dev nD) : W3 m ρ c (Proc.devRef .tc main_v1_0) = MU m c :=
  ((W3_arr m ρ c 0).trans (((dat1 (V2 m ρ) c).arrAt_in 0 rfl _).trans (A_eq1 (V2 m ρ) c 0))).trans (W2_mu m ρ c)
theorem W3_lv (c : Dev nD) : W3 m ρ c (Proc.devRef .tc main_v1_1) = LV m c :=
  ((W3_arr m ρ c 1).trans (((dat1 (V2 m ρ) c).arrAt_in 1 rfl _).trans (A_eq1 (V2 m ρ) c 1))).trans (W2_lv m ρ c)

/-- THE RUN, READ: every weakly fair execution terminates, nothing faulting, with the mean, the log-variance and the
    reconstruction arrays at their functions of the arguments, and the arguments as launched. -/
theorem run_values : θ_run defs (onTc (τ := τ) (main (F := Ideal))) ⟨m, fun _ => 0, ρ⟩ (fun r => ∀ c : Dev nD,
      r.2.mem ((c.tc : Thread nD τ).loc main_v1_0) = MU m c
      ∧ r.2.mem ((c.tc : Thread nD τ).loc main_v1_1) = LV m c
      ∧ r.2.mem ((c.tc : Thread nD τ).loc main_v2) = RECON m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W3_mu m ρ c), (h c).2.1.trans (W3_lv m ρ c),
    (h c).2.2.1.trans (W3_recon m ρ c), (h c).2.2.2⟩) (run_named m ρ)

end Cert.KernelIdeal.Named

end
-- ==== Proof.RefRun.lean ====
/-
  The reference program's run, read in two pieces.

  The reference is a straight line of 302 host operations. Its first 137 compute the routed encoder of the whole batch —
  five host steps into a 65536 × 256 accumulator; the other 165 take the accumulator's two halves as the mean and the
  log-variance and compute the decoder from them: the sample, one dense layer, five more host steps, the logistic function
  written out as 1 / (1 + exp(−x)), the clamp. The buffer contents after a line of operations are a fold of the
  operations' results; the fold over the whole line is the fold over the second piece from the contents the first piece
  leaves, so the encoder's accumulator enters the second piece as ONE array, however many operations read it.
-/
import proofs.«133417_j71502615544597_1_alg».proof.Proof.RefOps
import proofs.«133417_j71502615544597_1_alg».proof.Proof.VaeForms
import proofs.«133417_j71502615544597_1_alg».proof.Proof.LibColumnSlices

set_option maxRecDepth 16384

noncomputable section

namespace Cert.ReferenceIdeal.HandRun

open Cert.ReferenceIdeal Cert.ReferenceIdeal.Gen Cert.ReferenceIdeal.Ops
open Idealize.ShloMosaic Idealize.ShloMosaic.TcCoe Idealize.ShloMosaic.ValueIdx Idealize.SL.Sem Idealize.ShloMosaic.StableHlo
open Cert.Mlp Cert.Stack Cert.Route Cert.Vae Cert.Columns

/-- The contents after two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Spell a piece out as one literal list of operations. -/
macro "spell_enc" : tactic => `(tactic| simp only [opsEnc, opsP0, opsP1, opsP2a, List.cons_append, List.nil_append])
macro "spell_dec" : tactic => `(tactic| simp only [opsDec, opsP2b, opsP3, opsP4, List.cons_append, List.nil_append])

/-! ## The argument arrays and the encoder's accumulator, read out of a valuation -/

abbrev a0 (V : Valuation τ sig (Elt Ideal)) : FVec Ideal S65536x784 .f32 := V (Proc.devRef .tc main_arg0)
abbrev a1 (V : Valuation τ sig (Elt Ideal)) : IVec S65536 32 := V (Proc.devRef .tc main_arg1)
abbrev a2 (V : Valuation τ sig (Elt Ideal)) : FVec Ideal S65536x128 .f32 := V (Proc.devRef .tc main_arg2)
abbrev a3 (V : Valuation τ sig (Elt Ideal)) : FVec Ideal S5x784x400 .f32 := V (Proc.devRef .tc main_arg3)
abbrev a4 (V : Valuation τ sig (Elt Ideal)) : FVec Ideal S5x400 .f32 := V (Proc.devRef .tc main_arg4)
abbrev a5 (V : Valuation τ sig (Elt Ideal)) : FVec Ideal S5x400x256 .f32 := V (Proc.devRef .tc main_arg5)
abbrev a6 (V : Valuation τ sig (Elt Ideal)) : FVec Ideal S5x256 .f32 := V (Proc.devRef .tc main_arg6)
abbrev a7 (V : Valuation τ sig (Elt Ideal)) : FVec Ideal S128x128 .f32 := V (Proc.devRef .tc main_arg7)
abbrev a8 (V : Valuation τ sig (Elt Ideal)) : FVec Ideal S128 .f32 := V (Proc.devRef .tc main_arg8)
abbrev a9 (V : Valuation τ sig (Elt Ideal)) : FVec Ideal S5x128x400 .f32 := V (Proc.devRef .tc main_arg9)
abbrev a10 (V : Valuation τ sig (Elt Ideal)) : FVec Ideal S5x400 .f32 := V (Proc.devRef .tc main_arg10)
abbrev a11 (V : Valuation τ sig (Elt Ideal)) : FVec Ideal S5x400x784 .f32 := V (Proc.devRef .tc main_arg11)
abbrev a12 (V : Valuation τ sig (Elt Ideal)) : FVec Ideal S5x784 .f32 := V (Proc.devRef .tc main_arg12)
abbrev acc (V : Valuation τ sig (Elt Ideal)) : FVec Ideal S65536x256 .f32 := V (Proc.devRef .tc main_v120)

/-! ## Neither piece writes an argument -/

set_option maxHeartbeats 4000000 in
theorem keep_enc (V : Valuation τ sig (Elt Ideal)) :
    after (opsEnc : List (HloOp τ sig (Elt Ideal))) V (Proc.devRef .tc main_arg0) = V (Proc.devRef .tc main_arg0)
      ∧ after (opsEnc : List (HloOp τ sig (Elt Ideal))) V (Proc.devRef .tc main_arg1) = V (Proc.devRef .tc main_arg1)
      ∧ after (opsEnc : List (HloOp τ sig (Elt Ideal))) V (Proc.devRef .tc main_arg2) = V (Proc.devRef .tc main_arg2)
      ∧ after (opsEnc : List (HloOp τ sig (Elt Ideal))) V (Proc.devRef .tc main_arg3) = V (Proc.devRef .tc main_arg3)
      ∧ after (opsEnc : List (HloOp τ sig (Elt Ideal))) V (Proc.devRef .tc main_arg4) = V (Proc.devRef .tc main_arg4)
      ∧ after (opsEnc : List (HloOp τ sig (Elt Ideal))) V (Proc.devRef .tc main_arg5) = V (Proc.devRef .tc main_arg5)
      ∧ after (opsEnc : List (HloOp τ sig (Elt Ideal))) V (Proc.devRef .tc main_arg6) = V (Proc.devRef .tc main_arg6)
      ∧ after (opsEnc : List (HloOp τ sig (Elt Ideal))) V (Proc.devRef .tc main_arg7) = V (Proc.devRef .tc main_arg7)
      ∧ after (opsEnc : List (HloOp τ sig (Elt Ideal))) V (Proc.devRef .tc main_arg8) = V (Proc.devRef .tc main_arg8)
      ∧ after (opsEnc : List (HloOp τ sig (Elt Ideal))) V (Proc.devRef .tc main_arg9) = V (Proc.devRef .tc main_arg9)
      ∧ after (opsEnc : List (HloOp τ sig (Elt Ideal))) V (Proc.devRef .tc main_arg10) = V (Proc.devRef .tc main_arg10)
      ∧ after (opsEnc : List (HloOp τ sig (Elt Ideal))) V (Proc.devRef .tc main_arg11) = V (Proc.devRef .tc main_arg11)
      ∧ after (opsEnc : List (HloOp τ sig (Elt Ideal))) V (Proc.devRef .tc main_arg12) = V (Proc.devRef .tc main_arg12) :=
  ⟨by spell_enc; after_results_simp, by spell_enc; after_results_simp, by spell_enc; after_results_simp, by spell_enc; after_results_simp, by spell_enc; after_results_simp, by spell_enc; after_results_simp, by spell_enc; after_results_simp, by spell_enc; after_results_simp, by spell_enc; after_results_simp, by spell_enc; after_results_simp, by spell_enc; after_results_simp, by spell_enc; after_results_simp, by spell_enc; after_results_simp⟩

set_option maxHeartbeats 4000000 in
theorem keep_dec (V : Valuation τ sig (Elt Ideal)) :
    after (opsDec : List (HloOp τ sig (Elt Ideal))) V (Proc.devRef .tc main_arg0) = V (Proc.devRef .tc main_arg0)
      ∧ after (opsDec : List (HloOp τ sig (Elt Ideal))) V (Proc.devRef .tc main_arg1) = V (Proc.devRef .tc main_arg1)
      ∧ after (opsDec : List (HloOp τ sig (Elt Ideal))) V (Proc.devRef .tc main_arg2) = V (Proc.devRef .tc main_arg2)
      ∧ after (opsDec : List (HloOp τ sig (Elt Ideal))) V (Proc.devRef .tc main_arg3) = V (Proc.devRef .tc main_arg3)
      ∧ after (opsDec : List (HloOp τ sig (Elt Ideal))) V (Proc.devRef .tc main_arg4) = V (Proc.devRef .tc main_arg4)
      ∧ after (opsDec : List (HloOp τ sig (Elt Ideal))) V (Proc.devRef .tc main_arg5) = V (Proc.devRef .tc main_arg5)
      ∧ after (opsDec : List (HloOp τ sig (Elt Ideal))) V (Proc.devRef .tc main_arg6) = V (Proc.devRef .tc main_arg6)
      ∧ after (opsDec : List (HloOp τ sig (Elt Ideal))) V (Proc.devRef .tc main_arg7) = V (Proc.devRef .tc main_arg7)
      ∧ after (opsDec : List (HloOp τ sig (Elt Ideal))) V (Proc.devRef .tc main_arg8) = V (Proc.devRef .tc main_arg8)
      ∧ after (opsDec : List (HloOp τ sig (Elt Ideal))) V (Proc.devRef .tc main_arg9) = V (Proc.devRef .tc main_arg9)
      ∧ after (opsDec : List (HloOp τ sig (Elt Ideal))) V (Proc.devRef .tc main_arg10) = V (Proc.devRef .tc main_arg10)
      ∧ after (opsDec : List (HloOp τ sig (Elt Ideal))) V (Proc.devRef .tc main_arg11) = V (Proc.devRef .tc main_arg11)
      ∧ after (opsDec : List (HloOp τ sig (Elt Ideal))) V (Proc.devRef .tc main_arg12) = V (Proc.devRef .tc main_arg12) :=
  ⟨by spell_dec; after_results_simp, by spell_dec; after_results_simp, by spell_dec; after_results_simp, by spell_dec; after_results_simp, by spell_dec; after_results_simp, by spell_dec; after_results_simp, by spell_dec; after_results_simp, by spell_dec; after_results_simp, by spell_dec; after_results_simp, by spell_dec; after_results_simp, by spell_dec; after_results_simp, by spell_dec; after_results_simp, by spell_dec; after_results_simp⟩

/-! ## The first piece: the routed encoder -/

set_option maxHeartbeats 4000000 in
/-- After the first 137 operations the accumulator holds the routed network of the whole batch. -/
theorem enc_value (V : Valuation τ sig (Elt Ideal)) :
    (after (opsEnc : List (HloOp τ sig (Elt Ideal))) V (Proc.devRef .tc main_v120) : FVec Ideal S65536x256 .f32)
      = routed (fun r => a1 V (ix1 r)) (a0 V) (a3 V) (a4 V) (a5 V) (a6 V) := by
  spell_enc
  after_results_simp
  change (hostStep 4 (hZ := bcast_S_S65536x400) (hostStep 3 (hZ := bcast_S_S65536x400) (hostStep 2 (hZ := bcast_S_S65536x400) (hostStep 1 (hZ := bcast_S_S65536x400) (hostStep 0 (hZ := bcast_S_S65536x400) (broadcastInDim S65536x256 (![] : Fin 0 → Fin 2) bcast_S_S65536x256 (constant (F := Ideal) S_ .f32 0x00000000#32))
      (a0 V) (a1 V) 0#32 (a3 V) (a4 V) (a5 V) (a6 V))
      (a0 V) (a1 V) 1#32 (a3 V) (a4 V) (a5 V) (a6 V))
      (a0 V) (a1 V) 2#32 (a3 V) (a4 V) (a5 V) (a6 V))
      (a0 V) (a1 V) 3#32 (a3 V) (a4 V) (a5 V) (a6 V))
      (a0 V) (a1 V) 4#32 (a3 V) (a4 V) (a5 V) (a6 V)) = _
  simp only [hostStep_eq (g := 0) (n := 5) (by decide), hostStep_eq (g := 1) (n := 5) (by decide), hostStep_eq (g := 2) (n := 5) (by decide), hostStep_eq (g := 3) (n := 5) (by decide), hostStep_eq (g := 4) (n := 5) (by decide)]
  funext j
  rfl

/-! ## The second piece: the halves and the decoder -/

set_option maxHeartbeats 4000000 in
theorem mean_value (V : Valuation τ sig (Elt Ideal)) :
    (after (opsDec : List (HloOp τ sig (Elt Ideal))) V (Proc.devRef .tc main_v121) : FVec Ideal S65536x128 .f32)
      = cols 0 (by decide) (acc V) := by
  spell_dec
  after_results_simp
  exact slice_cols 0 _ _ _

set_option maxHeartbeats 4000000 in
theorem logvar_value (V : Valuation τ sig (Elt Ideal)) :
    (after (opsDec : List (HloOp τ sig (Elt Ideal))) V (Proc.devRef .tc main_v122) : FVec Ideal S65536x128 .f32)
      = cols 128 (by decide) (acc V) := by
  spell_dec
  after_results_simp
  exact slice_cols 128 _ _ _

set_option maxHeartbeats 4000000 in
/-- After the last 165 operations the reconstruction buffer holds the decoder of the accumulator's two halves. -/
theorem recon_value (V : Valuation τ sig (Elt Ideal)) :
    (after (opsDec : List (HloOp τ sig (Elt Ideal))) V (Proc.devRef .tc main_v259) : FVec Ideal S65536x784 .f32)
      = recon (fun r => a1 V (ix1 r)) (cols 0 (by decide) (acc V)) (cols 128 (by decide) (acc V)) (a2 V) (a7 V) (a8 V)
          (a9 V) (a10 V) (a11 V) (a12 V) := by
  spell_dec
  after_results_simp
  rw [← slice_cols 0 (by decide) (acc V) slices_S65536x256_S65536x128_0_0, ← slice_cols 128 (by decide) (acc V) slices_S65536x256_S65536x128_0_128]
  change minimumf (broadcastInDim S65536x784 (![] : Fin 0 → Fin 2) bcast_S_S65536x784 (id (constant (F := Ideal) S_ .f32 0x3F800000#32)))
    (maximumf (broadcastInDim S65536x784 (![] : Fin 0 → Fin 2) bcast_S_S65536x784 (id (constant (F := Ideal) S_ .f32 0x00000000#32)))
      (Host.divf (broadcastInDim S65536x784 (![] : Fin 0 → Fin 2) bcast_S_S65536x784 (constant (F := Ideal) S_ .f32 0x3F800000#32))
        (addf (broadcastInDim S65536x784 (![] : Fin 0 → Fin 2) bcast_S_S65536x784 (constant (F := Ideal) S_ .f32 0x3F800000#32))
          (Host.exp (Host.negf
            (hostStep 4 (hZ := bcast_S_S65536x400) (hostStep 3 (hZ := bcast_S_S65536x400) (hostStep 2 (hZ := bcast_S_S65536x400) (hostStep 1 (hZ := bcast_S_S65536x400) (hostStep 0 (hZ := bcast_S_S65536x400) (broadcastInDim S65536x784 (![] : Fin 0 → Fin 2) bcast_S_S65536x784 (constant (F := Ideal) S_ .f32 0x00000000#32))
      (hostAligned (extractStridedSlice S65536x128 ![0, 0] (acc V) slices_S65536x256_S65536x128_0_0) (extractStridedSlice S65536x128 ![0, 128] (acc V) slices_S65536x256_S65536x128_0_128) (a2 V) (a7 V) (a8 V)) (a1 V) 0#32 (a9 V) (a10 V) (a11 V) (a12 V))
      (hostAligned (extractStridedSlice S65536x128 ![0, 0] (acc V) slices_S65536x256_S65536x128_0_0) (extractStridedSlice S65536x128 ![0, 128] (acc V) slices_S65536x256_S65536x128_0_128) (a2 V) (a7 V) (a8 V)) (a1 V) 1#32 (a9 V) (a10 V) (a11 V) (a12 V))
      (hostAligned (extractStridedSlice S65536x128 ![0, 0] (acc V) slices_S65536x256_S65536x128_0_0) (extractStridedSlice S65536x128 ![0, 128] (acc V) slices_S65536x256_S65536x128_0_128) (a2 V) (a7 V) (a8 V)) (a1 V) 2#32 (a9 V) (a10 V) (a11 V) (a12 V))
      (hostAligned (extractStridedSlice S65536x128 ![0, 0] (acc V) slices_S65536x256_S65536x128_0_0) (extractStridedSlice S65536x128 ![0, 128] (acc V) slices_S65536x256_S65536x128_0_128) (a2 V) (a7 V) (a8 V)) (a1 V) 3#32 (a9 V) (a10 V) (a11 V) (a12 V))
      (hostAligned (extractStridedSlice S65536x128 ![0, 0] (acc V) slices_S65536x256_S65536x128_0_0) (extractStridedSlice S65536x128 ![0, 128] (acc V) slices_S65536x256_S65536x128_0_128) (a2 V) (a7 V) (a8 V)) (a1 V) 4#32 (a9 V) (a10 V) (a11 V) (a12 V))))))) = _
  rw [hostClamped]
  simp only [hostStep_eq (g := 0) (n := 5) (by decide), hostStep_eq (g := 1) (n := 5) (by decide), hostStep_eq (g := 2) (n := 5) (by decide), hostStep_eq (g := 3) (n := 5) (by decide), hostStep_eq (g := 4) (n := 5) (by decide), hostAligned_eq]
  funext j
  rfl

/-! ## The whole line -/

/-- The three whole-batch functions of the arguments. -/
def ENC (m : (ℓ : Loc nD τ sig) → Buf (Elt Ideal) ℓ) (c : Dev nD) : S65536x256.Idx → EReal :=
  routed (fun r => (m ((c.tc : Thread nD τ).loc main_arg1)) (ix1 r)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
def MU (m : (ℓ : Loc nD τ sig) → Buf (Elt Ideal) ℓ) (c : Dev nD) : S65536x128.Idx → EReal := cols 0 (by decide) (ENC m c)
def LV (m : (ℓ : Loc nD τ sig) → Buf (Elt Ideal) ℓ) (c : Dev nD) : S65536x128.Idx → EReal := cols 128 (by decide) (ENC m c)
def RECON (m : (ℓ : Loc nD τ sig) → Buf (Elt Ideal) ℓ) (c : Dev nD) : S65536x784.Idx → EReal :=
  recon (fun r => (m ((c.tc : Thread nD τ).loc main_arg1)) (ix1 r)) (MU m c) (LV m c) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem whole_acc (m : (ℓ : Loc nD τ sig) → Buf (Elt Ideal) ℓ) (c : Dev nD) :
    acc (after (opsEnc : List (HloOp τ sig (Elt Ideal))) (launchContents m c)) = ENC m c := by
  show (after (opsEnc : List (HloOp τ sig (Elt Ideal))) (launchContents m c) (Proc.devRef .tc main_v120) : FVec Ideal S65536x256 .f32) = _
  rw [enc_value]
  rfl

theorem whole_mean (m : (ℓ : Loc nD τ sig) → Buf (Elt Ideal) ℓ) (c : Dev nD) :
    after (ops : List (HloOp τ sig (Elt Ideal))) (launchContents m c) (Proc.devRef .tc main_v121) = MU m c := by
  rw [ops_split, after_append]
  exact (mean_value _).trans (by rw [whole_acc]; rfl)

theorem whole_logvar (m : (ℓ : Loc nD τ sig) → Buf (Elt Ideal) ℓ) (c : Dev nD) :
    after (ops : List (HloOp τ sig (Elt Ideal))) (launchContents m c) (Proc.devRef .tc main_v122) = LV m c := by
  rw [ops_split, after_append]
  exact (logvar_value _).trans (by rw [whole_acc]; rfl)

theorem whole_recon (m : (ℓ : Loc nD τ sig) → Buf (Elt Ideal) ℓ) (c : Dev nD) :
    after (ops : List (HloOp τ sig (Elt Ideal))) (launchContents m c) (Proc.devRef .tc main_v259) = RECON m c := by
  rw [ops_split, after_append]
  refine (recon_value _).trans ?_
  obtain ⟨k0, k1, k2, k3, k4, k5, k6, k7, k8, k9, k10, k11, k12⟩ := keep_enc (launchContents m c)
  rw [whole_acc]
  unfold a1 a2 a7 a8 a9 a10 a11 a12
  rw [k1, k2, k7, k8, k9, k10, k11, k12]
  rfl

theorem whole_arg (m : (ℓ : Loc nD τ sig) → Buf (Elt Ideal) ℓ) (c : Dev nD) :
    after (ops : List (HloOp τ sig (Elt Ideal))) (launchContents m c) (Proc.devRef .tc main_arg0) = m ((c.tc : Thread nD τ).loc main_arg0)
    ∧ after (ops : List (HloOp τ sig (Elt Ideal))) (launchContents m c) (Proc.devRef .tc main_arg1) = m ((c.tc : Thread nD τ).loc main_arg1)
    ∧ after (ops : List (HloOp τ sig (Elt Ideal))) (launchContents m c) (Proc.devRef .tc main_arg2) = m ((c.tc : Thread nD τ).loc main_arg2)
    ∧ after (ops : List (HloOp τ sig (Elt Ideal))) (launchContents m c) (Proc.devRef .tc main_arg3) = m ((c.tc : Thread nD τ).loc main_arg3)
    ∧ after (ops : List (HloOp τ sig (Elt Ideal))) (launchContents m c) (Proc.devRef .tc main_arg4) = m ((c.tc : Thread nD τ).loc main_arg4)
    ∧ after (ops : List (HloOp τ sig (Elt Ideal))) (launchContents m c) (Proc.devRef .tc main_arg5) = m ((c.tc : Thread nD τ).loc main_arg5)
    ∧ after (ops : List (HloOp τ sig (Elt Ideal))) (launchContents m c) (Proc.devRef .tc main_arg6) = m ((c.tc : Thread nD τ).loc main_arg6)
    ∧ after (ops : List (HloOp τ sig (Elt Ideal))) (launchContents m c) (Proc.devRef .tc main_arg7) = m ((c.tc : Thread nD τ).loc main_arg7)
    ∧ after (ops : List (HloOp τ sig (Elt Ideal))) (launchContents m c) (Proc.devRef .tc main_arg8) = m ((c.tc : Thread nD τ).loc main_arg8)
    ∧ after (ops : List (HloOp τ sig (Elt Ideal))) (launchContents m c) (Proc.devRef .tc main_arg9) = m ((c.tc : Thread nD τ).loc main_arg9)
    ∧ after (ops : List (HloOp τ sig (Elt Ideal))) (launchContents m c) (Proc.devRef .tc main_arg10) = m ((c.tc : Thread nD τ).loc main_arg10)
    ∧ after (ops : List (HloOp τ sig (Elt Ideal))) (launchContents m c) (Proc.devRef .tc main_arg11) = m ((c.tc : Thread nD τ).loc main_arg11)
    ∧ after (ops : List (HloOp τ sig (Elt Ideal))) (launchContents m c) (Proc.devRef .tc main_arg12) = m ((c.tc : Thread nD τ).loc main_arg12) := by
  obtain ⟨k0, k1, k2, k3, k4, k5, k6, k7, k8, k9, k10, k11, k12⟩ := keep_enc (launchContents m c)
  obtain ⟨d0, d1, d2, d3, d4, d5, d6, d7, d8, d9, d10, d11, d12⟩ := keep_dec (after (opsEnc : List (HloOp τ sig (Elt Ideal))) (launchContents m c))
  rw [ops_split, after_append]
  exact ⟨(d0.trans k0).trans rfl, (d1.trans k1).trans rfl, (d2.trans k2).trans rfl, (d3.trans k3).trans rfl, (d4.trans k4).trans rfl, (d5.trans k5).trans rfl, (d6.trans k6).trans rfl, (d7.trans k7).trans rfl, (d8.trans k8).trans rfl, (d9.trans k9).trans rfl, (d10.trans k10).trans rfl, (d11.trans k11).trans rfl, (d12.trans k12).trans rfl⟩

/-- THE RUN, READ: every weakly fair execution of the reference terminates, nothing faulting, with its three results at
    the whole-batch functions of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121) = MU m c
      ∧ r.2.mem ((c.tc : Thread nD τ).loc main_v122) = LV m c
      ∧ r.2.mem ((c.tc : Thread nD τ).loc main_v259) = RECON m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨w0, w1, w2, w3, w4, w5, w6, w7, w8, w9, w10, w11, w12⟩ := whole_arg m c
      exact ⟨(h c main_v121).trans (whole_mean m c), (h c main_v122).trans (whole_logvar m c), (h c main_v259).trans (whole_recon m c),
        (h c main_arg0).trans w0, (h c main_arg1).trans w1, (h c main_arg2).trans w2, (h c main_arg3).trans w3, (h c main_arg4).trans w4, (h c main_arg5).trans w5, (h c main_arg6).trans w6, (h c main_arg7).trans w7, (h c main_arg8).trans w8, (h c main_arg9).trans w9, (h c main_arg10).trans w10, (h c main_arg11).trans w11, (h c main_arg12).trans w12⟩)
    (run_seq scopedRefs_eq scopedSems_eq defs main (fun _ => ops) main_eq (fun _ => ops_sub) m ρ (fun _ => ops_fresh))

end Cert.ReferenceIdeal.HandRun

end
-- ==== Proof.lean ====
/-
  A variational autoencoder whose encoder and decoder are each a two-layer network routed over five experts, as two grid
  launches of 64 row blocks against the whole-batch reference, equal over the extended reals.

  Both programs compute, for a batch of 65536 rows x with expert numbers idx,

      enc   = Σ_g [idx = g] · (max(x · W1[g] + b1[g], 0) · W2[g] + b2[g])        (added in order g = 0 … 4 to zero)
      mu, lv = the left and right 128 columns of enc
      z     = mu + eps · exp(½ · lv),   a = z · A + b
      recon = clamp₀¹ (logistic (Σ_g [idx = g] · (max(a · V1[g] + c1[g], 0) · V2[g] + c2[g])))

  operation for operation in the same order: the kernel on blocks of 1024 rows, with its matrix products accumulated from
  zero and its operands narrowed to a shorter float format (the identity on the extended reals), the reference on the
  whole batch. Every entry depends on one row of the batch only, so the row blocks assemble the whole-batch functions; no
  algebraic law of the extended reals beyond that is used, and the finiteness precondition is never opened. The two
  programs differ in spelling only: loads of a stack's g-th matrix against slices and reshapes; a gate converted signed from
  a widened bit against one converted unsigned; the logistic operation against 1 / (1 + exp(−x)) written out.

  The two kernel frames are the generated ones; the reference's is its run, read in two pieces, with the results dropped; the
  idealization rewrote nothing, so `preserves` is trivial.
-/
import proofs.«133417_j71502615544597_1_alg».proof.Defs
import proofs.«133417_j71502615544597_1_alg».proof.Proof.Gen.Kernel
import proofs.«133417_j71502615544597_1_alg».proof.Proof.Gen.Kernel.Skeleton
import proofs.«133417_j71502615544597_1_alg».proof.Proof.Gen.Kernel.Launch
import proofs.«133417_j71502615544597_1_alg».proof.Proof.Gen.Kernel.Points
import proofs.«133417_j71502615544597_1_alg».proof.Proof.Gen.Kernel.Frame
import proofs.«133417_j71502615544597_1_alg».proof.Proof.Gen.KernelIdeal
import proofs.«133417_j71502615544597_1_alg».proof.Proof.Gen.KernelIdeal.Skeleton
import proofs.«133417_j71502615544597_1_alg».proof.Proof.Gen.KernelIdeal.Launch
import proofs.«133417_j71502615544597_1_alg».proof.Proof.Gen.KernelIdeal.Points
import proofs.«133417_j71502615544597_1_alg».proof.Proof.Gen.KernelIdeal.Frame
import proofs.«133417_j71502615544597_1_alg».proof.Proof.Gen.ReferenceIdeal
import proofs.«133417_j71502615544597_1_alg».proof.Proof.Gen.Pre_finite_inputs
import proofs.«133417_j71502615544597_1_alg».proof.Proof.KernelValues
import proofs.«133417_j71502615544597_1_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.HandRun.run m ρ)

/-- Both programs end with the mean, the log-variance and the reconstruction at the same whole-batch functions of
    arguments that agree. -/
theorem algebraic : Cert.algebraic_KernelIdeal_ReferenceIdeal := by
  intro m ρ m' ρ' _ hagree
  refine ⟨fun c => Cert.KernelIdeal.Named.MU m c, fun c => Cert.KernelIdeal.Named.LV m c,
    fun c => Cert.KernelIdeal.Named.RECON m c, Cert.KernelIdeal.Named.run_values m ρ, ?_⟩
  refine (θ_run Cert.ReferenceIdeal.defs _ _).mono (fun r h c => ?_) (Cert.ReferenceIdeal.HandRun.run m' ρ')
  obtain ⟨a0, a1, a2, a3, a4, a5, a6, a7, a8, a9, a10, a11, a12⟩ := hagree c
  have henc : Cert.ReferenceIdeal.HandRun.ENC m' c = Cert.KernelIdeal.Named.ENC m c := by
    unfold Cert.ReferenceIdeal.HandRun.ENC Cert.KernelIdeal.Named.ENC Cert.KernelIdeal.Named.selOf
    rw [a0, a1, a3, a4, a5, a6]
  have hmu : Cert.ReferenceIdeal.HandRun.MU m' c = Cert.KernelIdeal.Named.MU m c := by
    unfold Cert.ReferenceIdeal.HandRun.MU Cert.KernelIdeal.Named.MU
    rw [henc]
  have hlv : Cert.ReferenceIdeal.HandRun.LV m' c = Cert.KernelIdeal.Named.LV m c := by
    unfold Cert.ReferenceIdeal.HandRun.LV Cert.KernelIdeal.Named.LV
    rw [henc]
  have hrc : Cert.ReferenceIdeal.HandRun.RECON m' c = Cert.KernelIdeal.Named.RECON m c := by
    unfold Cert.ReferenceIdeal.HandRun.RECON Cert.KernelIdeal.Named.RECON Cert.KernelIdeal.Named.selOf
    rw [hmu, hlv, a1, a2, a7, a8, a9, a10, a11, a12]
  exact ⟨(h c).1.trans hmu, (h c).2.1.trans hlv, (h c).2.2.1.trans hrc, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
